-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v102)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v102) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v165) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S3x128x128 : Shape := ⟨3, ![3, 128, 128]⟩
abbrev S3x128 : Shape := ⟨2, ![3, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part2 {F : FTy → Type} [FloatOps F] (main_arg8 : FVec F S3x128 .f32) (main_v33 : IVec S_ 1) : IVec S_ 1 :=
  let main_v34 : FVec F S3x128 .f32 := Host.absf main_arg8
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_cst_14 : FVec F S_ .f32 := constant S_ .f32 0x00000000#32
  let main_v39 : FVec F S3x128 .f32 := broadcastInDim S3x128 ![] bcast_S_S3x128 main_cst_14
  let main_v40 : IVec S3x128 1 := cmpf .oge main_arg8 main_v39
  let main_c_15 : IVec S_ 1 := constantI S_ 1 1#1
  let main_v41 : IVec S_ 1 := (fun x v => Host.reduce IntOp.andi x v reducesTo_S3x128_S_d0_1 h_S_) main_v40 main_c_15
  let main_v42 : IVec S_ 1 := andi main_v38 main_v41
  main_v42

def fn_part1 {F : FTy → Type} [FloatOps F] (main_arg5 : FVec F S3x128 .f32) (main_arg6 : FVec F S3x128 .f32) (main_arg7 : FVec F S3x128 .f32) (main_arg8 : FVec F S3x128 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg6
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128 .f32 := Host.absf main_arg7
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg8 main_v33

def fn {F : FTy → Type} [FloatOps F] (main_arg0 : FVec F S100000x128 .f32) (main_arg1 : IVec S2x1600000 32) (main_arg2 : FVec F S3x128x128 .f32) (main_arg3 : FVec F S3x128 .f32) (main_arg4 : FVec F S3x128x128 .f32) (main_arg5 : FVec F S3x128 .f32) (main_arg6 : FVec F S3x128 .f32) (main_arg7 : FVec F S3x128 .f32) (main_arg8 : FVec F S3x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x128 .f32 := Host.absf main_arg2
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg3
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg4
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg5 main_arg6 main_arg7 main_arg8 main_v13 main_v16
-- ==== Kernel.lean ====
abbrev S100000x128 : Shape := ⟨2, ![100000, 128]⟩
abbrev S2x1600000 : Shape := ⟨2, ![2, 1600000]⟩
abbrev S3x128x128 : Shape := ⟨3, ![3, 128, 128]⟩
abbrev S3x128 : Shape := ⟨2, ![3, 128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S10000x128 : Shape := ⟨2, ![10000, 128]⟩
abbrev S10000x1 : Shape := ⟨2, ![10000, 1]⟩

abbrev nBuf : Space → Nat
  | .hbm => 125
  | .vmem => 45
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S3x128x128, .f32⟩
  | .hbm, ⟨3, _⟩ => ⟨S3x128, .f32⟩
  | .hbm, ⟨4, _⟩ => ⟨S3x128x128, .f32⟩
  | .hbm, ⟨5, _⟩ => ⟨S3x128, .f32⟩
  | .hbm, ⟨6, _⟩ => ⟨S3x128, .f32⟩
  | .hbm, ⟨7, _⟩ => ⟨S3x128, .f32⟩
  | .hbm, ⟨8, _⟩ => ⟨S3x128, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .f32⟩
  | .hbm, ⟨14, _⟩ => ⟨S1600000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x128, .f32⟩
  | .hbm, ⟨35, _⟩ => ⟨S_, .f32⟩
  | .hbm, ⟨36, _⟩ => ⟨S100000x128, .f32⟩
  | .hbm, ⟨37, _⟩ => ⟨S1600000x1, .i32⟩
  | .hbm, ⟨38, _⟩ => ⟨S100000x128, .f32⟩
  | .hbm, ⟨39, _⟩ => ⟨S1x128x128, .f32⟩
  | .hbm, ⟨40, _⟩ => ⟨S128x128, .f32⟩
  | .hbm, ⟨41, _⟩ => ⟨S1x128, .f32⟩
  | .hbm, ⟨42, _⟩ => ⟨S128, .f32⟩
  | .hbm, ⟨43, _⟩ => ⟨S1x128x128, .f32⟩
  | .hbm, ⟨44, _⟩ => ⟨S128x128, .f32⟩
  | .hbm, ⟨45, _⟩ => ⟨S1x128, .f32⟩
  | .hbm, ⟨46, _⟩ => ⟨S128, .f32⟩
  | .hbm, ⟨47, _⟩ => ⟨S1x128, .f32⟩
  | .hbm, ⟨48, _⟩ => ⟨S128, .f32⟩
  | .hbm, ⟨49, _⟩ => ⟨S1x128, .f32⟩
  | .hbm, ⟨50, _⟩ => ⟨S128, .f32⟩
  | .hbm, ⟨51, _⟩ => ⟨S1x128, .f32⟩
  | .hbm, ⟨52, _⟩ => ⟨S128, .f32⟩
  | .hbm, ⟨53, _⟩ => ⟨S1x128, .f32⟩
  | .hbm, ⟨54, _⟩ => ⟨S1x128, .f32⟩
  | .hbm, ⟨55, _⟩ => ⟨S1x128, .f32⟩
  | .hbm, ⟨56, _⟩ => ⟨S1x128, .f32⟩
  | .hbm, ⟨57, _⟩ => ⟨S1x128, .f32⟩
  | .hbm, ⟨58, _⟩ => ⟨S100000x128, .f32⟩
  | .hbm, ⟨59, _⟩ => ⟨S_, .i32⟩
  | .hbm, ⟨60, _⟩ => ⟨S1600000, .i32⟩
  | .hbm, ⟨61, _⟩ => ⟨S1600000, .i1⟩
  | .hbm, ⟨62, _⟩ => ⟨S_, .i32⟩
  | .hbm, ⟨63, _⟩ => ⟨S1600000, .i32⟩
  | .hbm, ⟨64, _⟩ => ⟨S1600000, .i32⟩
  | .hbm, ⟨65, _⟩ => ⟨S1600000, .i32⟩
  | .hbm, ⟨66, _⟩ => ⟨S1600000x1, .i32⟩
  | .hbm, ⟨67, _⟩ => ⟨S1600000x128, .f32⟩
  | .hbm, ⟨68, _⟩ => ⟨S_, .f32⟩
  | .hbm, ⟨69, _⟩ => ⟨S100000x128, .f32⟩
  | .hbm, ⟨70, _⟩ => ⟨S1600000x1, .i32⟩
  | .hbm, ⟨71, _⟩ => ⟨S100000x128, .f32⟩
  | .hbm, ⟨72, _⟩ => ⟨S1x128x128, .f32⟩
  | .hbm, ⟨73, _⟩ => ⟨S128x128, .f32⟩
  | .hbm, ⟨74, _⟩ => ⟨S1x128, .f32⟩
  | .hbm, ⟨75, _⟩ => ⟨S128, .f32⟩
  | .hbm, ⟨76, _⟩ => ⟨S1x128x128, .f32⟩
  | .hbm, ⟨77, _⟩ => ⟨S128x128, .f32⟩
  | .hbm, ⟨78, _⟩ => ⟨S1x128, .f32⟩
  | .hbm, ⟨79, _⟩ => ⟨S128, .f32⟩
  | .hbm, ⟨80, _⟩ => ⟨S1x128, .f32⟩
  | .hbm, ⟨81, _⟩ => ⟨S128, .f32⟩
  | .hbm, ⟨82, _⟩ => ⟨S1x128, .f32⟩
  | .hbm, ⟨83, _⟩ => ⟨S128, .f32⟩
  | .hbm, ⟨84, _⟩ => ⟨S1x128, .f32⟩
  | .hbm, ⟨85, _⟩ => ⟨S128, .f32⟩
  | .hbm, ⟨86, _⟩ => ⟨S1x128, .f32⟩
  | .hbm, ⟨87, _⟩ => ⟨S1x128, .f32⟩
  | .hbm, ⟨88, _⟩ => ⟨S1x128, .f32⟩
  | .hbm, ⟨89, _⟩ => ⟨S1x128, .f32⟩
  | .hbm, ⟨90, _⟩ => ⟨S1x128, .f32⟩
  | .hbm, ⟨91, _⟩ => ⟨S100000x128, .f32⟩
  | .hbm, ⟨92, _⟩ => ⟨S_, .i32⟩
  | .hbm, ⟨93, _⟩ => ⟨S1600000, .i32⟩
  | .hbm, ⟨94, _⟩ => ⟨S1600000, .i1⟩
  | .hbm, ⟨95, _⟩ => ⟨S_, .i32⟩
  | .hbm, ⟨96, _⟩ => ⟨S1600000, .i32⟩
  | .hbm, ⟨97, _⟩ => ⟨S1600000, .i32⟩
  | .hbm, ⟨98, _⟩ => ⟨S1600000, .i32⟩
  | .hbm, ⟨99, _⟩ => ⟨S1600000x1, .i32⟩
  | .hbm, ⟨100, _⟩ => ⟨S1600000x128, .f32⟩
  | .hbm, ⟨101, _⟩ => ⟨S_, .f32⟩
  | .hbm, ⟨102, _⟩ => ⟨S100000x128, .f32⟩
  | .hbm, ⟨103, _⟩ => ⟨S1600000x1, .i32⟩
  | .hbm, ⟨104, _⟩ => ⟨S100000x128, .f32⟩
  | .hbm, ⟨105, _⟩ => ⟨S1x128x128, .f32⟩
  | .hbm, ⟨106, _⟩ => ⟨S128x128, .f32⟩
  | .hbm, ⟨107, _⟩ => ⟨S1x128, .f32⟩
  | .hbm, ⟨108, _⟩ => ⟨S128, .f32⟩
  | .hbm, ⟨109, _⟩ => ⟨S1x128x128, .f32⟩
  | .hbm, ⟨110, _⟩ => ⟨S128x128, .f32⟩
  | .hbm, ⟨111, _⟩ => ⟨S1x128, .f32⟩
  | .hbm, ⟨112, _⟩ => ⟨S128, .f32⟩
  | .hbm, ⟨113, _⟩ => ⟨S1x128, .f32⟩
  | .hbm, ⟨114, _⟩ => ⟨S128, .f32⟩
  | .hbm, ⟨115, _⟩ => ⟨S1x128, .f32⟩
  | .hbm, ⟨116, _⟩ => ⟨S128, .f32⟩
  | .hbm, ⟨117, _⟩ => ⟨S1x128, .f32⟩
  | .hbm, ⟨118, _⟩ => ⟨S128, .f32⟩
  | .hbm, ⟨119, _⟩ => ⟨S1x128, .f32⟩
  | .hbm, ⟨120, _⟩ => ⟨S1x128, .f32⟩
  | .hbm, ⟨121, _⟩ => ⟨S1x128, .f32⟩
  | .hbm, ⟨122, _⟩ => ⟨S1x128, .f32⟩
  | .hbm, ⟨123, _⟩ => ⟨S1x128, .f32⟩
  | .hbm, ⟨124, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S10000x1, .f32⟩
  | .local _ .vmem, ⟨5, _⟩ => ⟨S10000x1, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S10000x128, .f32⟩
  | .local _ .vmem, ⟨18, _⟩ => ⟨S10000x128, .f32⟩
  | .local _ .vmem, ⟨19, _⟩ => ⟨S10000x1, .f32⟩
  | .local _ .vmem, ⟨20, _⟩ => ⟨S10000x1, .f32⟩
  | .local _ .vmem, ⟨21, _⟩ => ⟨S128x128, .f32⟩
  | .local _ .vmem, ⟨22, _⟩ => ⟨S1x128, .f32⟩
  | .local _ .vmem, ⟨23, _⟩ => ⟨S128x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S1x128, .f32⟩
  | .local _ .vmem, ⟨28, _⟩ => ⟨S10000x128, .f32⟩
  | .local _ .vmem, ⟨29, _⟩ => ⟨S10000x128, .f32⟩
  | .local _ .vmem, ⟨30, _⟩ => ⟨S10000x128, .f32⟩
  | .local _ .vmem, ⟨31, _⟩ => ⟨S10000x128, .f32⟩
  | .local _ .vmem, ⟨32, _⟩ => ⟨S10000x128, .f32⟩
  | .local _ .vmem, ⟨33, _⟩ => ⟨S10000x128, .f32⟩
  | .local _ .vmem, ⟨34, _⟩ => ⟨S10000x1, .f32⟩
  | .local _ .vmem, ⟨35, _⟩ => ⟨S10000x1, .f32⟩
  | .local _ .vmem, ⟨36, _⟩ => ⟨S128x128, .f32⟩
  | .local _ .vmem, ⟨37, _⟩ => ⟨S1x128, .f32⟩
  | .local _ .vmem, ⟨38, _⟩ => ⟨S128x128, .f32⟩
  | .local _ .vmem, ⟨39, _⟩ => ⟨S1x128, .f32⟩
  | .local _ .vmem, ⟨40, _⟩ => ⟨S1x128, .f32⟩
  | .local _ .vmem, ⟨41, _⟩ => ⟨S1x128, .f32⟩
  | .local _ .vmem, ⟨42, _⟩ => ⟨S1x128, .f32⟩
  | .local _ .vmem, ⟨43, _⟩ => ⟨S10000x128, .f32⟩
  | .local _ .vmem, ⟨44, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_c_5 : Ref sig .tc := ⟨.hbm, 59, rfl⟩
abbrev main_v43 : Ref sig .tc := ⟨.hbm, 60, rfl⟩
abbrev main_v44 : Ref sig .tc := ⟨.hbm, 61, rfl⟩
abbrev main_c_6 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_7 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_c_8 : Ref sig .tc := ⟨.hbm, 92, rfl⟩
abbrev main_v73 : Ref sig .tc := ⟨.hbm, 93, rfl⟩
abbrev main_v74 : Ref sig .tc := ⟨.hbm, 94, rfl⟩
abbrev main_c_9 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_cst_10 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg9_0 : Ref sig .tc := ⟨.vmem, 27, rfl⟩
abbrev cc1_stg10_0 : Ref sig .tc := ⟨.vmem, 28, rfl⟩
abbrev cc1_stg10_1 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg1_1 : Ref sig .tc := ⟨.vmem, 33, rfl⟩
abbrev cc2_stg2_0 : Ref sig .tc := ⟨.vmem, 34, rfl⟩
abbrev cc2_stg2_1 : Ref sig .tc := ⟨.vmem, 35, rfl⟩
abbrev cc2_stg3_0 : Ref sig .tc := ⟨.vmem, 36, rfl⟩
abbrev cc2_stg4_0 : Ref sig .tc := ⟨.vmem, 37, rfl⟩
abbrev cc2_stg5_0 : Ref sig .tc := ⟨.vmem, 38, rfl⟩
abbrev cc2_stg6_0 : Ref sig .tc := ⟨.vmem, 39, rfl⟩
abbrev cc2_stg7_0 : Ref sig .tc := ⟨.vmem, 40, rfl⟩
abbrev cc2_stg8_0 : Ref sig .tc := ⟨.vmem, 41, rfl⟩
abbrev cc2_stg9_0 : Ref sig .tc := ⟨.vmem, 42, rfl⟩
abbrev cc2_stg10_0 : Ref sig .tc := ⟨.vmem, 43, rfl⟩
abbrev cc2_stg10_1 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem9_0 : DmaSem sig := 27
abbrev cc1_sem10_0 : DmaSem sig := 28
abbrev cc1_sem10_1 : DmaSem sig := 29
abbrev cc2_sem0_0 : DmaSem sig := 30
abbrev cc2_sem0_1 : DmaSem sig := 31
abbrev cc2_sem1_0 : DmaSem sig := 32
abbrev cc2_sem1_1 : DmaSem sig := 33
abbrev cc2_sem2_0 : DmaSem sig := 34
abbrev cc2_sem2_1 : DmaSem sig := 35
abbrev cc2_sem3_0 : DmaSem sig := 36
abbrev cc2_sem4_0 : DmaSem sig := 37
abbrev cc2_sem5_0 : DmaSem sig := 38
abbrev cc2_sem6_0 : DmaSem sig := 39
abbrev cc2_sem7_0 : DmaSem sig := 40
abbrev cc2_sem8_0 : DmaSem sig := 41
abbrev cc2_sem9_0 : DmaSem sig := 42
abbrev cc2_sem10_0 : DmaSem sig := 43
abbrev cc2_sem10_1 : DmaSem sig := 44

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S10000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S10000x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S10000x128 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .f32 = 32 ∨ (Rect.block (s := S100000x128) S10000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S10000x128.size a ≤ S100000x128.size a
  hwx0_10 : ∀ i : grid0.Coords, EltTy.bits .f32 = 32 ∨ (Rect.block (s := S100000x128) S10000x128.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S100000x128.size a
  hwx1_1 : ∀ i : grid1.Coords, EltTy.bits .f32 = 32 ∨ (Rect.block (s := S100000x128) S10000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x128.size a ≤ S1x128.size a
  hwx1_9 : ∀ i : grid1.Coords, EltTy.bits .f32 = 32 ∨ (Rect.block (s := S1x128) S1x128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S10000x128.size a ≤ S100000x128.size a
  hwx1_10 : ∀ i : grid1.Coords, EltTy.bits .f32 = 32 ∨ (Rect.block (s := S100000x128) S10000x128.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S100000x128.size a
  hwx2_1 : ∀ i : grid2.Coords, EltTy.bits .f32 = 32 ∨ (Rect.block (s := S100000x128) S10000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x1.size a ≤ S100000x1.size a
  hwx2_2 : ∀ i : grid2.Coords, EltTy.bits .f32 = 32 ∨ (Rect.block (s := S100000x1) S10000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x128.size a ≤ S1x128.size a
  hwx2_9 : ∀ i : grid2.Coords, EltTy.bits .f32 = 32 ∨ (Rect.block (s := S1x128) S1x128.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S10000x128.size a ≤ S100000x128.size a
  hwx2_10 : ∀ i : grid2.Coords, EltTy.bits .f32 = 32 ∨ (Rect.block (s := S100000x128) S10000x128.size (cc2_transform_10 i) (hinb2_10 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v22) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v37) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v38) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v39) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v40) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v41) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v42) S10000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v52) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v54) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v67) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v58) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v68) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v69) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v70) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v71) S1x128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v72) S10000x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v82) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v72) S10000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v12) S10000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v84) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v97) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v88) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v98) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v99) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v100) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v101) S1x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v102) S10000x128.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S3x128x128 : Shape := ⟨3, ![3, 128, 128]⟩
abbrev S3x128 : Shape := ⟨2, ![3, 128]⟩
abbrev S1x1600000 : Shape := ⟨2, ![1, 1600000]⟩
abbrev S1600000 : Shape := ⟨1, ![1600000]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩

abbrev nBuf : Space → Nat
  | .hbm => 222
  | .vmem => 0
  | .smem => 0
  | _ => 0

abbrev hbmTy0_0 (i : Nat) : BufTy := match i % 128 with
  | 0 => ⟨S100000x128, .f32⟩
  | 1 => ⟨S2x1600000, .i32⟩
  | 2 => ⟨S3x128x128, .f32⟩
  | 3 => ⟨S3x128, .f32⟩
  | 4 => ⟨S3x128x128, .f32⟩
  | 5 => ⟨S3x128, .f32⟩
  | 6 => ⟨S3x128, .f32⟩
  | 7 => ⟨S3x128, .f32⟩
  | 8 => ⟨S3x128, .f32⟩
  | 9 => ⟨S1x1600000, .i32⟩
  | 10 => ⟨S1600000, .i32⟩
  | 11 => ⟨S1x1600000, .i32⟩
  | 12 => ⟨S1600000, .i32⟩
  | 13 => ⟨S1x128x128, .f32⟩
  | 14 => ⟨S128x128, .f32⟩
  | 15 => ⟨S1x128, .f32⟩
  | 16 => ⟨S128, .f32⟩
  | 17 => ⟨S1x128x128, .f32⟩
  | 18 => ⟨S128x128, .f32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000x128, .f32⟩
  | 28 => ⟨S_, .f32⟩
  | 29 => ⟨S100000x128, .f32⟩
  | 30 => ⟨S1600000x1, .i32⟩
  | 31 => ⟨S100000x128, .f32⟩
  | 32 => ⟨S_, .f32⟩
  | 33 => ⟨S1600000, .f32⟩
  | 34 => ⟨S_, .f32⟩
  | 35 => ⟨S100000, .f32⟩
  | 36 => ⟨S1600000x1, .i32⟩
  | 37 => ⟨S100000, .f32⟩
  | 38 => ⟨S_, .f32⟩
  | 39 => ⟨S100000, .f32⟩
  | 40 => ⟨S100000, .f32⟩
  | 41 => ⟨S100000x1, .f32⟩
  | 42 => ⟨S100000x128, .f32⟩
  | 43 => ⟨S100000x128, .f32⟩
  | 44 => ⟨S100000x128, .f32⟩
  | 45 => ⟨S1x128, .f32⟩
  | 46 => ⟨S100000x128, .f32⟩
  | 47 => ⟨S100000x128, .f32⟩
  | 48 => ⟨S100000x128, .f32⟩
  | 49 => ⟨S100000x128, .f32⟩
  | 50 => ⟨S1x128, .f32⟩
  | 51 => ⟨S128, .f32⟩
  | 52 => ⟨S1x128, .f32⟩
  | 53 => ⟨S128, .f32⟩
  | 54 => ⟨S1x128, .f32⟩
  | 55 => ⟨S128, .f32⟩
  | 56 => ⟨S1x128, .f32⟩
  | 57 => ⟨S128, .f32⟩
  | 58 => ⟨S_, .f32⟩
  | 59 => ⟨S128, .f32⟩
  | 60 => ⟨S128, .f32⟩
  | 61 => ⟨S128, .f32⟩
  | 62 => ⟨S128, .f32⟩
  | 63 => ⟨S1x128, .f32⟩
  | 64 => ⟨S100000x128, .f32⟩
  | 65 => ⟨S100000x128, .f32⟩
  | 66 => ⟨S1x128, .f32⟩
  | 67 => ⟨S100000x128, .f32⟩
  | 68 => ⟨S100000x128, .f32⟩
  | 69 => ⟨S1x128, .f32⟩
  | 70 => ⟨S100000x128, .f32⟩
  | 71 => ⟨S100000x128, .f32⟩
  | 72 => ⟨S_, .f32⟩
  | 73 => ⟨S100000x128, .f32⟩
  | 74 => ⟨S100000x128, .f32⟩
  | 75 => ⟨S100000x128, .f32⟩
  | 76 => ⟨S100000x128, .f32⟩
  | 77 => ⟨S100000x128, .i1⟩
  | 78 => ⟨S100000x128, .f32⟩
  | 79 => ⟨S100000x128, .f32⟩
  | 80 => ⟨S100000x128, .f32⟩
  | 81 => ⟨S100000x128, .f32⟩
  | 82 => ⟨S100000x128, .f32⟩
  | 83 => ⟨S100000x128, .f32⟩
  | 84 => ⟨S100000x128, .f32⟩
  | 85 => ⟨S100000x128, .f32⟩
  | 86 => ⟨S100000x128, .f32⟩
  | 87 => ⟨S100000x128, .f32⟩
  | 88 => ⟨S1x128x128, .f32⟩
  | 89 => ⟨S128x128, .f32⟩
  | 90 => ⟨S1x128, .f32⟩
  | 91 => ⟨S128, .f32⟩
  | 92 => ⟨S1x128x128, .f32⟩
  | 93 => ⟨S128x128, .f32⟩
  | 94 => ⟨S_, .i32⟩
  | 95 => ⟨S1600000, .i32⟩
  | 96 => ⟨S1600000, .i1⟩
  | 97 => ⟨S_, .i32⟩
  | 98 => ⟨S1600000, .i32⟩
  | 99 => ⟨S1600000, .i32⟩
  | 100 => ⟨S1600000, .i32⟩
  | 101 => ⟨S1600000x1, .i32⟩
  | 102 => ⟨S1600000x128, .f32⟩
  | 103 => ⟨S_, .f32⟩
  | 104 => ⟨S100000x128, .f32⟩
  | 105 => ⟨S1600000x1, .i32⟩
  | 106 => ⟨S100000x128, .f32⟩
  | 107 => ⟨S_, .f32⟩
  | 108 => ⟨S1600000, .f32⟩
  | 109 => ⟨S_, .f32⟩
  | 110 => ⟨S100000, .f32⟩
  | 111 => ⟨S1600000x1, .i32⟩
  | 112 => ⟨S100000, .f32⟩
  | 113 => ⟨S_, .f32⟩
  | 114 => ⟨S100000, .f32⟩
  | 115 => ⟨S100000, .f32⟩
  | 116 => ⟨S100000x1, .f32⟩
  | 117 => ⟨S100000x128, .f32⟩
  | 118 => ⟨S100000x128, .f32⟩
  | 119 => ⟨S100000x128, .f32⟩
  | 120 => ⟨S1x128, .f32⟩
  | 121 => ⟨S100000x128, .f32⟩
  | 122 => ⟨S100000x128, .f32⟩
  | 123 => ⟨S100000x128, .f32⟩
  | 124 => ⟨S100000x128, .f32⟩
  | 125 => ⟨S1x128, .f32⟩
  | 126 => ⟨S128, .f32⟩
  | 127 => ⟨S1x128, .f32⟩
  | _ => ⟨S100000x128, .f32⟩

abbrev hbmTy0_1 (i : Nat) : BufTy := match i % 128 with
  | 0 => ⟨S128, .f32⟩
  | 1 => ⟨S1x128, .f32⟩
  | 2 => ⟨S128, .f32⟩
  | 3 => ⟨S1x128, .f32⟩
  | 4 => ⟨S128, .f32⟩
  | 5 => ⟨S_, .f32⟩
  | 6 => ⟨S128, .f32⟩
  | 7 => ⟨S128, .f32⟩
  | 8 => ⟨S128, .f32⟩
  | 9 => ⟨S128, .f32⟩
  | 10 => ⟨S1x128, .f32⟩
  | 11 => ⟨S100000x128, .f32⟩
  | 12 => ⟨S100000x128, .f32⟩
  | 13 => ⟨S1x128, .f32⟩
  | 14 => ⟨S100000x128, .f32⟩
  | 15 => ⟨S100000x128, .f32⟩
  | 16 => ⟨S1x128, .f32⟩
  | 17 => ⟨S100000x128, .f32⟩
  | 18 => ⟨S100000x128, .f32⟩
  | 19 => ⟨S_, .f32⟩
  | 20 => ⟨S100000x128, .f32⟩
  | 21 => ⟨S100000x128, .f32⟩
  | 22 => ⟨S100000x128, .f32⟩
  | 23 => ⟨S100000x128, .f32⟩
  | 24 => ⟨S100000x128, .i1⟩
  | 25 => ⟨S100000x128, .f32⟩
  | 26 => ⟨S100000x128, .f32⟩
  | 27 => ⟨S100000x128, .f32⟩
  | 28 => ⟨S100000x128, .f32⟩
  | 29 => ⟨S100000x128, .f32⟩
  | 30 => ⟨S100000x128, .f32⟩
  | 31 => ⟨S100000x128, .f32⟩
  | 32 => ⟨S100000x128, .f32⟩
  | 33 => ⟨S100000x128, .f32⟩
  | 34 => ⟨S100000x128, .f32⟩
  | 35 => ⟨S1x128x128, .f32⟩
  | 36 => ⟨S128x128, .f32⟩
  | 37 => ⟨S1x128, .f32⟩
  | 38 => ⟨S128, .f32⟩
  | 39 => ⟨S1x128x128, .f32⟩
  | 40 => ⟨S128x128, .f32⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000x128, .f32⟩
  | 50 => ⟨S_, .f32⟩
  | 51 => ⟨S100000x128, .f32⟩
  | 52 => ⟨S1600000x1, .i32⟩
  | 53 => ⟨S100000x128, .f32⟩
  | 54 => ⟨S_, .f32⟩
  | 55 => ⟨S1600000, .f32⟩
  | 56 => ⟨S_, .f32⟩
  | 57 => ⟨S100000, .f32⟩
  | 58 => ⟨S1600000x1, .i32⟩
  | 59 => ⟨S100000, .f32⟩
  | 60 => ⟨S_, .f32⟩
  | 61 => ⟨S100000, .f32⟩
  | 62 => ⟨S100000, .f32⟩
  | 63 => ⟨S100000x1, .f32⟩
  | 64 => ⟨S100000x128, .f32⟩
  | 65 => ⟨S100000x128, .f32⟩
  | 66 => ⟨S100000x128, .f32⟩
  | 67 => ⟨S1x128, .f32⟩
  | 68 => ⟨S100000x128, .f32⟩
  | 69 => ⟨S100000x128, .f32⟩
  | 70 => ⟨S100000x128, .f32⟩
  | 71 => ⟨S100000x128, .f32⟩
  | 72 => ⟨S1x128, .f32⟩
  | 73 => ⟨S128, .f32⟩
  | 74 => ⟨S1x128, .f32⟩
  | 75 => ⟨S128, .f32⟩
  | 76 => ⟨S1x128, .f32⟩
  | 77 => ⟨S128, .f32⟩
  | 78 => ⟨S1x128, .f32⟩
  | 79 => ⟨S128, .f32⟩
  | 80 => ⟨S_, .f32⟩
  | 81 => ⟨S128, .f32⟩
  | 82 => ⟨S128, .f32⟩
  | 83 => ⟨S128, .f32⟩
  | 84 => ⟨S128, .f32⟩
  | 85 => ⟨S1x128, .f32⟩
  | 86 => ⟨S100000x128, .f32⟩
  | 87 => ⟨S100000x128, .f32⟩
  | 88 => ⟨S1x128, .f32⟩
  | 89 => ⟨S100000x128, .f32⟩
  | 90 => ⟨S100000x128, .f32⟩
  | 91 => ⟨S1x128, .f32⟩
  | 92 => ⟨S100000x128, .f32⟩
  | 93 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_v10 : Ref sig .tc := ⟨.hbm, 20, rfl⟩
abbrev main_v11 : Ref sig .tc := ⟨.hbm, 21, rfl⟩
abbrev main_c_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_4 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_call0_cst : Ref sig .tc := ⟨.hbm, 72, rfl⟩
abbrev main_call0_v0 : Ref sig .tc := ⟨.hbm, 73, rfl⟩
abbrev main_call0_v1 : Ref sig .tc := ⟨.hbm, 74, rfl⟩
abbrev main_call0_v2 : Ref sig .tc := ⟨.hbm, 75, rfl⟩
abbrev main_call0_v3 : Ref sig .tc := ⟨.hbm, 76, rfl⟩
abbrev main_call0_v4 : Ref sig .tc := ⟨.hbm, 77, rfl⟩
abbrev main_call0_v5 : Ref sig .tc := ⟨.hbm, 78, rfl⟩
abbrev main_call0_v6 : Ref sig .tc := ⟨.hbm, 79, rfl⟩
abbrev main_call0_v7 : Ref sig .tc := ⟨.hbm, 80, rfl⟩
abbrev main_call0_v8 : Ref sig .tc := ⟨.hbm, 81, rfl⟩
abbrev main_call0_v9 : Ref sig .tc := ⟨.hbm, 82, rfl⟩
abbrev main_call0_v10 : Ref sig .tc := ⟨.hbm, 83, rfl⟩
abbrev main_call0_v11 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_c_5 : Ref sig .tc := ⟨.hbm, 94, rfl⟩
abbrev main_v65 : Ref sig .tc := ⟨.hbm, 95, rfl⟩
abbrev main_v66 : Ref sig .tc := ⟨.hbm, 96, rfl⟩
abbrev main_c_6 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_7 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_cst_8 : Ref sig .tc := ⟨.hbm, 107, rfl⟩
abbrev main_v75 : Ref sig .tc := ⟨.hbm, 108, rfl⟩
abbrev main_cst_9 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_cst_10 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_cst_11 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_call1_cst : Ref sig .tc := ⟨.hbm, 147, rfl⟩
abbrev main_call1_v0 : Ref sig .tc := ⟨.hbm, 148, rfl⟩
abbrev main_call1_v1 : Ref sig .tc := ⟨.hbm, 149, rfl⟩
abbrev main_call1_v2 : Ref sig .tc := ⟨.hbm, 150, rfl⟩
abbrev main_call1_v3 : Ref sig .tc := ⟨.hbm, 151, rfl⟩
abbrev main_call1_v4 : Ref sig .tc := ⟨.hbm, 152, rfl⟩
abbrev main_call1_v5 : Ref sig .tc := ⟨.hbm, 153, rfl⟩
abbrev main_call1_v6 : Ref sig .tc := ⟨.hbm, 154, rfl⟩
abbrev main_call1_v7 : Ref sig .tc := ⟨.hbm, 155, rfl⟩
abbrev main_call1_v8 : Ref sig .tc := ⟨.hbm, 156, rfl⟩
abbrev main_call1_v9 : Ref sig .tc := ⟨.hbm, 157, rfl⟩
abbrev main_call1_v10 : Ref sig .tc := ⟨.hbm, 158, rfl⟩
abbrev main_call1_v11 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_c_12 : Ref sig .tc := ⟨.hbm, 169, rfl⟩
abbrev main_v120 : Ref sig .tc := ⟨.hbm, 170, rfl⟩
abbrev main_v121 : Ref sig .tc := ⟨.hbm, 171, rfl⟩
abbrev main_c_13 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_cst_14 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_cst_15 : Ref sig .tc := ⟨.hbm, 182, rfl⟩
abbrev main_v130 : Ref sig .tc := ⟨.hbm, 183, rfl⟩
abbrev main_cst_16 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_cst_17 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_cst_18 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩
abbrev main_v165 : Ref sig .tc := ⟨.hbm, 221, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KRun.lean ====
/-
  The kernel program's run with its result named: from any memory with zero counters every weakly fair execution
  terminates without a fault, the nine argument arrays end as launched, and the result array ends at the contents the
  last pallas_call's write-backs leave — the buffer contents at the last segment boundary, read at the result's buffer.
  It is the frame's own run, its last step reading one more buffer off the final thread state.
-/
import proofs.«100346_j32134945309201_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_result : θ_run defs (onTc (τ := τ) (main (F := F))) ⟨m, fun _ => 0, ρ⟩ (fun r => ∀ c : Dev nD,
      r.2.mem ((c.tc : Thread nD τ).loc main_v102) = W6 m ρ c (Proc.devRef .tc main_v102)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v102 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)

end Cert.KernelIdeal.RunValue

end
-- ==== Proof.Spec.lean ====
/-
  One layer of a mean-aggregating graph convolution, followed by a batch normalisation with stored statistics and,
  optionally, the activation x · tanh(softplus x), as a function of the arrays it reads — at the exact values, in the
  two spellings the two programs use, and the law that makes them one function.

  For node p and channel q, with a(p,·) the sum of the neighbours' rows, h(p,·) the node's own row and c(p) the
  number of neighbours clamped below at 1:
    y(p,q) = (Σ_k (a(p,k) / c(p)) · Wl(k,q) + Σ_k h(p,k) · Wr(k,q) + bl(q) − μ(q)) · γ(q) / √(σ²(q) + ε) + β(q).
  One spelling multiplies a(p,k) by the reciprocal 1 / c(p) prepared once, adds the bias last and multiplies by
  γ(q) · (σ²(q) + ε)^(−1/2); the other divides a(p,k) by c(p), adds the bias before the second product and divides γ(q)
  by √(σ²(q) + ε). They agree because c(p) ≥ 1 is never zero, addition of extended reals is commutative and
  associative, and σ²(q) + ε is a positive real when σ²(q) is a non-negative real.
-/
import Idealize.ShloMosaic.Lib.ValueIdx
import Idealize.ShloMosaic.PureOps.Ideal.Laws

noncomputable section

namespace Cert.Sage

open Idealize.ShloMosaic Idealize.ShloMosaic.ValueIdx

abbrev TNC : Shape := ⟨2, ![100000, 128]⟩
abbrev TN1 : Shape := ⟨2, ![100000, 1]⟩
abbrev TN : Shape := ⟨1, ![100000]⟩
abbrev TCC : Shape := ⟨2, ![128, 128]⟩
abbrev T1C : Shape := ⟨2, ![1, 128]⟩
abbrev TC : Shape := ⟨1, ![128]⟩

/-- The three float words both programs carry: 0, 1 and ε. -/
def zeroV : EReal := Ideal.ofBits .f32 0x00000000#32
def oneV : EReal := Ideal.ofBits .f32 0x3F800000#32
def epsV : EReal := Ideal.ofBits .f32 0x3727C5AC#32

theorem zeroV_eq : zeroV = 0 := by
  unfold zeroV; simp [Ideal.ofBits, Ideal.ieee]

theorem oneV_eq : oneV = 1 := by
  unfold oneV; simp [Ideal.ofBits, Ideal.ieee, -EReal.coe_mul]; norm_num

/-- ε is a positive real. -/
theorem epsV_pos : ∃ e : ℝ, 0 < e ∧ epsV = (e : EReal) := by
  refine ⟨(10995116 : ℝ) / 2 ^ 40, by positivity, ?_⟩
  unfold epsV; simp [Ideal.ofBits, Ideal.ieee, -EReal.coe_mul]; norm_num

/-- softplus x = max x 0 + log(1 + e^(−|x − 0|)), behind a test "x − 0 differs from itself" that no extended real
    passes; the exponent written 0 − |x − 0| … -/
def softplusK (x : EReal) : EReal :=
  Scalar.select (Ideal.cmp .one (x - zeroV) (x - zeroV)) (x + zeroV)
    (max x zeroV + Ideal.log1p (Ideal.exp (zeroV - max (x - zeroV) (-(x - zeroV)))))
/-- … or −|x − 0|. -/
def softplusR (x : EReal) : EReal :=
  Scalar.select (Ideal.cmp .une (x - zeroV) (x - zeroV)) (x + zeroV)
    (max x zeroV + Ideal.log1p (Ideal.exp (-(max (x - zeroV) (-(x - zeroV))))))

theorem softplusK_eq (x : EReal) : softplusK x = softplusR x := by
  unfold softplusK softplusR
  rw [zeroV_eq, sub_eq_add_neg (0 : EReal), zero_add]
  rfl

/-- The activation x · tanh(softplus x), or none. -/
def actK (mish : Bool) (x : EReal) : EReal := if mish then x * Ideal.tanh (softplusK x) else x
def actR (mish : Bool) (x : EReal) : EReal := if mish then x * Ideal.tanh (softplusR x) else x

theorem actK_eq (mish : Bool) (x : EReal) : actK mish x = actR mish x := by
  unfold actK actR; rw [softplusK_eq]

/-- One node's normalised row before the activation, with the reciprocal count ic = 1 / c prepared … -/
def preK (a h : Fin 128 → EReal) (ic : EReal) (wl wr : Fin 128 → Fin 128 → EReal) (bl g be rm rv : Fin 128 → EReal)
    (q : Fin 128) : EReal :=
  ((∑ k, (a k * ic) * wl k q) + (∑ k, h k * wr k q) + bl q - rm q) * (g q * Ideal.rsqrt (rv q + epsV)) + be q
/-- … or dividing by the count c. -/
def preR (a h : Fin 128 → EReal) (c : EReal) (wl wr : Fin 128 → Fin 128 → EReal) (bl g be rm rv : Fin 128 → EReal)
    (q : Fin 128) : EReal :=
  ((((∑ k, Ideal.div (a k) c * wl k q) + bl q) + ∑ k, h k * wr k q) - rm q) * Ideal.div (g q) (Ideal.sqrt (rv q + epsV)) + be q

/-- Dividing by a count clamped below at 1 is multiplying by its reciprocal. -/
theorem div_count (x n : EReal) : Ideal.div x (max n oneV) = x * Ideal.div oneV (max n oneV) := by
  have h1 : (1 : EReal) ≤ max n oneV := by rw [oneV_eq]; exact le_max_right _ _
  have hne : max n oneV ≠ 0 := fun h0 => by rw [h0] at h1; exact absurd h1 (by norm_num)
  unfold Ideal.div
  rw [if_neg hne, if_neg hne, oneV_eq, one_mul]

/-- Over a positive real, dividing by the square root is multiplying by the reciprocal square root. -/
theorem div_sqrt (g v : EReal) (hv : ∃ r : ℝ, 0 ≤ r ∧ v = (r : EReal)) :
    Ideal.div g (Ideal.sqrt (v + epsV)) = g * Ideal.rsqrt (v + epsV) := by
  obtain ⟨r, hr, rfl⟩ := hv
  obtain ⟨e, he, hE⟩ := epsV_pos
  rw [hE, ← EReal.coe_add]
  have hpos : 0 < r + e := by linarith
  have hs : 0 < Real.sqrt (r + e) := Real.sqrt_pos.mpr hpos
  rw [Ideal.sqrt_coe, if_neg (not_lt.mpr hpos.le), Ideal.rsqrt_coe, if_neg (not_lt.mpr hpos.le), if_neg hpos.ne']
  unfold Ideal.div
  rw [if_neg (by exact_mod_cast hs.ne'), EReal.coe_inv]

theorem preR_eq (a h : Fin 128 → EReal) (n : EReal) (wl wr : Fin 128 → Fin 128 → EReal) (bl g be rm rv : Fin 128 → EReal)
    (hrv : ∀ q, ∃ r : ℝ, 0 ≤ r ∧ rv q = (r : EReal)) (q : Fin 128) :
    preR a h (max n oneV) wl wr bl g be rm rv q = preK a h (Ideal.div oneV (max n oneV)) wl wr bl g be rm rv q := by
  unfold preR preK
  rw [div_sqrt _ _ (hrv q), add_right_comm]
  have hs : (∑ k, Ideal.div (a k) (max n oneV) * wl k q) = ∑ k, (a k * Ideal.div oneV (max n oneV)) * wl k q :=
    Finset.sum_congr rfl fun k _ => by rw [div_count]
  rw [hs]

/-- The layer on arrays: the neighbour sums, the rows, the column of reciprocal counts, the two weight matrices and the
    five per-channel rows [1, 128] … -/
def layerK (mish : Bool) (agg h : FVec Ideal TNC .f32) (ic : FVec Ideal TN1 .f32) (wl : FVec Ideal TCC .f32)
    (bl : FVec Ideal T1C .f32) (wr : FVec Ideal TCC .f32) (g be rm rv : FVec Ideal T1C .f32) : FVec Ideal TNC .f32 :=
  fun i => actK mish (preK (fun k => agg (ix2 (i 0) k)) (fun k => h (ix2 (i 0) k)) (ic (ix2 (i 0) (0 : Fin 1)))
    (fun k q => wl (ix2 k q)) (fun k q => wr (ix2 k q)) (fun q => bl (ix2 (0 : Fin 1) q)) (fun q => g (ix2 (0 : Fin 1) q))
    (fun q => be (ix2 (0 : Fin 1) q)) (fun q => rm (ix2 (0 : Fin 1) q)) (fun q => rv (ix2 (0 : Fin 1) q)) (i 1))

/-- … or the counts [100000] and the five per-channel vectors [128]. -/
def layerR (mish : Bool) (agg h : FVec Ideal TNC .f32) (cnt : FVec Ideal TN .f32) (wl : FVec Ideal TCC .f32)
    (bl : FVec Ideal TC .f32) (wr : FVec Ideal TCC .f32) (g be rm rv : FVec Ideal TC .f32) : FVec Ideal TNC .f32 :=
  fun i => actR mish (preR (fun k => agg (ix2 (i 0) k)) (fun k => h (ix2 (i 0) k)) (max (cnt (ix1 (i 0))) oneV)
    (fun k q => wl (ix2 k q)) (fun k q => wr (ix2 k q)) (fun q => bl (ix1 q)) (fun q => g (ix1 q))
    (fun q => be (ix1 q)) (fun q => rm (ix1 q)) (fun q => rv (ix1 q)) (i 1))

/-- The two spellings are one function, when the column holds the reciprocals of the clamped counts, each row [1, 128]
    holds its vector's entries, and the variances are non-negative reals. -/
theorem layer_law (mish : Bool) (agg h : FVec Ideal TNC .f32) (cnt : FVec Ideal TN .f32) (ic : FVec Ideal TN1 .f32)
    (wl wr : FVec Ideal TCC .f32) (bl g be rm rv : FVec Ideal TC .f32) (bl' g' be' rm' rv' : FVec Ideal T1C .f32)
    (hic : ∀ p : Fin 100000, ic (ix2 p (0 : Fin 1)) = Ideal.div oneV (max (cnt (ix1 p)) oneV))
    (hbl : ∀ q : Fin 128, bl' (ix2 (0 : Fin 1) q) = bl (ix1 q)) (hg : ∀ q : Fin 128, g' (ix2 (0 : Fin 1) q) = g (ix1 q))
    (hbe : ∀ q : Fin 128, be' (ix2 (0 : Fin 1) q) = be (ix1 q)) (hrm : ∀ q : Fin 128, rm' (ix2 (0 : Fin 1) q) = rm (ix1 q))
    (hrv' : ∀ q : Fin 128, rv' (ix2 (0 : Fin 1) q) = rv (ix1 q))
    (hrv : ∀ q : Fin 128, ∃ r : ℝ, 0 ≤ r ∧ rv (ix1 q) = (r : EReal)) :
    layerR mish agg h cnt wl bl wr g be rm rv = layerK mish agg h ic wl bl' wr g' be' rm' rv' := by
  funext i
  obtain ⟨p, q, rfl⟩ : ∃ (p : Fin 100000) (q : Fin 128), i = ix2 p q := ⟨i 0, i 1, eq_ix2 i⟩
  show actR mish (preR (fun k => agg (ix2 p k)) (fun k => h (ix2 p k)) (max (cnt (ix1 p)) oneV)
      (fun k q => wl (ix2 k q)) (fun k q => wr (ix2 k q)) (fun q => bl (ix1 q)) (fun q => g (ix1 q))
      (fun q => be (ix1 q)) (fun q => rm (ix1 q)) (fun q => rv (ix1 q)) q)
    = actK mish (preK (fun k => agg (ix2 p k)) (fun k => h (ix2 p k)) (ic (ix2 p (0 : Fin 1)))
      (fun k q => wl (ix2 k q)) (fun k q => wr (ix2 k q)) (fun q => bl' (ix2 (0 : Fin 1) q)) (fun q => g' (ix2 (0 : Fin 1) q))
      (fun q => be' (ix2 (0 : Fin 1) q)) (fun q => rm' (ix2 (0 : Fin 1) q)) (fun q => rv' (ix2 (0 : Fin 1) q)) q)
  rw [actK_eq, preR_eq _ _ _ _ _ _ _ _ _ _ hrv, hic]
  simp only [hbl, hg, hbe, hrm, hrv']

end Cert.Sage

end
-- ==== Proof.KDefs.lean ====
/-
  The kernel program's host operations, grouped into the functions they compose to: the two rows of the edge list, the
  gather and scatter positions they give, the neighbour sum and the neighbour count, the column of reciprocal clamped
  counts prepared once, the per-layer slices of the stacked parameters and their one-row forms, and the three layers
  as the kernel tiles compute them.
-/
import proofs.«100346_j32134945309201_1_alg».proof.Proof.Gen.KernelIdeal
import proofs.«100346_j32134945309201_1_alg».proof.Proof.Spec

noncomputable section

namespace Cert.KernelIdeal.KValue

open Cert.KernelIdeal Cert.KernelIdeal.Gen Idealize.ShloMosaic

/-- Rows 0 and 1 of the edge list as flat arrays of words. -/
def row0 (e : IVec S2x1600000 32) : IVec S1600000 32 :=
  shapeCast _ (extractStridedSlice S1x1600000 ![0, 0] e slices_S2x1600000_S1x1600000_0_0) shapeCasts_S1x1600000_S1600000
def row1 (e : IVec S2x1600000 32) : IVec S1600000 32 :=
  shapeCast _ (extractStridedSlice S1x1600000 ![1, 0] e slices_S2x1600000_S1x1600000_1_0) shapeCasts_S1x1600000_S1600000

/-- One start word per edge, a negative word wrapped by adding the node count. -/
def srcW (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- One target word per edge. -/
def dstW (d : IVec S1600000 32) : IVec S1600000x1 32 :=
  broadcastInDim S1600000x1 ![0] bcast_S1600000_S1600000x1_0 d

/-- The neighbour sum: every edge adds its source node's row of h into its target node's row, from zero. -/
def aggW (s d : IVec S1600000 32) (h : FVec Ideal S100000x128 .f32) : FVec Ideal S100000x128 .f32 :=
  Host.scatterAdd scatter_S100000x128_S1600000x1_S1600000x128_1_0_0_1
    (broadcastInDim S100000x128 ![] bcast_S_S100000x128 (constant S_ .f32 0x00000000#32)) (dstW d)
    (Host.gather gather_S100000x128_S1600000x1_S1600000x128_1_0_n_n_0_1_1128 h (srcW s))

/-- The neighbour count: every edge adds 1 at its target node, from zero. -/
def cntW (d : IVec S1600000 32) : FVec Ideal S100000 .f32 :=
  Host.scatterAdd scatter_S100000_S1600000x1_S1600000_n_0_0_1
    (broadcastInDim S100000 ![] bcast_S_S100000 (constant S_ .f32 0x00000000#32)) (dstW d)
    (broadcastInDim S1600000 ![] bcast_S_S1600000 (constant S_ .f32 0x3F800000#32))

/-- The column of reciprocals 1 / max(count, 1). -/
def icW (d : IVec S1600000 32) : FVec Ideal S100000x1 .f32 :=
  shapeCast _ (Host.divf (broadcastInDim S100000 ![] bcast_S_S100000 (constant S_ .f32 0x3F800000#32))
    (maximumf (cntW d) (broadcastInDim S100000 ![] bcast_S_S100000 (constant S_ .f32 0x3F800000#32)))) shapeCasts_S100000_S100000x1

/-- Layer l's matrix out of a stack of three. -/
def mat0 (W : FVec Ideal S3x128x128 .f32) : FVec Ideal S128x128 .f32 :=
  shapeCast _ (extractStridedSlice S1x128x128 ![0, 0, 0] W slices_S3x128x128_S1x128x128_0_0_0) shapeCasts_S1x128x128_S128x128
def mat1 (W : FVec Ideal S3x128x128 .f32) : FVec Ideal S128x128 .f32 :=
  shapeCast _ (extractStridedSlice S1x128x128 ![1, 0, 0] W slices_S3x128x128_S1x128x128_1_0_0) shapeCasts_S1x128x128_S128x128
def mat2 (W : FVec Ideal S3x128x128 .f32) : FVec Ideal S128x128 .f32 :=
  shapeCast _ (extractStridedSlice S1x128x128 ![2, 0, 0] W slices_S3x128x128_S1x128x128_2_0_0) shapeCasts_S1x128x128_S128x128

/-- Layer l's vector out of a stack of three. -/
def vec0 (b : FVec Ideal S3x128 .f32) : FVec Ideal S128 .f32 :=
  shapeCast _ (extractStridedSlice S1x128 ![0, 0] b slices_S3x128_S1x128_0_0) shapeCasts_S1x128_S128
def vec1 (b : FVec Ideal S3x128 .f32) : FVec Ideal S128 .f32 :=
  shapeCast _ (extractStridedSlice S1x128 ![1, 0] b slices_S3x128_S1x128_1_0) shapeCasts_S1x128_S128
def vec2 (b : FVec Ideal S3x128 .f32) : FVec Ideal S128 .f32 :=
  shapeCast _ (extractStridedSlice S1x128 ![2, 0] b slices_S3x128_S1x128_2_0) shapeCasts_S1x128_S128

/-- A vector of 128 entries as one row. -/
def rowOf (v : FVec Ideal S128 .f32) : FVec Ideal S1x128 .f32 := shapeCast _ v shapeCasts_S128_S1x128

/-- The three layers on the node features x, the edge rows s (sources) and d (targets) given. -/
def kstep0 (s d : IVec S1600000 32) (x : FVec Ideal S100000x128 .f32) (Wl : FVec Ideal S3x128x128 .f32) (bl : FVec Ideal S3x128 .f32)
    (Wr : FVec Ideal S3x128x128 .f32) (g be rm rv : FVec Ideal S3x128 .f32) : FVec Ideal S100000x128 .f32 :=
  Cert.Sage.layerK true (aggW s d x) x (icW d) (mat0 Wl) (rowOf (vec0 bl)) (mat0 Wr) (rowOf (vec0 g)) (rowOf (vec0 be))
    (rowOf (vec0 rm)) (rowOf (vec0 rv))
def kstep1 (s d : IVec S1600000 32) (x : FVec Ideal S100000x128 .f32) (Wl : FVec Ideal S3x128x128 .f32) (bl : FVec Ideal S3x128 .f32)
    (Wr : FVec Ideal S3x128x128 .f32) (g be rm rv : FVec Ideal S3x128 .f32) : FVec Ideal S100000x128 .f32 :=
  Cert.Sage.layerK true (aggW s d x) x (icW d) (mat1 Wl) (rowOf (vec1 bl)) (mat1 Wr) (rowOf (vec1 g)) (rowOf (vec1 be))
    (rowOf (vec1 rm)) (rowOf (vec1 rv))
def kstep2 (s d : IVec S1600000 32) (x : FVec Ideal S100000x128 .f32) (Wl : FVec Ideal S3x128x128 .f32) (bl : FVec Ideal S3x128 .f32)
    (Wr : FVec Ideal S3x128x128 .f32) (g be rm rv : FVec Ideal S3x128 .f32) : FVec Ideal S100000x128 .f32 :=
  Cert.Sage.layerK false (aggW s d x) x (icW d) (mat2 Wl) (rowOf (vec2 bl)) (mat2 Wr) (rowOf (vec2 g)) (rowOf (vec2 be))
    (rowOf (vec2 rm)) (rowOf (vec2 rv))

/-- The whole kernel program as a function of its nine arguments. -/
def kfinalOf (x : FVec Ideal S100000x128 .f32) (e : IVec S2x1600000 32) (Wl : FVec Ideal S3x128x128 .f32) (bl : FVec Ideal S3x128 .f32)
    (Wr : FVec Ideal S3x128x128 .f32) (g be rm rv : FVec Ideal S3x128 .f32) : FVec Ideal S100000x128 .f32 :=
  kstep2 (row0 e) (row1 e) (kstep1 (row0 e) (row1 e) (kstep0 (row0 e) (row1 e) x Wl bl Wr g be rm rv) Wl bl Wr g be rm rv)
    Wl bl Wr g be rm rv

end Cert.KernelIdeal.KValue

end
-- ==== Proof.KHost.lean ====
/-
  What each stretch of the kernel program's host operations leaves in the buffers the next pallas_call's windows read,
  from any contents W at the stretch's start: the neighbour sum of the current node features, the column of reciprocal
  counts, this layer's two matrices and five one-row vectors; and what it leaves untouched — the arguments, the two edge
  rows, the current node features, the column of reciprocal counts.
-/
import proofs.«100346_j32134945309201_1_alg».proof.Proof.Gen.KernelIdeal.Launch
import proofs.«100346_j32134945309201_1_alg».proof.Proof.KDefs
import Idealize.ShloMosaic.Lib.StableHlo.Run

set_option maxRecDepth 16384

noncomputable section

namespace Cert.KernelIdeal.KValue

open Cert.KernelIdeal Cert.KernelIdeal.Gen Idealize.ShloMosaic Idealize.ShloMosaic.TcCoe Idealize.SL.Sem Idealize.ShloMosaic.StableHlo

variable (W : Valuation τ sig (Elt Ideal))

/-! ## Before the first pallas_call -/

theorem h0_v22 : StableHlo.after (hostOps0 (F := Ideal)) W (Proc.devRef .tc main_v22)
    = aggW (row0 (W (Proc.devRef .tc main_arg1))) (row1 (W (Proc.devRef .tc main_arg1))) (W (Proc.devRef .tc main_arg0)) := by
  after_results_simp
  rfl
theorem h0_v12 : StableHlo.after (hostOps0 (F := Ideal)) W (Proc.devRef .tc main_v12)
    = icW (row1 (W (Proc.devRef .tc main_arg1))) := by
  after_results_simp
  rfl
theorem h0_v24 : StableHlo.after (hostOps0 (F := Ideal)) W (Proc.devRef .tc main_v24)
    = mat0 (W (Proc.devRef .tc main_arg2)) := by
  after_results_simp
  rfl
theorem h0_v37 : StableHlo.after (hostOps0 (F := Ideal)) W (Proc.devRef .tc main_v37)
    = rowOf (vec0 (W (Proc.devRef .tc main_arg3))) := by
  after_results_simp
  rfl
theorem h0_v28 : StableHlo.after (hostOps0 (F := Ideal)) W (Proc.devRef .tc main_v28)
    = mat0 (W (Proc.devRef .tc main_arg4)) := by
  after_results_simp
  rfl
theorem h0_v38 : StableHlo.after (hostOps0 (F := Ideal)) W (Proc.devRef .tc main_v38)
    = rowOf (vec0 (W (Proc.devRef .tc main_arg5))) := by
  after_results_simp
  rfl
theorem h0_v39 : StableHlo.after (hostOps0 (F := Ideal)) W (Proc.devRef .tc main_v39)
    = rowOf (vec0 (W (Proc.devRef .tc main_arg6))) := by
  after_results_simp
  rfl
theorem h0_v40 : StableHlo.after (hostOps0 (F := Ideal)) W (Proc.devRef .tc main_v40)
    = rowOf (vec0 (W (Proc.devRef .tc main_arg7))) := by
  after_results_simp
  rfl
theorem h0_v41 : StableHlo.after (hostOps0 (F := Ideal)) W (Proc.devRef .tc main_v41)
    = rowOf (vec0 (W (Proc.devRef .tc main_arg8))) := by
  after_results_simp
  rfl
theorem h0_v1 : StableHlo.after (hostOps0 (F := Ideal)) W (Proc.devRef .tc main_v1)
    = row0 (W (Proc.devRef .tc main_arg1)) := by
  after_results_simp
  rfl
theorem h0_v3 : StableHlo.after (hostOps0 (F := Ideal)) W (Proc.devRef .tc main_v3)
    = row1 (W (Proc.devRef .tc main_arg1)) := by
  after_results_simp
  rfl
theorem h0_arg0 : StableHlo.after (hostOps0 (F := Ideal)) W (Proc.devRef .tc main_arg0)
    = (W (Proc.devRef .tc main_arg0)) := by
  after_results_simp
theorem h0_arg2 : StableHlo.after (hostOps0 (F := Ideal)) W (Proc.devRef .tc main_arg2)
    = (W (Proc.devRef .tc main_arg2)) := by
  after_results_simp
theorem h0_arg3 : StableHlo.after (hostOps0 (F := Ideal)) W (Proc.devRef .tc main_arg3)
    = (W (Proc.devRef .tc main_arg3)) := by
  after_results_simp
theorem h0_arg4 : StableHlo.after (hostOps0 (F := Ideal)) W (Proc.devRef .tc main_arg4)
    = (W (Proc.devRef .tc main_arg4)) := by
  after_results_simp
theorem h0_arg5 : StableHlo.after (hostOps0 (F := Ideal)) W (Proc.devRef .tc main_arg5)
    = (W (Proc.devRef .tc main_arg5)) := by
  after_results_simp
theorem h0_arg6 : StableHlo.after (hostOps0 (F := Ideal)) W (Proc.devRef .tc main_arg6)
    = (W (Proc.devRef .tc main_arg6)) := by
  after_results_simp
theorem h0_arg7 : StableHlo.after (hostOps0 (F := Ideal)) W (Proc.devRef .tc main_arg7)
    = (W (Proc.devRef .tc main_arg7)) := by
  after_results_simp
theorem h0_arg8 : StableHlo.after (hostOps0 (F := Ideal)) W (Proc.devRef .tc main_arg8)
    = (W (Proc.devRef .tc main_arg8)) := by
  after_results_simp

/-! ## Before pallas_call 1 -/

theorem h1_v52 : StableHlo.after (hostOps1 (F := Ideal)) W (Proc.devRef .tc main_v52)
    = aggW (W (Proc.devRef .tc main_v1)) (W (Proc.devRef .tc main_v3)) (W (Proc.devRef .tc main_v42)) := by
  after_results_simp
  rfl
theorem h1_v42 : StableHlo.after (hostOps1 (F := Ideal)) W (Proc.devRef .tc main_v42)
    = (W (Proc.devRef .tc main_v42)) := by
  after_results_simp
theorem h1_v12 : StableHlo.after (hostOps1 (F := Ideal)) W (Proc.devRef .tc main_v12)
    = (W (Proc.devRef .tc main_v12)) := by
  after_results_simp
theorem h1_v54 : StableHlo.after (hostOps1 (F := Ideal)) W (Proc.devRef .tc main_v54)
    = mat1 (W (Proc.devRef .tc main_arg2)) := by
  after_results_simp
  rfl
theorem h1_v58 : StableHlo.after (hostOps1 (F := Ideal)) W (Proc.devRef .tc main_v58)
    = mat1 (W (Proc.devRef .tc main_arg4)) := by
  after_results_simp
  rfl
theorem h1_v67 : StableHlo.after (hostOps1 (F := Ideal)) W (Proc.devRef .tc main_v67)
    = rowOf (vec1 (W (Proc.devRef .tc main_arg3))) := by
  after_results_simp
  rfl
theorem h1_v68 : StableHlo.after (hostOps1 (F := Ideal)) W (Proc.devRef .tc main_v68)
    = rowOf (vec1 (W (Proc.devRef .tc main_arg5))) := by
  after_results_simp
  rfl
theorem h1_v69 : StableHlo.after (hostOps1 (F := Ideal)) W (Proc.devRef .tc main_v69)
    = rowOf (vec1 (W (Proc.devRef .tc main_arg6))) := by
  after_results_simp
  rfl
theorem h1_v70 : StableHlo.after (hostOps1 (F := Ideal)) W (Proc.devRef .tc main_v70)
    = rowOf (vec1 (W (Proc.devRef .tc main_arg7))) := by
  after_results_simp
  rfl
theorem h1_v71 : StableHlo.after (hostOps1 (F := Ideal)) W (Proc.devRef .tc main_v71)
    = rowOf (vec1 (W (Proc.devRef .tc main_arg8))) := by
  after_results_simp
  rfl
theorem h1_v1 : StableHlo.after (hostOps1 (F := Ideal)) W (Proc.devRef .tc main_v1)
    = (W (Proc.devRef .tc main_v1)) := by
  after_results_simp
theorem h1_v3 : StableHlo.after (hostOps1 (F := Ideal)) W (Proc.devRef .tc main_v3)
    = (W (Proc.devRef .tc main_v3)) := by
  after_results_simp
theorem h1_arg2 : StableHlo.after (hostOps1 (F := Ideal)) W (Proc.devRef .tc main_arg2)
    = (W (Proc.devRef .tc main_arg2)) := by
  after_results_simp
theorem h1_arg3 : StableHlo.after (hostOps1 (F := Ideal)) W (Proc.devRef .tc main_arg3)
    = (W (Proc.devRef .tc main_arg3)) := by
  after_results_simp
theorem h1_arg4 : StableHlo.after (hostOps1 (F := Ideal)) W (Proc.devRef .tc main_arg4)
    = (W (Proc.devRef .tc main_arg4)) := by
  after_results_simp
theorem h1_arg5 : StableHlo.after (hostOps1 (F := Ideal)) W (Proc.devRef .tc main_arg5)
    = (W (Proc.devRef .tc main_arg5)) := by
  after_results_simp
theorem h1_arg6 : StableHlo.after (hostOps1 (F := Ideal)) W (Proc.devRef .tc main_arg6)
    = (W (Proc.devRef .tc main_arg6)) := by
  after_results_simp
theorem h1_arg7 : StableHlo.after (hostOps1 (F := Ideal)) W (Proc.devRef .tc main_arg7)
    = (W (Proc.devRef .tc main_arg7)) := by
  after_results_simp
theorem h1_arg8 : StableHlo.after (hostOps1 (F := Ideal)) W (Proc.devRef .tc main_arg8)
    = (W (Proc.devRef .tc main_arg8)) := by
  after_results_simp

/-! ## Before pallas_call 2 -/

theorem h2_v82 : StableHlo.after (hostOps2 (F := Ideal)) W (Proc.devRef .tc main_v82)
    = aggW (W (Proc.devRef .tc main_v1)) (W (Proc.devRef .tc main_v3)) (W (Proc.devRef .tc main_v72)) := by
  after_results_simp
  rfl
theorem h2_v72 : StableHlo.after (hostOps2 (F := Ideal)) W (Proc.devRef .tc main_v72)
    = (W (Proc.devRef .tc main_v72)) := by
  after_results_simp
theorem h2_v12 : StableHlo.after (hostOps2 (F := Ideal)) W (Proc.devRef .tc main_v12)
    = (W (Proc.devRef .tc main_v12)) := by
  after_results_simp
theorem h2_v84 : StableHlo.after (hostOps2 (F := Ideal)) W (Proc.devRef .tc main_v84)
    = mat2 (W (Proc.devRef .tc main_arg2)) := by
  after_results_simp
  rfl
theorem h2_v88 : StableHlo.after (hostOps2 (F := Ideal)) W (Proc.devRef .tc main_v88)
    = mat2 (W (Proc.devRef .tc main_arg4)) := by
  after_results_simp
  rfl
theorem h2_v97 : StableHlo.after (hostOps2 (F := Ideal)) W (Proc.devRef .tc main_v97)
    = rowOf (vec2 (W (Proc.devRef .tc main_arg3))) := by
  after_results_simp
  rfl
theorem h2_v98 : StableHlo.after (hostOps2 (F := Ideal)) W (Proc.devRef .tc main_v98)
    = rowOf (vec2 (W (Proc.devRef .tc main_arg5))) := by
  after_results_simp
  rfl
theorem h2_v99 : StableHlo.after (hostOps2 (F := Ideal)) W (Proc.devRef .tc main_v99)
    = rowOf (vec2 (W (Proc.devRef .tc main_arg6))) := by
  after_results_simp
  rfl
theorem h2_v100 : StableHlo.after (hostOps2 (F := Ideal)) W (Proc.devRef .tc main_v100)
    = rowOf (vec2 (W (Proc.devRef .tc main_arg7))) := by
  after_results_simp
  rfl
theorem h2_v101 : StableHlo.after (hostOps2 (F := Ideal)) W (Proc.devRef .tc main_v101)
    = rowOf (vec2 (W (Proc.devRef .tc main_arg8))) := by
  after_results_simp
  rfl

end Cert.KernelIdeal.KValue

end
-- ==== Proof.KChain.lean ====
/-
  The kernel program's result as one function of its nine arguments: the buffer contents at the last segment boundary,
  read at the result's buffer, walked back through the three pallas_calls and the three stretches of host operations.
  Each pallas_call leaves its output array at the layer function of its ten input arrays (taken here as hypotheses, one
  per call, at any entry contents) and every other buffer as it found it; each stretch of host operations prepares the
  next call's input arrays from the arguments, the two edge rows, the column of reciprocal counts and the previous
  layer's output.
-/
import proofs.«100346_j32134945309201_1_alg».proof.Proof.Gen.KernelIdeal.Frame
import proofs.«100346_j32134945309201_1_alg».proof.Proof.KHost

set_option maxRecDepth 16384

noncomputable section

namespace Cert.KernelIdeal.KValue

open Cert.KernelIdeal Cert.KernelIdeal.Gen Idealize.ShloMosaic Idealize.ShloMosaic.TcCoe Idealize.SL.Sem Idealize.ShloMosaic.StableHlo
open Idealize.ShloMosaic.Pipeline (Dat)

/-- What a pallas_call's output array holds after it, at any entry contents: the layer function of its input arrays. -/
abbrev Value0 : Prop := ∀ (V : (c : Dev nD) → (b : Ref sig .tc) → Buf (Elt Ideal) ((c : Thread nD τ).loc b)) (c : Dev nD),
  ((dat0 (F := Ideal) V c).arrAt 10 cfg0.N : S100000x128.Idx → EReal)
    = Cert.Sage.layerK true (V c main_v22) (V c main_arg0) (V c main_v12) (V c main_v24) (V c main_v37) (V c main_v28)
        (V c main_v38) (V c main_v39) (V c main_v40) (V c main_v41)
abbrev Value1 : Prop := ∀ (V : (c : Dev nD) → (b : Ref sig .tc) → Buf (Elt Ideal) ((c : Thread nD τ).loc b)) (c : Dev nD),
  ((dat1 (F := Ideal) V c).arrAt 10 cfg1.N : S100000x128.Idx → EReal)
    = Cert.Sage.layerK true (V c main_v52) (V c main_v42) (V c main_v12) (V c main_v54) (V c main_v67) (V c main_v58)
        (V c main_v68) (V c main_v69) (V c main_v70) (V c main_v71)
abbrev Value2 : Prop := ∀ (V : (c : Dev nD) → (b : Ref sig .tc) → Buf (Elt Ideal) ((c : Thread nD τ).loc b)) (c : Dev nD),
  ((dat2 (F := Ideal) V c).arrAt 10 cfg2.N : S100000x128.Idx → EReal)
    = Cert.Sage.layerK false (V c main_v82) (V c main_v72) (V c main_v12) (V c main_v84) (V c main_v97) (V c main_v88)
        (V c main_v98) (V c main_v99) (V c main_v100) (V c main_v101)

variable (m : (ℓ : Loc nD τ sig) → Buf (Elt Ideal) ℓ) (ρ : Dev nD → PrngReg) (c : Dev nD)

/-! ## After the first pallas_call -/

theorem w2_v42 (hv0 : Value0) : W2 m ρ c (Proc.devRef .tc main_v42)
    = kstep0 (row0 (m ((c : Thread nD τ).loc main_arg1))) (row1 (m ((c : Thread nD τ).loc main_arg1))) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W2_arr m ρ c 10).trans ((hv0 (V1 m ρ) c).trans ?_)
  show Cert.Sage.layerK true (StableHlo.after hostOps0 (W0 m ρ c) (Proc.devRef .tc main_v22))
      (StableHlo.after hostOps0 (W0 m ρ c) (Proc.devRef .tc main_arg0)) (StableHlo.after hostOps0 (W0 m ρ c) (Proc.devRef .tc main_v12))
      (StableHlo.after hostOps0 (W0 m ρ c) (Proc.devRef .tc main_v24)) (StableHlo.after hostOps0 (W0 m ρ c) (Proc.devRef .tc main_v37))
      (StableHlo.after hostOps0 (W0 m ρ c) (Proc.devRef .tc main_v28)) (StableHlo.after hostOps0 (W0 m ρ c) (Proc.devRef .tc main_v38))
      (StableHlo.after hostOps0 (W0 m ρ c) (Proc.devRef .tc main_v39)) (StableHlo.after hostOps0 (W0 m ρ c) (Proc.devRef .tc main_v40))
      (StableHlo.after hostOps0 (W0 m ρ c) (Proc.devRef .tc main_v41)) = _
  rw [h0_v22, h0_arg0, h0_v12, h0_v24, h0_v37, h0_v28, h0_v38, h0_v39, h0_v40, h0_v41]
  rfl

theorem w2_v1 : W2 m ρ c (Proc.devRef .tc main_v1) = row0 (m ((c : Thread nD τ).loc main_arg1)) :=
  (W2_of_ne m ρ c main_v1 (by decide)).trans (h0_v1 (W0 m ρ c))
theorem w2_v3 : W2 m ρ c (Proc.devRef .tc main_v3) = row1 (m ((c : Thread nD τ).loc main_arg1)) :=
  (W2_of_ne m ρ c main_v3 (by decide)).trans (h0_v3 (W0 m ρ c))
theorem w2_v12 : W2 m ρ c (Proc.devRef .tc main_v12) = icW (row1 (m ((c : Thread nD τ).loc main_arg1))) :=
  ((W2_arr m ρ c 2).trans (((dat0 (V1 m ρ) c).arrAt_in 2 rfl _).trans (A_eq0 (V1 m ρ) c 2))).trans (h0_v12 (W0 m ρ c))
theorem w2_arg2 : W2 m ρ c (Proc.devRef .tc main_arg2) = (m ((c : Thread nD τ).loc main_arg2)) :=
  (W2_of_ne m ρ c main_arg2 (by decide)).trans (h0_arg2 (W0 m ρ c))
theorem w2_arg3 : W2 m ρ c (Proc.devRef .tc main_arg3) = (m ((c : Thread nD τ).loc main_arg3)) :=
  (W2_of_ne m ρ c main_arg3 (by decide)).trans (h0_arg3 (W0 m ρ c))
theorem w2_arg4 : W2 m ρ c (Proc.devRef .tc main_arg4) = (m ((c : Thread nD τ).loc main_arg4)) :=
  (W2_of_ne m ρ c main_arg4 (by decide)).trans (h0_arg4 (W0 m ρ c))
theorem w2_arg5 : W2 m ρ c (Proc.devRef .tc main_arg5) = (m ((c : Thread nD τ).loc main_arg5)) :=
  (W2_of_ne m ρ c main_arg5 (by decide)).trans (h0_arg5 (W0 m ρ c))
theorem w2_arg6 : W2 m ρ c (Proc.devRef .tc main_arg6) = (m ((c : Thread nD τ).loc main_arg6)) :=
  (W2_of_ne m ρ c main_arg6 (by decide)).trans (h0_arg6 (W0 m ρ c))
theorem w2_arg7 : W2 m ρ c (Proc.devRef .tc main_arg7) = (m ((c : Thread nD τ).loc main_arg7)) :=
  (W2_of_ne m ρ c main_arg7 (by decide)).trans (h0_arg7 (W0 m ρ c))
theorem w2_arg8 : W2 m ρ c (Proc.devRef .tc main_arg8) = (m ((c : Thread nD τ).loc main_arg8)) :=
  (W2_of_ne m ρ c main_arg8 (by decide)).trans (h0_arg8 (W0 m ρ c))

/-! ## After the second pallas_call -/

theorem w4_v72 (hv0 : Value0) (hv1 : Value1) : W4 m ρ c (Proc.devRef .tc main_v72)
    = kstep1 (row0 (m ((c : Thread nD τ).loc main_arg1))) (row1 (m ((c : Thread nD τ).loc main_arg1)))
        (kstep0 (row0 (m ((c : Thread nD τ).loc main_arg1))) (row1 (m ((c : Thread nD τ).loc main_arg1))) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))
        (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W4_arr m ρ c 10).trans ((hv1 (V3 m ρ) c).trans ?_)
  show Cert.Sage.layerK true (StableHlo.after hostOps1 (W2 m ρ c) (Proc.devRef .tc main_v52))
      (StableHlo.after hostOps1 (W2 m ρ c) (Proc.devRef .tc main_v42)) (StableHlo.after hostOps1 (W2 m ρ c) (Proc.devRef .tc main_v12))
      (StableHlo.after hostOps1 (W2 m ρ c) (Proc.devRef .tc main_v54)) (StableHlo.after hostOps1 (W2 m ρ c) (Proc.devRef .tc main_v67))
      (StableHlo.after hostOps1 (W2 m ρ c) (Proc.devRef .tc main_v58)) (StableHlo.after hostOps1 (W2 m ρ c) (Proc.devRef .tc main_v68))
      (StableHlo.after hostOps1 (W2 m ρ c) (Proc.devRef .tc main_v69)) (StableHlo.after hostOps1 (W2 m ρ c) (Proc.devRef .tc main_v70))
      (StableHlo.after hostOps1 (W2 m ρ c) (Proc.devRef .tc main_v71)) = _
  rw [h1_v52, h1_v42, h1_v12, h1_v54, h1_v67, h1_v58, h1_v68, h1_v69, h1_v70, h1_v71,
    w2_v42 m ρ c hv0, w2_v1, w2_v3, w2_v12, w2_arg2, w2_arg3, w2_arg4, w2_arg5, w2_arg6, w2_arg7, w2_arg8]
  rfl

theorem w4_v1 : W4 m ρ c (Proc.devRef .tc main_v1) = row0 (m ((c : Thread nD τ).loc main_arg1)) :=
  (W4_of_ne m ρ c main_v1 (by decide)).trans ((h1_v1 (W2 m ρ c)).trans (w2_v1 m ρ c))
theorem w4_v3 : W4 m ρ c (Proc.devRef .tc main_v3) = row1 (m ((c : Thread nD τ).loc main_arg1)) :=
  (W4_of_ne m ρ c main_v3 (by decide)).trans ((h1_v3 (W2 m ρ c)).trans (w2_v3 m ρ c))
theorem w4_v12 : W4 m ρ c (Proc.devRef .tc main_v12) = icW (row1 (m ((c : Thread nD τ).loc main_arg1))) :=
  ((W4_arr m ρ c 2).trans (((dat1 (V3 m ρ) c).arrAt_in 2 rfl _).trans (A_eq1 (V3 m ρ) c 2))).trans
    ((h1_v12 (W2 m ρ c)).trans (w2_v12 m ρ c))
theorem w4_arg2 : W4 m ρ c (Proc.devRef .tc main_arg2) = (m ((c : Thread nD τ).loc main_arg2)) :=
  (W4_of_ne m ρ c main_arg2 (by decide)).trans ((h1_arg2 (W2 m ρ c)).trans (w2_arg2 m ρ c))
theorem w4_arg3 : W4 m ρ c (Proc.devRef .tc main_arg3) = (m ((c : Thread nD τ).loc main_arg3)) :=
  (W4_of_ne m ρ c main_arg3 (by decide)).trans ((h1_arg3 (W2 m ρ c)).trans (w2_arg3 m ρ c))
theorem w4_arg4 : W4 m ρ c (Proc.devRef .tc main_arg4) = (m ((c : Thread nD τ).loc main_arg4)) :=
  (W4_of_ne m ρ c main_arg4 (by decide)).trans ((h1_arg4 (W2 m ρ c)).trans (w2_arg4 m ρ c))
theorem w4_arg5 : W4 m ρ c (Proc.devRef .tc main_arg5) = (m ((c : Thread nD τ).loc main_arg5)) :=
  (W4_of_ne m ρ c main_arg5 (by decide)).trans ((h1_arg5 (W2 m ρ c)).trans (w2_arg5 m ρ c))
theorem w4_arg6 : W4 m ρ c (Proc.devRef .tc main_arg6) = (m ((c : Thread nD τ).loc main_arg6)) :=
  (W4_of_ne m ρ c main_arg6 (by decide)).trans ((h1_arg6 (W2 m ρ c)).trans (w2_arg6 m ρ c))
theorem w4_arg7 : W4 m ρ c (Proc.devRef .tc main_arg7) = (m ((c : Thread nD τ).loc main_arg7)) :=
  (W4_of_ne m ρ c main_arg7 (by decide)).trans ((h1_arg7 (W2 m ρ c)).trans (w2_arg7 m ρ c))
theorem w4_arg8 : W4 m ρ c (Proc.devRef .tc main_arg8) = (m ((c : Thread nD τ).loc main_arg8)) :=
  (W4_of_ne m ρ c main_arg8 (by decide)).trans ((h1_arg8 (W2 m ρ c)).trans (w2_arg8 m ρ c))

/-! ## After the third pallas_call: the result -/

theorem w6_result (hv0 : Value0) (hv1 : Value1) (hv2 : Value2) : W6 m ρ c (Proc.devRef .tc main_v102)
    = kfinalOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W6_arr m ρ c 10).trans ((hv2 (V5 m ρ) c).trans ?_)
  show Cert.Sage.layerK false (StableHlo.after hostOps2 (W4 m ρ c) (Proc.devRef .tc main_v82))
      (StableHlo.after hostOps2 (W4 m ρ c) (Proc.devRef .tc main_v72)) (StableHlo.after hostOps2 (W4 m ρ c) (Proc.devRef .tc main_v12))
      (StableHlo.after hostOps2 (W4 m ρ c) (Proc.devRef .tc main_v84)) (StableHlo.after hostOps2 (W4 m ρ c) (Proc.devRef .tc main_v97))
      (StableHlo.after hostOps2 (W4 m ρ c) (Proc.devRef .tc main_v88)) (StableHlo.after hostOps2 (W4 m ρ c) (Proc.devRef .tc main_v98))
      (StableHlo.after hostOps2 (W4 m ρ c) (Proc.devRef .tc main_v99)) (StableHlo.after hostOps2 (W4 m ρ c) (Proc.devRef .tc main_v100))
      (StableHlo.after hostOps2 (W4 m ρ c) (Proc.devRef .tc main_v101)) = _
  rw [h2_v82, h2_v72, h2_v12, h2_v84, h2_v97, h2_v88, h2_v98, h2_v99, h2_v100, h2_v101,
    w4_v72 m ρ c hv0 hv1, w4_v1, w4_v3, w4_v12, w4_arg2, w4_arg3, w4_arg4, w4_arg5, w4_arg6, w4_arg7, w4_arg8]
  rfl

end Cert.KernelIdeal.KValue

end
-- ==== Proof.LibPlain.lean ====
/-
  General facts, at the ideal values, about the plain two-dimensional matrix product and about reductions along the
  rows of a two-dimensional array, stated at indices built from their two coordinates; and two regroupings of a finite
  sum in a commutative monoid (by tiles of equal length; against a mask that keeps one index).
-/
import Idealize.ShloMosaic.Lib.ValueIdx
import Idealize.ShloMosaic.PureOps.Ideal.Laws
import Idealize.ShloMosaic.Lib.Pipeline.Value

noncomputable section

namespace Idealize.ShloMosaic

open ValueIdx

/-- In the plain product `[M,K] × [K,N]` the left operand is read at (row, k) -/
theorem plain_lhsIdx {M K N : Nat} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- and the right operand at (k, column). -/
theorem plain_rhsIdx {M K N : Nat} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- The matrix unit's product into a zero accumulator, at (p, q): the sum over k of L(p,k) · R(k,q). -/
theorem Ideal.matmul_plain_zero_apply {M K N : Nat} {φ₁ φ₂ : FTy} (prec : Option ContractPrecision)
    (L : FVec Ideal ⟨2, ![M, K]⟩ φ₁) (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) := by
  rw [Ideal.matmul_constant_zero_apply, ← Equiv.sum_comp (contrEquiv1 (DotDims.plain M K N) K rfl rfl).symm]
  exact Finset.sum_congr rfl fun k _ => by rw [plain_lhsIdx, plain_rhsIdx]

/-- The host's product, at (p, q): the same sum. -/
theorem Ideal.dotGeneral_plain_apply {M K N : Nat} {φ₁ φ₂ : FTy} (prec : Option ContractPrecision) (sched : HostSchedule)
    (L : FVec Ideal ⟨2, ![M, K]⟩ φ₁) (R : FVec Ideal ⟨2, ![K, N]⟩ φ₂) (p : Fin M) (q : Fin N) :
    FloatOps.dotGeneral (DotDims.plain M K N) prec sched L R (ix2 p q)
      = ∑ k : Fin K, L (ix2 p k) * R (ix2 k q) := by
  rw [Ideal.dotGeneral_apply, ← Equiv.sum_comp (contrEquiv1 (DotDims.plain M K N) K rfl rfl).symm]
  exact Finset.sum_congr rfl fun k _ => by rw [plain_lhsIdx, plain_rhsIdx]

/-- Reducing the second axis of an `[M,N]` array: the source index over row `p` with coordinate `q` inserted is (p, q). -/
theorem lift_rows {M N : Nat} (h : (⟨2, ![M, N]⟩ : Shape).Reduces [1] ⟨1, ![M]⟩) (p : Fin M) (q : Fin N) :
    h.lift (ix1 p) q = ix2 p q := by
  funext a
  apply Fin.ext
  match a with
  | ⟨0, _⟩ => rfl
  | ⟨1, _⟩ => rfl

/-- A lane sum along the rows, at row `p`: the sum over the row. -/
theorem Ideal.multiReduction_add_rows {M N : Nat} {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.add.neutral φ hφ) (p : Fin M) :
    multiReduction .add [1] ⟨1, ![M]⟩ src acc h hφ hacc (ix1 p) = ∑ q : Fin N, src (ix2 p q) := by
  rw [Ideal.multiReduction_add_single]
  exact Finset.sum_congr rfl fun q _ => congrArg src (lift_rows h p q)

/-- A lane maximum along the rows, at row `p`: the fold of `max` over the row from the accumulator's value. -/
theorem Ideal.multiReduction_maximumf_rows {M N : Nat} {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.maximumf.neutral φ hφ) (p : Fin M) :
    multiReduction .maximumf [1] ⟨1, ![M]⟩ src acc h hφ hacc (ix1 p)
      = (Finset.univ : Finset (Fin N)).fold max (FloatOps.ofBits φ acc) (fun q => src (ix2 p q)) := by
  rw [Ideal.multiReduction_maximumf_single]
  exact congrArg (fun f => Finset.fold max (FloatOps.ofBits φ acc) f Finset.univ) (funext fun q => congrArg src (lift_rows h p q) : src ∘ h.lift (ix1 p) = fun q => src (ix2 p q))

/-- The same two facts with the accumulator's word spelt as a kernel's text spells it (the -inf word; the zero word), the
    format's proof the literal one. -/
theorem Ideal.multiReduction_maximumf_rows_f32 {M N : Nat} (src : FVec Ideal ⟨2, ![M, N]⟩ .f32) (h : (⟨2, ![M, N]⟩ : Shape).Reduces [1] ⟨1, ![M]⟩)
    (hacc : (0xFF800000#32 : BitVec 32) = 0xFF800000#32) (p : Fin M) :
    multiReduction .maximumf [1] ⟨1, ![M]⟩ src 0xFF800000#32 h (.inl rfl) hacc (ix1 p)
      = (Finset.univ : Finset (Fin N)).fold max (Ideal.ofBits .f32 0xFF800000#32) (fun q => src (ix2 p q)) :=
  Ideal.multiReduction_maximumf_rows src _ h (.inl rfl) hacc p
theorem Ideal.multiReduction_add_rows_f32 {M N : Nat} (src : FVec Ideal ⟨2, ![M, N]⟩ .f32) (h : (⟨2, ![M, N]⟩ : Shape).Reduces [1] ⟨1, ![M]⟩)
    (hacc : (0x00000000#32 : BitVec 32) = 0x00000000#32) (p : Fin M) :
    multiReduction .add [1] ⟨1, ![M]⟩ src 0x00000000#32 h (.inl rfl) hacc (ix1 p) = ∑ q : Fin N, src (ix2 p q) :=
  Ideal.multiReduction_add_rows src _ h (.inl rfl) hacc p

/-- The vector exponential at an index. -/
theorem exp_apply_ideal {s : Shape} {φ : FTy} (a : FVec Ideal s φ) (i : s.Idx) : Idealize.ShloMosaic.exp a i = Ideal.exp (a i) := rfl

/-- A rank-1 vector recast as a column, at (p, q): the vector at p. -/
theorem shapeCast_col {α : Type} {M : Nat} (x : (⟨1, ![M]⟩ : Shape).Idx → α) (h : (⟨1, ![M]⟩ : Shape).ShapeCasts ⟨2, ![M, 1]⟩)
    (p : Fin M) (q : Fin 1) : shapeCast ⟨2, ![M, 1]⟩ x h (ix2 p q) = x (ix1 p) := by
  refine shapeCast_apply x h (ix2 p q) (ix1 p) ?_
  rw [Shape.rowMajor_val_one, Shape.rowMajor_val_two]
  show p.val = p.val * 1 + q.val
  omega

/-- A column broadcast along the rows, at (p, q): the column at p. -/
theorem broadcastTo_col {α : Type} {M N : Nat} (x : (⟨2, ![M, 1]⟩ : Shape).Idx → α) (h : (⟨2, ![M, 1]⟩ : Shape).Broadcasts ⟨2, ![M, N]⟩)
    (p : Fin M) (q : Fin N) : broadcastTo ⟨2, ![M, N]⟩ x h (ix2 p q) = x (ix2 p 0) := by
  refine broadcastTo_apply x h (ix2 p q) (ix2 p 0) fun a => ?_
  match a with
  | ⟨0, _⟩ =>
    show p.val = if M = 1 then 0 else p.val
    split
    · have := p.isLt; omega
    · rfl
  | ⟨1, _⟩ =>
    show (0 : Fin 1).val = if (1 : Nat) = 1 then 0 else q.val
    rw [if_pos rfl]; rfl

namespace Layer
/-- Two linear maps with the clamp `max · z` before each, on one row. -/
def net {a b c : Nat} (z : EReal) (y : Fin a → EReal) (W1 : Fin a → Fin b → EReal) (W2 : Fin b → Fin c → EReal) (q : Fin c) : EReal :=
  ∑ k : Fin b, max (∑ j : Fin a, max (y j) z * W1 j k) z * W2 k q
/-- The softmax of one row, with the maximum taken from `ninf`. -/
def smax {c : Nat} (ninf : EReal) (l : Fin c → EReal) (q : Fin c) : EReal :=
  Ideal.div (Ideal.exp (l q - max ninf (Finset.univ.fold max ninf l)))
    (∑ q' : Fin c, Ideal.exp (l q' - max ninf (Finset.univ.fold max ninf l)))
/-- Both depend on their arguments only through their values. -/
theorem net_congr {a b c : Nat} (z : EReal) {y y' : Fin a → EReal} {W1 W1' : Fin a → Fin b → EReal} {W2 W2' : Fin b → Fin c → EReal}
    (hy : ∀ j, y j = y' j) (h1 : ∀ j k, W1 j k = W1' j k) (h2 : ∀ k q, W2 k q = W2' k q) (q : Fin c) :
    net z y W1 W2 q = net z y' W1' W2' q := by
  rw [funext hy, funext fun j => funext (h1 j), funext fun k => funext (h2 k)]
theorem smax_net_congr {a b c : Nat} (z ninf : EReal) {y y' : Fin a → EReal} {W1 W1' : Fin a → Fin b → EReal} {W2 W2' : Fin b → Fin c → EReal}
    (hy : ∀ j, y j = y' j) (h1 : ∀ j k, W1 j k = W1' j k) (h2 : ∀ k q, W2 k q = W2' k q) (q : Fin c) :
    smax ninf (net z y W1 W2) q = smax ninf (net z y' W1' W2') q := by
  rw [funext hy, funext fun j => funext (h1 j), funext fun k => funext (h2 k)]
end Layer

/-- A sum over `T · K` consecutive indices is the sum over the `T` tiles of the sums over each tile's `K` indices. -/
theorem sum_tiles {α : Type*} [AddCommMonoid α] (T K : Nat) (f : Fin (T * K) → α) :
    ∑ j, f j = ∑ t : Fin T, ∑ k : Fin K, f (finProdFinEquiv (t, k)) :=
  (Fintype.sum_equiv finProdFinEquiv (fun x => f (finProdFinEquiv x)) f (fun _ => rfl)).symm.trans (Fintype.sum_prod_type _)

end Idealize.ShloMosaic

end
-- ==== Proof.KBody.lean ====
/-
  The arithmetic of one tile of a layer, read at one entry. A tile holds 10000 node rows. Its result at row r and
  channel q is, before the activation,
    ((Σ_k (a(r,k) · ic(r)) · Wl(k,q)) + (Σ_k h(r,k) · Wr(k,q)) + bl(q) − μ(q)) · (γ(q) · rsqrt(σ²(q) + ε)) + β(q),
  where a and h are the tile's rows of the neighbour sums and of the node features, ic its column of reciprocal
  counts, and the two weight matrices and the five per-channel rows are whole. Each step is pointwise, a broadcast of
  a column or of a row, or a matrix product into a zero accumulator, so the entry depends only on row r of a and h,
  on ic(r), and on column q of everything else: exactly the scalar form `Cert.Sage.preK`. The first two layers then
  apply x · tanh(softplus x), entry by entry: `Cert.Sage.actK true`; the last one applies nothing.
-/
import proofs.«100346_j32134945309201_1_alg».proof.Proof.Gen.KernelIdeal.Skeleton
import proofs.«100346_j32134945309201_1_alg».proof.Proof.Spec
import proofs.«100346_j32134945309201_1_alg».proof.Proof.LibPlain
import Idealize.ShloMosaic.Lib.ValueLayout
import Idealize.ShloMosaic.Lib.Pipeline.Value

noncomputable section

namespace Cert.KernelIdeal.RegionValue

open Idealize.ShloMosaic Idealize.ShloMosaic.ValueIdx Cert.KernelIdeal Cert.KernelIdeal.Gen

/-- The printed contraction record is the plain product [10000,128] × [128,128]. -/
theorem dot_plain : dot_S10000x128_S128x128_S10000x128_1_0_0_1_n_n = DotDims.plain 10000 128 128 := rfl

/-- The scalar form at row r, column q, of blocks given as functions. -/
abbrev preAt (a h : FVec Ideal S10000x128 .f32) (ic : FVec Ideal S10000x1 .f32) (wl wr : FVec Ideal S128x128 .f32)
    (bl g be rm rv : FVec Ideal S1x128 .f32) (r : Fin 10000) (q : Fin 128) : EReal :=
  Cert.Sage.preK (fun k => a (ix2 r k)) (fun k => h (ix2 r k)) (ic (ix2 r (0 : Fin 1))) (fun k q => wl (ix2 k q))
    (fun k q => wr (ix2 k q)) (fun q => bl (ix2 (0 : Fin 1) q)) (fun q => g (ix2 (0 : Fin 1) q))
    (fun q => be (ix2 (0 : Fin 1) q)) (fun q => rm (ix2 (0 : Fin 1) q)) (fun q => rv (ix2 (0 : Fin 1) q)) q

/-- A tile's matrix product into the zero accumulator, at (r, q). -/
theorem matmul_tile (L : FVec Ideal S10000x128 .f32) (R : FVec Ideal S128x128 .f32) (r : Fin 10000) (q : Fin 128) :
    matmul dot_S10000x128_S128x128_S10000x128_1_0_0_1_n_n none L R (constant S10000x128 .f32 0x00000000#32) (ix2 r q)
      = ∑ k : Fin 128, L (ix2 r k) * R (ix2 k q) := by
  rw [dot_plain]
  exact Ideal.matmul_plain_zero_apply (M := 10000) (K := 128) (N := 128) none L R r q

/-- A per-channel row spread over the tile's rows, at (r, q). -/
theorem row_tile (v : FVec Ideal S1x128 .f32) (r : Fin 10000) (q : Fin 128) :
    broadcastTo S10000x128 v broadcasts_S1x128_S10000x128 (ix2 r q) = v (ix2 (0 : Fin 1) q) :=
  broadcastTo_1b_ab_apply (a := 10000) (b := 128) v broadcasts_S1x128_S10000x128 r q

/-- A per-row column spread over the channels, at (r, q). -/
theorem col_tile (v : FVec Ideal S10000x1 .f32) (r : Fin 10000) (q : Fin 128) :
    broadcastTo S10000x128 v broadcasts_S10000x1_S10000x128 (ix2 r q) = v (ix2 r (0 : Fin 1)) :=
  broadcastTo_col (M := 10000) (N := 128) v broadcasts_S10000x1_S10000x128 r q

/-- Layer 0's tile before the activation, at (r, q). -/
theorem k0_pay2_apply (a h : FVec Ideal S10000x128 .f32) (ic : FVec Ideal S10000x1 .f32) (wl wr : FVec Ideal S128x128 .f32)
    (bl g be rm rv : FVec Ideal S1x128 .f32) (r : Fin 10000) (q : Fin 128) :
    k0_pay2 (F := Ideal) a h ic wl wr bl g be rm rv (ix2 r q) = preAt a h ic wl wr bl g be rm rv r q := by
  unfold k0_pay2
  simp only [shapeCast_self]
  rw [addf_apply, mulf_apply, subf_apply, addf_apply, addf_apply, matmul_tile, matmul_tile,
    row_tile, row_tile, row_tile, row_tile]
  simp only [mulf_apply, col_tile]
  rfl

/-- Layer 0's activation, entry by entry. -/
theorem k0_pay1_apply (v : FVec Ideal S10000x128 .f32) (i : S10000x128.Idx) :
    k0_pay1 (F := Ideal) v i = Cert.Sage.actK true (v i) := rfl

/-- Layers 1 and 2 keep the last addend β(q) apart: the tile before it, at (r, q), with β(q) added. -/
theorem k1_pay2_apply (a h : FVec Ideal S10000x128 .f32) (ic : FVec Ideal S10000x1 .f32) (wl wr : FVec Ideal S128x128 .f32)
    (bl g be rm rv : FVec Ideal S1x128 .f32) (r : Fin 10000) (q : Fin 128) :
    k1_pay2 (F := Ideal) a h ic wl wr bl g rm rv (ix2 r q) + be (ix2 (0 : Fin 1) q) = preAt a h ic wl wr bl g be rm rv r q := by
  unfold k1_pay2
  simp only [shapeCast_self]
  rw [mulf_apply, subf_apply, addf_apply, addf_apply, matmul_tile, matmul_tile, row_tile, row_tile, row_tile]
  simp only [mulf_apply, col_tile]
  rfl

theorem k1_pay3_apply (be : FVec Ideal S1x128 .f32) (r : Fin 10000) (q : Fin 128) :
    k1_pay3 (F := Ideal) be (ix2 r q) = be (ix2 (0 : Fin 1) q) := by
  unfold k1_pay3
  simp only [shapeCast_self]
  exact row_tile be r q

/-- Layer 1's sum and activation, entry by entry. -/
theorem k1_pay1_apply (u v : FVec Ideal S10000x128 .f32) (i : S10000x128.Idx) :
    k1_pay1 (F := Ideal) u v i = Cert.Sage.actK true (u i + v i) := rfl

theorem k2_pay2_apply (a h : FVec Ideal S10000x128 .f32) (ic : FVec Ideal S10000x1 .f32) (wl wr : FVec Ideal S128x128 .f32)
    (bl g be rm rv : FVec Ideal S1x128 .f32) (r : Fin 10000) (q : Fin 128) :
    k2_pay2 (F := Ideal) a h ic wl wr bl g rm rv (ix2 r q) + be (ix2 (0 : Fin 1) q) = preAt a h ic wl wr bl g be rm rv r q := by
  unfold k2_pay2
  simp only [shapeCast_self]
  rw [mulf_apply, subf_apply, addf_apply, addf_apply, matmul_tile, matmul_tile, row_tile, row_tile, row_tile]
  simp only [mulf_apply, col_tile]
  rfl

theorem k2_pay3_apply (be : FVec Ideal S1x128 .f32) (r : Fin 10000) (q : Fin 128) :
    k2_pay3 (F := Ideal) be (ix2 r q) = be (ix2 (0 : Fin 1) q) := by
  unfold k2_pay3
  simp only [shapeCast_self]
  exact row_tile be r q

/-- Layer 2's sum, with no activation, entry by entry. -/
theorem k2_pay1_apply (u v : FVec Ideal S10000x128 .f32) (i : S10000x128.Idx) :
    k2_pay1 (F := Ideal) u v i = Cert.Sage.actK false (u i + v i) := rfl

/-- The two-axis offset vector of zeros is the zero function. -/
theorem hz : (![0, 0] : Fin 2 → Nat) = fun _ => 0 := funext fun a => by fin_cases a <;> rfl

/-- From a tile to the arrays. If row r of the tile's blocks of the neighbour sums and of the features is row p of
    the arrays, the tile's reciprocal count at r is the array's at p, and the seven whole windows hold their arrays,
    then the scalar form at (r, q) over the blocks is the layer function of the arrays at (p, q). -/
theorem tile_eq (mish : Bool) (A H : FVec Ideal S100000x128 .f32) (IC : FVec Ideal S100000x1 .f32)
    (WL : FVec Ideal S128x128 .f32) (BL : FVec Ideal S1x128 .f32) (WR : FVec Ideal S128x128 .f32) (G BE RM RV : FVec Ideal S1x128 .f32)
    (x0 x1 : FVec Ideal S10000x128 .f32) (x2 : FVec Ideal S10000x1 .f32) (x3 : FVec Ideal S128x128 .f32)
    (x4 : FVec Ideal S1x128 .f32) (x5 : FVec Ideal S128x128 .f32) (x6 x7 x8 x9 : FVec Ideal S1x128 .f32)
    (p : Fin 100000) (r : Fin 10000) (q : Fin 128)
    (h0 : ∀ k : Fin 128, x0 (ix2 r k) = A (ix2 p k)) (h1 : ∀ k : Fin 128, x1 (ix2 r k) = H (ix2 p k))
    (h2 : x2 (ix2 r (0 : Fin 1)) = IC (ix2 p (0 : Fin 1)))
    (h3 : x3 = WL) (h4 : x4 = BL) (h5 : x5 = WR) (h6 : x6 = G) (h7 : x7 = BE) (h8 : x8 = RM) (h9 : x9 = RV) :
    Cert.Sage.actK mish (preAt x0 x1 x2 x3 x5 x4 x6 x7 x8 x9 r q)
      = Cert.Sage.layerK mish A H IC WL BL WR G BE RM RV (ix2 p q) := by
  subst h3 h4 h5 h6 h7 h8 h9
  have e0 : (fun k : Fin 128 => x0 (ix2 r k)) = fun k => A (ix2 p k) := funext h0
  have e1 : (fun k : Fin 128 => x1 (ix2 r k)) = fun k => H (ix2 p k) := funext h1
  unfold preAt
  rw [e0, e1, h2]
  rfl

end Cert.KernelIdeal.RegionValue

end
-- ==== Proof.KRegion0.lean ====
/-
  Layer 0's tiles put together. The output array [100000,128] is written in ten tiles of 10000 rows; tile t is
  computed from rows 10000·t … 10000·t + 9999 of the neighbour sums, of the features and of the reciprocal counts, and
  from the two weight matrices and the five per-channel rows, which every tile sees whole. Row r of tile t is therefore
  row p = 10000·t + r of the layer function of the arrays, and since the ten tiles cover every row (row p lies in
  tile p / 10000), the output array ends holding the layer function, whatever it held before.
-/
import proofs.«100346_j32134945309201_1_alg».proof.Proof.Gen.KernelIdeal.Frame
import proofs.«100346_j32134945309201_1_alg».proof.Proof.KBody

noncomputable section

namespace Cert.KernelIdeal.RegionValue

open Idealize.ShloMosaic Idealize.ShloMosaic.ValueIdx Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- What one tile's body leaves at (r, q), from its ten blocks: the scalar form over the blocks, activated. -/
theorem out0_10_apply (x0 x1 : Vec Ideal S10000x128 .f32) (x2 : Vec Ideal S10000x1 .f32) (x3 : Vec Ideal S128x128 .f32)
    (x4 : Vec Ideal S1x128 .f32) (x5 : Vec Ideal S128x128 .f32) (x6 x7 x8 x9 : Vec Ideal S1x128 .f32) (r : Fin 10000) (q : Fin 128) :
    out0_10 (F := Ideal) x0 x1 x2 x3 x4 x5 x6 x7 x8 x9 (ix2 r q)
      = Cert.Sage.actK true (preAt x0 x1 x2 x3 x5 x4 x6 x7 x8 x9 r q) := by
  unfold out0_10
  rw [View.canon_unit_zero hz]
  simp only [View.ld_unit_zero (S := S10000x128) hz, View.ld_unit_zero (S := S10000x1) hz,
    View.ld_unit_zero (S := S128x128) hz, View.ld_unit_zero (S := S1x128) hz]
  rw [k0_pay1_apply, k0_pay2_apply]

/-- The block indices over the ten grid points: tile t of the row-tiled windows is block (t, 0); the whole windows stay
    at block (0, 0). -/
theorem idx_facts0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_10.index t (0 : Fin 2) = t.val ∧ win0_10.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0) :=
  (by decide +kernel : ∀ t : Fin grid0.N, _)

/-- Row r of tile t of window 0 is row 10000·t + r of its array. -/
theorem blk0_0 (c : Dev nD) (t : Fin cfg0.N) (r : Fin 10000) (k : Fin 128) (p : Fin 100000) (hp : p.val = t.val * 10000 + r.val) :
    (iblk0 (F := Ideal) V c 0 t : Vec Ideal S10000x128 .f32) (ix2 r k) = (V c main_v22 : S100000x128.Idx → EReal) (ix2 p k) := by
  obtain ⟨⟨e0a, e0b⟩, ⟨e1a, e1b⟩, ⟨e2a, e2b⟩, ⟨e10a, e10b⟩, ⟨e3a, e3b⟩, ⟨e4a, e4b⟩, ⟨e5a, e5b⟩, ⟨e6a, e6b⟩, ⟨e7a, e7b⟩, ⟨e8a, e8b⟩, ⟨e9a, e9b⟩⟩ := idx_facts0 t
  unfold iblk0
  rw [View.read_apply]
  show V c main_v22 _ = V c main_v22 _
  refine congrArg (V c main_v22) ?_
  funext a
  apply Fin.ext
  match a with
  | ⟨0, _⟩ => show win0_0.index t (0 : Fin 2) * 10000 + 1 * r.val = p.val; rw [e0a, hp]; omega
  | ⟨1, _⟩ => show win0_0.index t (1 : Fin 2) * 128 + 1 * k.val = k.val; rw [e0b]; omega

/-- Row r of tile t of window 1 is row 10000·t + r of its array. -/
theorem blk0_1 (c : Dev nD) (t : Fin cfg0.N) (r : Fin 10000) (k : Fin 128) (p : Fin 100000) (hp : p.val = t.val * 10000 + r.val) :
    (iblk0 (F := Ideal) V c 1 t : Vec Ideal S10000x128 .f32) (ix2 r k) = (V c main_arg0 : S100000x128.Idx → EReal) (ix2 p k) := by
  obtain ⟨⟨e0a, e0b⟩, ⟨e1a, e1b⟩, ⟨e2a, e2b⟩, ⟨e10a, e10b⟩, ⟨e3a, e3b⟩, ⟨e4a, e4b⟩, ⟨e5a, e5b⟩, ⟨e6a, e6b⟩, ⟨e7a, e7b⟩, ⟨e8a, e8b⟩, ⟨e9a, e9b⟩⟩ := idx_facts0 t
  unfold iblk0
  rw [View.read_apply]
  show V c main_arg0 _ = V c main_arg0 _
  refine congrArg (V c main_arg0) ?_
  funext a
  apply Fin.ext
  match a with
  | ⟨0, _⟩ => show win0_1.index t (0 : Fin 2) * 10000 + 1 * r.val = p.val; rw [e1a, hp]; omega
  | ⟨1, _⟩ => show win0_1.index t (1 : Fin 2) * 128 + 1 * k.val = k.val; rw [e1b]; omega

/-- Entry r of tile t of the column of reciprocal counts is entry 10000·t + r of the column. -/
theorem blk0_2 (c : Dev nD) (t : Fin cfg0.N) (r : Fin 10000) (p : Fin 100000) (hp : p.val = t.val * 10000 + r.val) :
    (iblk0 (F := Ideal) V c 2 t : Vec Ideal S10000x1 .f32) (ix2 r (0 : Fin 1)) = (V c main_v12 : S100000x1.Idx → EReal) (ix2 p (0 : Fin 1)) := by
  obtain ⟨⟨e0a, e0b⟩, ⟨e1a, e1b⟩, ⟨e2a, e2b⟩, ⟨e10a, e10b⟩, ⟨e3a, e3b⟩, ⟨e4a, e4b⟩, ⟨e5a, e5b⟩, ⟨e6a, e6b⟩, ⟨e7a, e7b⟩, ⟨e8a, e8b⟩, ⟨e9a, e9b⟩⟩ := idx_facts0 t
  unfold iblk0
  rw [View.read_apply]
  show V c main_v12 _ = V c main_v12 _
  refine congrArg (V c main_v12) ?_
  funext a
  apply Fin.ext
  match a with
  | ⟨0, _⟩ => show win0_2.index t (0 : Fin 2) * 10000 + 1 * r.val = p.val; rw [e2a, hp]; omega
  | ⟨1, _⟩ => show win0_2.index t (1 : Fin 2) * 1 + 1 * (0 : Fin 1).val = (0 : Fin 1).val; rw [e2b]; rfl

/-- Window 3's one block is its whole array. -/
theorem whole0_3 (c : Dev nD) (t : Fin cfg0.N) :
    (iblk0 (F := Ideal) V c 3 t : Vec Ideal S128x128 .f32) = (V c main_v24 : S128x128.Idx → EReal) := by
  obtain ⟨⟨e0a, e0b⟩, ⟨e1a, e1b⟩, ⟨e2a, e2b⟩, ⟨e10a, e10b⟩, ⟨e3a, e3b⟩, ⟨e4a, e4b⟩, ⟨e5a, e5b⟩, ⟨e6a, e6b⟩, ⟨e7a, e7b⟩, ⟨e8a, e8b⟩, ⟨e9a, e9b⟩⟩ := idx_facts0 t
  funext y
  unfold iblk0
  rw [View.read_apply]
  show V c main_v24 _ = V c main_v24 y
  refine congrArg (V c main_v24) ?_
  funext a
  apply Fin.ext
  match a with
  | ⟨0, _⟩ => show win0_3.index t (0 : Fin 2) * 128 + 1 * (y 0).val = (y 0).val; rw [e3a]; omega
  | ⟨1, _⟩ => show win0_3.index t (1 : Fin 2) * 128 + 1 * (y 1).val = (y 1).val; rw [e3b]; omega

/-- Window 4's one block is its whole array. -/
theorem whole0_4 (c : Dev nD) (t : Fin cfg0.N) :
    (iblk0 (F := Ideal) V c 4 t : Vec Ideal S1x128 .f32) = (V c main_v37 : S1x128.Idx → EReal) := by
  obtain ⟨⟨e0a, e0b⟩, ⟨e1a, e1b⟩, ⟨e2a, e2b⟩, ⟨e10a, e10b⟩, ⟨e3a, e3b⟩, ⟨e4a, e4b⟩, ⟨e5a, e5b⟩, ⟨e6a, e6b⟩, ⟨e7a, e7b⟩, ⟨e8a, e8b⟩, ⟨e9a, e9b⟩⟩ := idx_facts0 t
  funext y
  unfold iblk0
  rw [View.read_apply]
  show V c main_v37 _ = V c main_v37 y
  refine congrArg (V c main_v37) ?_
  funext a
  apply Fin.ext
  match a with
  | ⟨0, _⟩ => show win0_4.index t (0 : Fin 2) * 1 + 1 * (y 0).val = (y 0).val; rw [e4a]; omega
  | ⟨1, _⟩ => show win0_4.index t (1 : Fin 2) * 128 + 1 * (y 1).val = (y 1).val; rw [e4b]; omega

/-- Window 5's one block is its whole array. -/
theorem whole0_5 (c : Dev nD) (t : Fin cfg0.N) :
    (iblk0 (F := Ideal) V c 5 t : Vec Ideal S128x128 .f32) = (V c main_v28 : S128x128.Idx → EReal) := by
  obtain ⟨⟨e0a, e0b⟩, ⟨e1a, e1b⟩, ⟨e2a, e2b⟩, ⟨e10a, e10b⟩, ⟨e3a, e3b⟩, ⟨e4a, e4b⟩, ⟨e5a, e5b⟩, ⟨e6a, e6b⟩, ⟨e7a, e7b⟩, ⟨e8a, e8b⟩, ⟨e9a, e9b⟩⟩ := idx_facts0 t
  funext y
  unfold iblk0
  rw [View.read_apply]
  show V c main_v28 _ = V c main_v28 y
  refine congrArg (V c main_v28) ?_
  funext a
  apply Fin.ext
  match a with
  | ⟨0, _⟩ => show win0_5.index t (0 : Fin 2) * 128 + 1 * (y 0).val = (y 0).val; rw [e5a]; omega
  | ⟨1, _⟩ => show win0_5.index t (1 : Fin 2) * 128 + 1 * (y 1).val = (y 1).val; rw [e5b]; omega

/-- Window 6's one block is its whole array. -/
theorem whole0_6 (c : Dev nD) (t : Fin cfg0.N) :
    (iblk0 (F := Ideal) V c 6 t : Vec Ideal S1x128 .f32) = (V c main_v38 : S1x128.Idx → EReal) := by
  obtain ⟨⟨e0a, e0b⟩, ⟨e1a, e1b⟩, ⟨e2a, e2b⟩, ⟨e10a, e10b⟩, ⟨e3a, e3b⟩, ⟨e4a, e4b⟩, ⟨e5a, e5b⟩, ⟨e6a, e6b⟩, ⟨e7a, e7b⟩, ⟨e8a, e8b⟩, ⟨e9a, e9b⟩⟩ := idx_facts0 t
  funext y
  unfold iblk0
  rw [View.read_apply]
  show V c main_v38 _ = V c main_v38 y
  refine congrArg (V c main_v38) ?_
  funext a
  apply Fin.ext
  match a with
  | ⟨0, _⟩ => show win0_6.index t (0 : Fin 2) * 1 + 1 * (y 0).val = (y 0).val; rw [e6a]; omega
  | ⟨1, _⟩ => show win0_6.index t (1 : Fin 2) * 128 + 1 * (y 1).val = (y 1).val; rw [e6b]; omega

/-- Window 7's one block is its whole array. -/
theorem whole0_7 (c : Dev nD) (t : Fin cfg0.N) :
    (iblk0 (F := Ideal) V c 7 t : Vec Ideal S1x128 .f32) = (V c main_v39 : S1x128.Idx → EReal) := by
  obtain ⟨⟨e0a, e0b⟩, ⟨e1a, e1b⟩, ⟨e2a, e2b⟩, ⟨e10a, e10b⟩, ⟨e3a, e3b⟩, ⟨e4a, e4b⟩, ⟨e5a, e5b⟩, ⟨e6a, e6b⟩, ⟨e7a, e7b⟩, ⟨e8a, e8b⟩, ⟨e9a, e9b⟩⟩ := idx_facts0 t
  funext y
  unfold iblk0
  rw [View.read_apply]
  show V c main_v39 _ = V c main_v39 y
  refine congrArg (V c main_v39) ?_
  funext a
  apply Fin.ext
  match a with
  | ⟨0, _⟩ => show win0_7.index t (0 : Fin 2) * 1 + 1 * (y 0).val = (y 0).val; rw [e7a]; omega
  | ⟨1, _⟩ => show win0_7.index t (1 : Fin 2) * 128 + 1 * (y 1).val = (y 1).val; rw [e7b]; omega

/-- Window 8's one block is its whole array. -/
theorem whole0_8 (c : Dev nD) (t : Fin cfg0.N) :
    (iblk0 (F := Ideal) V c 8 t : Vec Ideal S1x128 .f32) = (V c main_v40 : S1x128.Idx → EReal) := by
  obtain ⟨⟨e0a, e0b⟩, ⟨e1a, e1b⟩, ⟨e2a, e2b⟩, ⟨e10a, e10b⟩, ⟨e3a, e3b⟩, ⟨e4a, e4b⟩, ⟨e5a, e5b⟩, ⟨e6a, e6b⟩, ⟨e7a, e7b⟩, ⟨e8a, e8b⟩, ⟨e9a, e9b⟩⟩ := idx_facts0 t
  funext y
  unfold iblk0
  rw [View.read_apply]
  show V c main_v40 _ = V c main_v40 y
  refine congrArg (V c main_v40) ?_
  funext a
  apply Fin.ext
  match a with
  | ⟨0, _⟩ => show win0_8.index t (0 : Fin 2) * 1 + 1 * (y 0).val = (y 0).val; rw [e8a]; omega
  | ⟨1, _⟩ => show win0_8.index t (1 : Fin 2) * 128 + 1 * (y 1).val = (y 1).val; rw [e8b]; omega

/-- Window 9's one block is its whole array. -/
theorem whole0_9 (c : Dev nD) (t : Fin cfg0.N) :
    (iblk0 (F := Ideal) V c 9 t : Vec Ideal S1x128 .f32) = (V c main_v41 : S1x128.Idx → EReal) := by
  obtain ⟨⟨e0a, e0b⟩, ⟨e1a, e1b⟩, ⟨e2a, e2b⟩, ⟨e10a, e10b⟩, ⟨e3a, e3b⟩, ⟨e4a, e4b⟩, ⟨e5a, e5b⟩, ⟨e6a, e6b⟩, ⟨e7a, e7b⟩, ⟨e8a, e8b⟩, ⟨e9a, e9b⟩⟩ := idx_facts0 t
  funext y
  unfold iblk0
  rw [View.read_apply]
  show V c main_v41 _ = V c main_v41 y
  refine congrArg (V c main_v41) ?_
  funext a
  apply Fin.ext
  match a with
  | ⟨0, _⟩ => show win0_9.index t (0 : Fin 2) * 1 + 1 * (y 0).val = (y 0).val; rw [e9a]; omega
  | ⟨1, _⟩ => show win0_9.index t (1 : Fin 2) * 128 + 1 * (y 1).val = (y 1).val; rw [e9b]; omega

/-- Entry (r, q) of the output's tile t sits at (10000·t + r, q) of the output array. -/
theorem emb0_10 (c : Dev nD) (t : Fin cfg0.N) (r : Fin 10000) (q : Fin 128) (p : Fin 100000) (hp : p.val = t.val * 10000 + r.val) :
    (((cfg0.win 10).blk t).view.emb (ix2 r q) : S100000x128.Idx) = ix2 p q := by
  obtain ⟨⟨e0a, e0b⟩, ⟨e1a, e1b⟩, ⟨e2a, e2b⟩, ⟨e10a, e10b⟩, ⟨e3a, e3b⟩, ⟨e4a, e4b⟩, ⟨e5a, e5b⟩, ⟨e6a, e6b⟩, ⟨e7a, e7b⟩, ⟨e8a, e8b⟩, ⟨e9a, e9b⟩⟩ := idx_facts0 t
  funext a
  apply Fin.ext
  match a with
  | ⟨0, _⟩ => show win0_10.index t (0 : Fin 2) * 10000 + 1 * r.val = p.val; rw [e10a, hp]; omega
  | ⟨1, _⟩ => show win0_10.index t (1 : Fin 2) * 128 + 1 * q.val = q.val; rw [e10b]; omega

/-- What point t writes back is tile t of the layer function of the arrays as the region finds them. -/
theorem flushed0 (c : Dev nD) (t : Fin cfg0.N) :
    (dat0 (F := Ideal) V c).flushed 10 t = ((cfg0.win 10).blk t).view.read (Elt Ideal)
      (Cert.Sage.layerK true (V c main_v22) (V c main_arg0) (V c main_v12) (V c main_v24) (V c main_v37) (V c main_v28) (V c main_v38) (V c main_v39) (V c main_v40) (V c main_v41)) := by
  show (cfg0.win 10).cut (grid0.coords t) ((dat0 V c).after 10 t) = _
  rw [after0_10]
  funext j
  obtain ⟨r, q, rfl⟩ : ∃ (r : Fin 10000) (q : Fin 128), j = ix2 r q := ⟨j 0, j 1, eq_ix2 j⟩
  have hN : cfg0.N = 10 := N_0
  have ht : t.val < 10 := hN ▸ t.isLt
  have hp : t.val * 10000 + r.val < 100000 := by have := r.isLt; omega
  refine (out0_10_apply (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) r q).trans ?_
  rw [View.read_apply]
  show _ = Cert.Sage.layerK true (V c main_v22) (V c main_arg0) (V c main_v12) (V c main_v24) (V c main_v37) (V c main_v28) (V c main_v38) (V c main_v39) (V c main_v40) (V c main_v41) (((cfg0.win 10).blk t).view.emb (ix2 r q))
  rw [emb0_10 c t r q ⟨t.val * 10000 + r.val, hp⟩ rfl]
  exact tile_eq true (V c main_v22) (V c main_arg0) (V c main_v12) (V c main_v24) (V c main_v37) (V c main_v28) (V c main_v38) (V c main_v39) (V c main_v40) (V c main_v41)
    (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t)
    ⟨t.val * 10000 + r.val, hp⟩ r q
    (fun k => blk0_0 V c t r k _ rfl) (fun k => blk0_1 V c t r k _ rfl) (blk0_2 V c t r _ rfl)
    (whole0_3 V c t) (whole0_4 V c t) (whole0_5 V c t) (whole0_6 V c t) (whole0_7 V c t) (whole0_8 V c t) (whole0_9 V c t)

/-- An index of the output array lies in tile t iff each coordinate lies in the tile's range on its axis. -/
theorem mem_blk0 (t : Fin cfg0.N) (i : S100000x128.Idx) :
    i ∈ ((cfg0.win 10).blk t).view.set ↔ ∀ a : Fin 2, win0_10.index t a * S10000x128.size a ≤ (i a).val
      ∧ (i a).val < win0_10.index t a * S10000x128.size a + S10000x128.size a := by
  show i ∈ ((View.whole main_v42).slice (win0_10.rect t)).set ↔ _
  rw [View.set_slice_whole, Rect.mem_set_unit]
  exact Iff.rfl

/-- Every row lies in a tile: row p in tile p / 10000. -/
theorem cover0 (i : S100000x128.Idx) : ∃ t : Fin cfg0.N, (cfg0.win 10).flush t = true ∧ i ∈ ((cfg0.win 10).blk t).view.set := by
  have hi0 : (i 0).val < 100000 := (i 0).isLt
  have hi1 : (i 1).val < 128 := (i 1).isLt
  have hN : cfg0.N = 10 := N_0
  have ht : (i 0).val / 10000 < cfg0.N := by rw [hN]; omega
  obtain ⟨⟨e0a, e0b⟩, ⟨e1a, e1b⟩, ⟨e2a, e2b⟩, ⟨e10a, e10b⟩, ⟨e3a, e3b⟩, ⟨e4a, e4b⟩, ⟨e5a, e5b⟩, ⟨e6a, e6b⟩, ⟨e7a, e7b⟩, ⟨e8a, e8b⟩, ⟨e9a, e9b⟩⟩ := idx_facts0 ⟨(i 0).val / 10000, ht⟩
  refine ⟨⟨(i 0).val / 10000, ht⟩, flush0_10 _, ?_⟩
  rw [mem_blk0]
  intro a
  match a with
  | ⟨0, _⟩ =>
    show win0_10.index ⟨(i 0).val / 10000, ht⟩ (0 : Fin 2) * 10000 ≤ (i 0).val
      ∧ (i 0).val < win0_10.index ⟨(i 0).val / 10000, ht⟩ (0 : Fin 2) * 10000 + 10000
    rw [e10a]; show (i 0).val / 10000 * 10000 ≤ (i 0).val ∧ (i 0).val < (i 0).val / 10000 * 10000 + 10000; omega
  | ⟨1, _⟩ =>
    show win0_10.index ⟨(i 0).val / 10000, ht⟩ (1 : Fin 2) * 128 ≤ (i 1).val
      ∧ (i 1).val < win0_10.index ⟨(i 0).val / 10000, ht⟩ (1 : Fin 2) * 128 + 128
    rw [e10b]; omega

/-- The output array after layer 0's region: the layer function of the arrays the region finds, at any entry contents. -/
theorem value0 (c : Dev nD) :
    ((dat0 (F := Ideal) V c).arrAt 10 cfg0.N : S100000x128.Idx → EReal)
      = Cert.Sage.layerK true (V c main_v22) (V c main_arg0) (V c main_v12) (V c main_v24) (V c main_v37) (V c main_v28) (V c main_v38) (V c main_v39) (V c main_v40) (V c main_v41) :=
  (dat0 (F := Ideal) V c).arrAt_eq_of_cover 10
    (Cert.Sage.layerK true (V c main_v22) (V c main_arg0) (V c main_v12) (V c main_v24) (V c main_v37) (V c main_v28) (V c main_v38) (V c main_v39) (V c main_v40) (V c main_v41))
    (fun t _ => flushed0 V c t) cover0

end Cert.KernelIdeal.RegionValue

end
-- ==== Proof.KRegion1.lean ====
/-
  Layer 1's tiles put together. The output array [100000,128] is written in ten tiles of 10000 rows; tile t is
  computed from rows 10000·t … 10000·t + 9999 of the neighbour sums, of the features and of the reciprocal counts, and
  from the two weight matrices and the five per-channel rows, which every tile sees whole. Row r of tile t is therefore
  row p = 10000·t + r of the layer function of the arrays, and since the ten tiles cover every row (row p lies in
  tile p / 10000), the output array ends holding the layer function, whatever it held before.
-/
import proofs.«100346_j32134945309201_1_alg».proof.Proof.Gen.KernelIdeal.Frame
import proofs.«100346_j32134945309201_1_alg».proof.Proof.KBody

noncomputable section

namespace Cert.KernelIdeal.RegionValue

open Idealize.ShloMosaic Idealize.ShloMosaic.ValueIdx Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- What one tile's body leaves at (r, q), from its ten blocks: the scalar form over the blocks, activated. -/
theorem out1_10_apply (x0 x1 : Vec Ideal S10000x128 .f32) (x2 : Vec Ideal S10000x1 .f32) (x3 : Vec Ideal S128x128 .f32)
    (x4 : Vec Ideal S1x128 .f32) (x5 : Vec Ideal S128x128 .f32) (x6 x7 x8 x9 : Vec Ideal S1x128 .f32) (r : Fin 10000) (q : Fin 128) :
    out1_10 (F := Ideal) x0 x1 x2 x3 x4 x5 x6 x7 x8 x9 (ix2 r q)
      = Cert.Sage.actK true (preAt x0 x1 x2 x3 x5 x4 x6 x7 x8 x9 r q) := by
  unfold out1_10
  rw [View.canon_unit_zero hz]
  simp only [View.ld_unit_zero (S := S10000x128) hz, View.ld_unit_zero (S := S10000x1) hz,
    View.ld_unit_zero (S := S128x128) hz, View.ld_unit_zero (S := S1x128) hz]
  rw [k1_pay1_apply, k1_pay3_apply, k1_pay2_apply]

/-- The block indices over the ten grid points: tile t of the row-tiled windows is block (t, 0); the whole windows stay
    at block (0, 0). -/
theorem idx_facts1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_10.index t (0 : Fin 2) = t.val ∧ win1_10.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = 0 ∧ win1_9.index t (1 : Fin 2) = 0) :=
  (by decide +kernel : ∀ t : Fin grid1.N, _)

/-- Row r of tile t of window 0 is row 10000·t + r of its array. -/
theorem blk1_0 (c : Dev nD) (t : Fin cfg1.N) (r : Fin 10000) (k : Fin 128) (p : Fin 100000) (hp : p.val = t.val * 10000 + r.val) :
    (iblk1 (F := Ideal) V c 0 t : Vec Ideal S10000x128 .f32) (ix2 r k) = (V c main_v52 : S100000x128.Idx → EReal) (ix2 p k) := by
  obtain ⟨⟨e0a, e0b⟩, ⟨e1a, e1b⟩, ⟨e2a, e2b⟩, ⟨e10a, e10b⟩, ⟨e3a, e3b⟩, ⟨e4a, e4b⟩, ⟨e5a, e5b⟩, ⟨e6a, e6b⟩, ⟨e7a, e7b⟩, ⟨e8a, e8b⟩, ⟨e9a, e9b⟩⟩ := idx_facts1 t
  unfold iblk1
  rw [View.read_apply]
  show V c main_v52 _ = V c main_v52 _
  refine congrArg (V c main_v52) ?_
  funext a
  apply Fin.ext
  match a with
  | ⟨0, _⟩ => show win1_0.index t (0 : Fin 2) * 10000 + 1 * r.val = p.val; rw [e0a, hp]; omega
  | ⟨1, _⟩ => show win1_0.index t (1 : Fin 2) * 128 + 1 * k.val = k.val; rw [e0b]; omega

/-- Row r of tile t of window 1 is row 10000·t + r of its array. -/
theorem blk1_1 (c : Dev nD) (t : Fin cfg1.N) (r : Fin 10000) (k : Fin 128) (p : Fin 100000) (hp : p.val = t.val * 10000 + r.val) :
    (iblk1 (F := Ideal) V c 1 t : Vec Ideal S10000x128 .f32) (ix2 r k) = (V c main_v42 : S100000x128.Idx → EReal) (ix2 p k) := by
  obtain ⟨⟨e0a, e0b⟩, ⟨e1a, e1b⟩, ⟨e2a, e2b⟩, ⟨e10a, e10b⟩, ⟨e3a, e3b⟩, ⟨e4a, e4b⟩, ⟨e5a, e5b⟩, ⟨e6a, e6b⟩, ⟨e7a, e7b⟩, ⟨e8a, e8b⟩, ⟨e9a, e9b⟩⟩ := idx_facts1 t
  unfold iblk1
  rw [View.read_apply]
  show V c main_v42 _ = V c main_v42 _
  refine congrArg (V c main_v42) ?_
  funext a
  apply Fin.ext
  match a with
  | ⟨0, _⟩ => show win1_1.index t (0 : Fin 2) * 10000 + 1 * r.val = p.val; rw [e1a, hp]; omega
  | ⟨1, _⟩ => show win1_1.index t (1 : Fin 2) * 128 + 1 * k.val = k.val; rw [e1b]; omega

/-- Entry r of tile t of the column of reciprocal counts is entry 10000·t + r of the column. -/
theorem blk1_2 (c : Dev nD) (t : Fin cfg1.N) (r : Fin 10000) (p : Fin 100000) (hp : p.val = t.val * 10000 + r.val) :
    (iblk1 (F := Ideal) V c 2 t : Vec Ideal S10000x1 .f32) (ix2 r (0 : Fin 1)) = (V c main_v12 : S100000x1.Idx → EReal) (ix2 p (0 : Fin 1)) := by
  obtain ⟨⟨e0a, e0b⟩, ⟨e1a, e1b⟩, ⟨e2a, e2b⟩, ⟨e10a, e10b⟩, ⟨e3a, e3b⟩, ⟨e4a, e4b⟩, ⟨e5a, e5b⟩, ⟨e6a, e6b⟩, ⟨e7a, e7b⟩, ⟨e8a, e8b⟩, ⟨e9a, e9b⟩⟩ := idx_facts1 t
  unfold iblk1
  rw [View.read_apply]
  show V c main_v12 _ = V c main_v12 _
  refine congrArg (V c main_v12) ?_
  funext a
  apply Fin.ext
  match a with
  | ⟨0, _⟩ => show win1_2.index t (0 : Fin 2) * 10000 + 1 * r.val = p.val; rw [e2a, hp]; omega
  | ⟨1, _⟩ => show win1_2.index t (1 : Fin 2) * 1 + 1 * (0 : Fin 1).val = (0 : Fin 1).val; rw [e2b]; rfl

/-- Window 3's one block is its whole array. -/
theorem whole1_3 (c : Dev nD) (t : Fin cfg1.N) :
    (iblk1 (F := Ideal) V c 3 t : Vec Ideal S128x128 .f32) = (V c main_v54 : S128x128.Idx → EReal) := by
  obtain ⟨⟨e0a, e0b⟩, ⟨e1a, e1b⟩, ⟨e2a, e2b⟩, ⟨e10a, e10b⟩, ⟨e3a, e3b⟩, ⟨e4a, e4b⟩, ⟨e5a, e5b⟩, ⟨e6a, e6b⟩, ⟨e7a, e7b⟩, ⟨e8a, e8b⟩, ⟨e9a, e9b⟩⟩ := idx_facts1 t
  funext y
  unfold iblk1
  rw [View.read_apply]
  show V c main_v54 _ = V c main_v54 y
  refine congrArg (V c main_v54) ?_
  funext a
  apply Fin.ext
  match a with
  | ⟨0, _⟩ => show win1_3.index t (0 : Fin 2) * 128 + 1 * (y 0).val = (y 0).val; rw [e3a]; omega
  | ⟨1, _⟩ => show win1_3.index t (1 : Fin 2) * 128 + 1 * (y 1).val = (y 1).val; rw [e3b]; omega

/-- Window 4's one block is its whole array. -/
theorem whole1_4 (c : Dev nD) (t : Fin cfg1.N) :
    (iblk1 (F := Ideal) V c 4 t : Vec Ideal S1x128 .f32) = (V c main_v67 : S1x128.Idx → EReal) := by
  obtain ⟨⟨e0a, e0b⟩, ⟨e1a, e1b⟩, ⟨e2a, e2b⟩, ⟨e10a, e10b⟩, ⟨e3a, e3b⟩, ⟨e4a, e4b⟩, ⟨e5a, e5b⟩, ⟨e6a, e6b⟩, ⟨e7a, e7b⟩, ⟨e8a, e8b⟩, ⟨e9a, e9b⟩⟩ := idx_facts1 t
  funext y
  unfold iblk1
  rw [View.read_apply]
  show V c main_v67 _ = V c main_v67 y
  refine congrArg (V c main_v67) ?_
  funext a
  apply Fin.ext
  match a with
  | ⟨0, _⟩ => show win1_4.index t (0 : Fin 2) * 1 + 1 * (y 0).val = (y 0).val; rw [e4a]; omega
  | ⟨1, _⟩ => show win1_4.index t (1 : Fin 2) * 128 + 1 * (y 1).val = (y 1).val; rw [e4b]; omega

/-- Window 5's one block is its whole array. -/
theorem whole1_5 (c : Dev nD) (t : Fin cfg1.N) :
    (iblk1 (F := Ideal) V c 5 t : Vec Ideal S128x128 .f32) = (V c main_v58 : S128x128.Idx → EReal) := by
  obtain ⟨⟨e0a, e0b⟩, ⟨e1a, e1b⟩, ⟨e2a, e2b⟩, ⟨e10a, e10b⟩, ⟨e3a, e3b⟩, ⟨e4a, e4b⟩, ⟨e5a, e5b⟩, ⟨e6a, e6b⟩, ⟨e7a, e7b⟩, ⟨e8a, e8b⟩, ⟨e9a, e9b⟩⟩ := idx_facts1 t
  funext y
  unfold iblk1
  rw [View.read_apply]
  show V c main_v58 _ = V c main_v58 y
  refine congrArg (V c main_v58) ?_
  funext a
  apply Fin.ext
  match a with
  | ⟨0, _⟩ => show win1_5.index t (0 : Fin 2) * 128 + 1 * (y 0).val = (y 0).val; rw [e5a]; omega
  | ⟨1, _⟩ => show win1_5.index t (1 : Fin 2) * 128 + 1 * (y 1).val = (y 1).val; rw [e5b]; omega

/-- Window 6's one block is its whole array. -/
theorem whole1_6 (c : Dev nD) (t : Fin cfg1.N) :
    (iblk1 (F := Ideal) V c 6 t : Vec Ideal S1x128 .f32) = (V c main_v68 : S1x128.Idx → EReal) := by
  obtain ⟨⟨e0a, e0b⟩, ⟨e1a, e1b⟩, ⟨e2a, e2b⟩, ⟨e10a, e10b⟩, ⟨e3a, e3b⟩, ⟨e4a, e4b⟩, ⟨e5a, e5b⟩, ⟨e6a, e6b⟩, ⟨e7a, e7b⟩, ⟨e8a, e8b⟩, ⟨e9a, e9b⟩⟩ := idx_facts1 t
  funext y
  unfold iblk1
  rw [View.read_apply]
  show V c main_v68 _ = V c main_v68 y
  refine congrArg (V c main_v68) ?_
  funext a
  apply Fin.ext
  match a with
  | ⟨0, _⟩ => show win1_6.index t (0 : Fin 2) * 1 + 1 * (y 0).val = (y 0).val; rw [e6a]; omega
  | ⟨1, _⟩ => show win1_6.index t (1 : Fin 2) * 128 + 1 * (y 1).val = (y 1).val; rw [e6b]; omega

/-- Window 7's one block is its whole array. -/
theorem whole1_7 (c : Dev nD) (t : Fin cfg1.N) :
    (iblk1 (F := Ideal) V c 7 t : Vec Ideal S1x128 .f32) = (V c main_v69 : S1x128.Idx → EReal) := by
  obtain ⟨⟨e0a, e0b⟩, ⟨e1a, e1b⟩, ⟨e2a, e2b⟩, ⟨e10a, e10b⟩, ⟨e3a, e3b⟩, ⟨e4a, e4b⟩, ⟨e5a, e5b⟩, ⟨e6a, e6b⟩, ⟨e7a, e7b⟩, ⟨e8a, e8b⟩, ⟨e9a, e9b⟩⟩ := idx_facts1 t
  funext y
  unfold iblk1
  rw [View.read_apply]
  show V c main_v69 _ = V c main_v69 y
  refine congrArg (V c main_v69) ?_
  funext a
  apply Fin.ext
  match a with
  | ⟨0, _⟩ => show win1_7.index t (0 : Fin 2) * 1 + 1 * (y 0).val = (y 0).val; rw [e7a]; omega
  | ⟨1, _⟩ => show win1_7.index t (1 : Fin 2) * 128 + 1 * (y 1).val = (y 1).val; rw [e7b]; omega

/-- Window 8's one block is its whole array. -/
theorem whole1_8 (c : Dev nD) (t : Fin cfg1.N) :
    (iblk1 (F := Ideal) V c 8 t : Vec Ideal S1x128 .f32) = (V c main_v70 : S1x128.Idx → EReal) := by
  obtain ⟨⟨e0a, e0b⟩, ⟨e1a, e1b⟩, ⟨e2a, e2b⟩, ⟨e10a, e10b⟩, ⟨e3a, e3b⟩, ⟨e4a, e4b⟩, ⟨e5a, e5b⟩, ⟨e6a, e6b⟩, ⟨e7a, e7b⟩, ⟨e8a, e8b⟩, ⟨e9a, e9b⟩⟩ := idx_facts1 t
  funext y
  unfold iblk1
  rw [View.read_apply]
  show V c main_v70 _ = V c main_v70 y
  refine congrArg (V c main_v70) ?_
  funext a
  apply Fin.ext
  match a with
  | ⟨0, _⟩ => show win1_8.index t (0 : Fin 2) * 1 + 1 * (y 0).val = (y 0).val; rw [e8a]; omega
  | ⟨1, _⟩ => show win1_8.index t (1 : Fin 2) * 128 + 1 * (y 1).val = (y 1).val; rw [e8b]; omega

/-- Window 9's one block is its whole array. -/
theorem whole1_9 (c : Dev nD) (t : Fin cfg1.N) :
    (iblk1 (F := Ideal) V c 9 t : Vec Ideal S1x128 .f32) = (V c main_v71 : S1x128.Idx → EReal) := by
  obtain ⟨⟨e0a, e0b⟩, ⟨e1a, e1b⟩, ⟨e2a, e2b⟩, ⟨e10a, e10b⟩, ⟨e3a, e3b⟩, ⟨e4a, e4b⟩, ⟨e5a, e5b⟩, ⟨e6a, e6b⟩, ⟨e7a, e7b⟩, ⟨e8a, e8b⟩, ⟨e9a, e9b⟩⟩ := idx_facts1 t
  funext y
  unfold iblk1
  rw [View.read_apply]
  show V c main_v71 _ = V c main_v71 y
  refine congrArg (V c main_v71) ?_
  funext a
  apply Fin.ext
  match a with
  | ⟨0, _⟩ => show win1_9.index t (0 : Fin 2) * 1 + 1 * (y 0).val = (y 0).val; rw [e9a]; omega
  | ⟨1, _⟩ => show win1_9.index t (1 : Fin 2) * 128 + 1 * (y 1).val = (y 1).val; rw [e9b]; omega

/-- Entry (r, q) of the output's tile t sits at (10000·t + r, q) of the output array. -/
theorem emb1_10 (c : Dev nD) (t : Fin cfg1.N) (r : Fin 10000) (q : Fin 128) (p : Fin 100000) (hp : p.val = t.val * 10000 + r.val) :
    (((cfg1.win 10).blk t).view.emb (ix2 r q) : S100000x128.Idx) = ix2 p q := by
  obtain ⟨⟨e0a, e0b⟩, ⟨e1a, e1b⟩, ⟨e2a, e2b⟩, ⟨e10a, e10b⟩, ⟨e3a, e3b⟩, ⟨e4a, e4b⟩, ⟨e5a, e5b⟩, ⟨e6a, e6b⟩, ⟨e7a, e7b⟩, ⟨e8a, e8b⟩, ⟨e9a, e9b⟩⟩ := idx_facts1 t
  funext a
  apply Fin.ext
  match a with
  | ⟨0, _⟩ => show win1_10.index t (0 : Fin 2) * 10000 + 1 * r.val = p.val; rw [e10a, hp]; omega
  | ⟨1, _⟩ => show win1_10.index t (1 : Fin 2) * 128 + 1 * q.val = q.val; rw [e10b]; omega

/-- What point t writes back is tile t of the layer function of the arrays as the region finds them. -/
theorem flushed1 (c : Dev nD) (t : Fin cfg1.N) :
    (dat1 (F := Ideal) V c).flushed 10 t = ((cfg1.win 10).blk t).view.read (Elt Ideal)
      (Cert.Sage.layerK true (V c main_v52) (V c main_v42) (V c main_v12) (V c main_v54) (V c main_v67) (V c main_v58) (V c main_v68) (V c main_v69) (V c main_v70) (V c main_v71)) := by
  show (cfg1.win 10).cut (grid1.coords t) ((dat1 V c).after 10 t) = _
  rw [after1_10]
  funext j
  obtain ⟨r, q, rfl⟩ : ∃ (r : Fin 10000) (q : Fin 128), j = ix2 r q := ⟨j 0, j 1, eq_ix2 j⟩
  have hN : cfg1.N = 10 := N_1
  have ht : t.val < 10 := hN ▸ t.isLt
  have hp : t.val * 10000 + r.val < 100000 := by have := r.isLt; omega
  refine (out1_10_apply (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) r q).trans ?_
  rw [View.read_apply]
  show _ = Cert.Sage.layerK true (V c main_v52) (V c main_v42) (V c main_v12) (V c main_v54) (V c main_v67) (V c main_v58) (V c main_v68) (V c main_v69) (V c main_v70) (V c main_v71) (((cfg1.win 10).blk t).view.emb (ix2 r q))
  rw [emb1_10 c t r q ⟨t.val * 10000 + r.val, hp⟩ rfl]
  exact tile_eq true (V c main_v52) (V c main_v42) (V c main_v12) (V c main_v54) (V c main_v67) (V c main_v58) (V c main_v68) (V c main_v69) (V c main_v70) (V c main_v71)
    (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)
    ⟨t.val * 10000 + r.val, hp⟩ r q
    (fun k => blk1_0 V c t r k _ rfl) (fun k => blk1_1 V c t r k _ rfl) (blk1_2 V c t r _ rfl)
    (whole1_3 V c t) (whole1_4 V c t) (whole1_5 V c t) (whole1_6 V c t) (whole1_7 V c t) (whole1_8 V c t) (whole1_9 V c t)

/-- An index of the output array lies in tile t iff each coordinate lies in the tile's range on its axis. -/
theorem mem_blk1 (t : Fin cfg1.N) (i : S100000x128.Idx) :
    i ∈ ((cfg1.win 10).blk t).view.set ↔ ∀ a : Fin 2, win1_10.index t a * S10000x128.size a ≤ (i a).val
      ∧ (i a).val < win1_10.index t a * S10000x128.size a + S10000x128.size a := by
  show i ∈ ((View.whole main_v72).slice (win1_10.rect t)).set ↔ _
  rw [View.set_slice_whole, Rect.mem_set_unit]
  exact Iff.rfl

/-- Every row lies in a tile: row p in tile p / 10000. -/
theorem cover1 (i : S100000x128.Idx) : ∃ t : Fin cfg1.N, (cfg1.win 10).flush t = true ∧ i ∈ ((cfg1.win 10).blk t).view.set := by
  have hi0 : (i 0).val < 100000 := (i 0).isLt
  have hi1 : (i 1).val < 128 := (i 1).isLt
  have hN : cfg1.N = 10 := N_1
  have ht : (i 0).val / 10000 < cfg1.N := by rw [hN]; omega
  obtain ⟨⟨e0a, e0b⟩, ⟨e1a, e1b⟩, ⟨e2a, e2b⟩, ⟨e10a, e10b⟩, ⟨e3a, e3b⟩, ⟨e4a, e4b⟩, ⟨e5a, e5b⟩, ⟨e6a, e6b⟩, ⟨e7a, e7b⟩, ⟨e8a, e8b⟩, ⟨e9a, e9b⟩⟩ := idx_facts1 ⟨(i 0).val / 10000, ht⟩
  refine ⟨⟨(i 0).val / 10000, ht⟩, flush1_10 _, ?_⟩
  rw [mem_blk1]
  intro a
  match a with
  | ⟨0, _⟩ =>
    show win1_10.index ⟨(i 0).val / 10000, ht⟩ (0 : Fin 2) * 10000 ≤ (i 0).val
      ∧ (i 0).val < win1_10.index ⟨(i 0).val / 10000, ht⟩ (0 : Fin 2) * 10000 + 10000
    rw [e10a]; show (i 0).val / 10000 * 10000 ≤ (i 0).val ∧ (i 0).val < (i 0).val / 10000 * 10000 + 10000; omega
  | ⟨1, _⟩ =>
    show win1_10.index ⟨(i 0).val / 10000, ht⟩ (1 : Fin 2) * 128 ≤ (i 1).val
      ∧ (i 1).val < win1_10.index ⟨(i 0).val / 10000, ht⟩ (1 : Fin 2) * 128 + 128
    rw [e10b]; omega

/-- The output array after layer 1's region: the layer function of the arrays the region finds, at any entry contents. -/
theorem value1 (c : Dev nD) :
    ((dat1 (F := Ideal) V c).arrAt 10 cfg1.N : S100000x128.Idx → EReal)
      = Cert.Sage.layerK true (V c main_v52) (V c main_v42) (V c main_v12) (V c main_v54) (V c main_v67) (V c main_v58) (V c main_v68) (V c main_v69) (V c main_v70) (V c main_v71) :=
  (dat1 (F := Ideal) V c).arrAt_eq_of_cover 10
    (Cert.Sage.layerK true (V c main_v52) (V c main_v42) (V c main_v12) (V c main_v54) (V c main_v67) (V c main_v58) (V c main_v68) (V c main_v69) (V c main_v70) (V c main_v71))
    (fun t _ => flushed1 V c t) cover1

end Cert.KernelIdeal.RegionValue

end
-- ==== Proof.KRegion2.lean ====
/-
  Layer 2's tiles put together. The output array [100000,128] is written in ten tiles of 10000 rows; tile t is
  computed from rows 10000·t … 10000·t + 9999 of the neighbour sums, of the features and of the reciprocal counts, and
  from the two weight matrices and the five per-channel rows, which every tile sees whole. Row r of tile t is therefore
  row p = 10000·t + r of the layer function of the arrays, and since the ten tiles cover every row (row p lies in
  tile p / 10000), the output array ends holding the layer function, whatever it held before.
-/
import proofs.«100346_j32134945309201_1_alg».proof.Proof.Gen.KernelIdeal.Frame
import proofs.«100346_j32134945309201_1_alg».proof.Proof.KBody

noncomputable section

namespace Cert.KernelIdeal.RegionValue

open Idealize.ShloMosaic Idealize.ShloMosaic.ValueIdx Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- What one tile's body leaves at (r, q), from its ten blocks: the scalar form over the blocks. -/
theorem out2_10_apply (x0 x1 : Vec Ideal S10000x128 .f32) (x2 : Vec Ideal S10000x1 .f32) (x3 : Vec Ideal S128x128 .f32)
    (x4 : Vec Ideal S1x128 .f32) (x5 : Vec Ideal S128x128 .f32) (x6 x7 x8 x9 : Vec Ideal S1x128 .f32) (r : Fin 10000) (q : Fin 128) :
    out2_10 (F := Ideal) x0 x1 x2 x3 x4 x5 x6 x7 x8 x9 (ix2 r q)
      = Cert.Sage.actK false (preAt x0 x1 x2 x3 x5 x4 x6 x7 x8 x9 r q) := by
  unfold out2_10
  rw [View.canon_unit_zero hz]
  simp only [View.ld_unit_zero (S := S10000x128) hz, View.ld_unit_zero (S := S10000x1) hz,
    View.ld_unit_zero (S := S128x128) hz, View.ld_unit_zero (S := S1x128) hz]
  rw [k2_pay1_apply, k2_pay3_apply, k2_pay2_apply]

/-- The block indices over the ten grid points: tile t of the row-tiled windows is block (t, 0); the whole windows stay
    at block (0, 0). -/
theorem idx_facts2 : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_10.index t (0 : Fin 2) = t.val ∧ win2_10.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0)
    ∧ (win2_9.index t (0 : Fin 2) = 0 ∧ win2_9.index t (1 : Fin 2) = 0) :=
  (by decide +kernel : ∀ t : Fin grid2.N, _)

/-- Row r of tile t of window 0 is row 10000·t + r of its array. -/
theorem blk2_0 (c : Dev nD) (t : Fin cfg2.N) (r : Fin 10000) (k : Fin 128) (p : Fin 100000) (hp : p.val = t.val * 10000 + r.val) :
    (iblk2 (F := Ideal) V c 0 t : Vec Ideal S10000x128 .f32) (ix2 r k) = (V c main_v82 : S100000x128.Idx → EReal) (ix2 p k) := by
  obtain ⟨⟨e0a, e0b⟩, ⟨e1a, e1b⟩, ⟨e2a, e2b⟩, ⟨e10a, e10b⟩, ⟨e3a, e3b⟩, ⟨e4a, e4b⟩, ⟨e5a, e5b⟩, ⟨e6a, e6b⟩, ⟨e7a, e7b⟩, ⟨e8a, e8b⟩, ⟨e9a, e9b⟩⟩ := idx_facts2 t
  unfold iblk2
  rw [View.read_apply]
  show V c main_v82 _ = V c main_v82 _
  refine congrArg (V c main_v82) ?_
  funext a
  apply Fin.ext
  match a with
  | ⟨0, _⟩ => show win2_0.index t (0 : Fin 2) * 10000 + 1 * r.val = p.val; rw [e0a, hp]; omega
  | ⟨1, _⟩ => show win2_0.index t (1 : Fin 2) * 128 + 1 * k.val = k.val; rw [e0b]; omega

/-- Row r of tile t of window 1 is row 10000·t + r of its array. -/
theorem blk2_1 (c : Dev nD) (t : Fin cfg2.N) (r : Fin 10000) (k : Fin 128) (p : Fin 100000) (hp : p.val = t.val * 10000 + r.val) :
    (iblk2 (F := Ideal) V c 1 t : Vec Ideal S10000x128 .f32) (ix2 r k) = (V c main_v72 : S100000x128.Idx → EReal) (ix2 p k) := by
  obtain ⟨⟨e0a, e0b⟩, ⟨e1a, e1b⟩, ⟨e2a, e2b⟩, ⟨e10a, e10b⟩, ⟨e3a, e3b⟩, ⟨e4a, e4b⟩, ⟨e5a, e5b⟩, ⟨e6a, e6b⟩, ⟨e7a, e7b⟩, ⟨e8a, e8b⟩, ⟨e9a, e9b⟩⟩ := idx_facts2 t
  unfold iblk2
  rw [View.read_apply]
  show V c main_v72 _ = V c main_v72 _
  refine congrArg (V c main_v72) ?_
  funext a
  apply Fin.ext
  match a with
  | ⟨0, _⟩ => show win2_1.index t (0 : Fin 2) * 10000 + 1 * r.val = p.val; rw [e1a, hp]; omega
  | ⟨1, _⟩ => show win2_1.index t (1 : Fin 2) * 128 + 1 * k.val = k.val; rw [e1b]; omega

/-- Entry r of tile t of the column of reciprocal counts is entry 10000·t + r of the column. -/
theorem blk2_2 (c : Dev nD) (t : Fin cfg2.N) (r : Fin 10000) (p : Fin 100000) (hp : p.val = t.val * 10000 + r.val) :
    (iblk2 (F := Ideal) V c 2 t : Vec Ideal S10000x1 .f32) (ix2 r (0 : Fin 1)) = (V c main_v12 : S100000x1.Idx → EReal) (ix2 p (0 : Fin 1)) := by
  obtain ⟨⟨e0a, e0b⟩, ⟨e1a, e1b⟩, ⟨e2a, e2b⟩, ⟨e10a, e10b⟩, ⟨e3a, e3b⟩, ⟨e4a, e4b⟩, ⟨e5a, e5b⟩, ⟨e6a, e6b⟩, ⟨e7a, e7b⟩, ⟨e8a, e8b⟩, ⟨e9a, e9b⟩⟩ := idx_facts2 t
  unfold iblk2
  rw [View.read_apply]
  show V c main_v12 _ = V c main_v12 _
  refine congrArg (V c main_v12) ?_
  funext a
  apply Fin.ext
  match a with
  | ⟨0, _⟩ => show win2_2.index t (0 : Fin 2) * 10000 + 1 * r.val = p.val; rw [e2a, hp]; omega
  | ⟨1, _⟩ => show win2_2.index t (1 : Fin 2) * 1 + 1 * (0 : Fin 1).val = (0 : Fin 1).val; rw [e2b]; rfl

/-- Window 3's one block is its whole array. -/
theorem whole2_3 (c : Dev nD) (t : Fin cfg2.N) :
    (iblk2 (F := Ideal) V c 3 t : Vec Ideal S128x128 .f32) = (V c main_v84 : S128x128.Idx → EReal) := by
  obtain ⟨⟨e0a, e0b⟩, ⟨e1a, e1b⟩, ⟨e2a, e2b⟩, ⟨e10a, e10b⟩, ⟨e3a, e3b⟩, ⟨e4a, e4b⟩, ⟨e5a, e5b⟩, ⟨e6a, e6b⟩, ⟨e7a, e7b⟩, ⟨e8a, e8b⟩, ⟨e9a, e9b⟩⟩ := idx_facts2 t
  funext y
  unfold iblk2
  rw [View.read_apply]
  show V c main_v84 _ = V c main_v84 y
  refine congrArg (V c main_v84) ?_
  funext a
  apply Fin.ext
  match a with
  | ⟨0, _⟩ => show win2_3.index t (0 : Fin 2) * 128 + 1 * (y 0).val = (y 0).val; rw [e3a]; omega
  | ⟨1, _⟩ => show win2_3.index t (1 : Fin 2) * 128 + 1 * (y 1).val = (y 1).val; rw [e3b]; omega

/-- Window 4's one block is its whole array. -/
theorem whole2_4 (c : Dev nD) (t : Fin cfg2.N) :
    (iblk2 (F := Ideal) V c 4 t : Vec Ideal S1x128 .f32) = (V c main_v97 : S1x128.Idx → EReal) := by
  obtain ⟨⟨e0a, e0b⟩, ⟨e1a, e1b⟩, ⟨e2a, e2b⟩, ⟨e10a, e10b⟩, ⟨e3a, e3b⟩, ⟨e4a, e4b⟩, ⟨e5a, e5b⟩, ⟨e6a, e6b⟩, ⟨e7a, e7b⟩, ⟨e8a, e8b⟩, ⟨e9a, e9b⟩⟩ := idx_facts2 t
  funext y
  unfold iblk2
  rw [View.read_apply]
  show V c main_v97 _ = V c main_v97 y
  refine congrArg (V c main_v97) ?_
  funext a
  apply Fin.ext
  match a with
  | ⟨0, _⟩ => show win2_4.index t (0 : Fin 2) * 1 + 1 * (y 0).val = (y 0).val; rw [e4a]; omega
  | ⟨1, _⟩ => show win2_4.index t (1 : Fin 2) * 128 + 1 * (y 1).val = (y 1).val; rw [e4b]; omega

/-- Window 5's one block is its whole array. -/
theorem whole2_5 (c : Dev nD) (t : Fin cfg2.N) :
    (iblk2 (F := Ideal) V c 5 t : Vec Ideal S128x128 .f32) = (V c main_v88 : S128x128.Idx → EReal) := by
  obtain ⟨⟨e0a, e0b⟩, ⟨e1a, e1b⟩, ⟨e2a, e2b⟩, ⟨e10a, e10b⟩, ⟨e3a, e3b⟩, ⟨e4a, e4b⟩, ⟨e5a, e5b⟩, ⟨e6a, e6b⟩, ⟨e7a, e7b⟩, ⟨e8a, e8b⟩, ⟨e9a, e9b⟩⟩ := idx_facts2 t
  funext y
  unfold iblk2
  rw [View.read_apply]
  show V c main_v88 _ = V c main_v88 y
  refine congrArg (V c main_v88) ?_
  funext a
  apply Fin.ext
  match a with
  | ⟨0, _⟩ => show win2_5.index t (0 : Fin 2) * 128 + 1 * (y 0).val = (y 0).val; rw [e5a]; omega
  | ⟨1, _⟩ => show win2_5.index t (1 : Fin 2) * 128 + 1 * (y 1).val = (y 1).val; rw [e5b]; omega

/-- Window 6's one block is its whole array. -/
theorem whole2_6 (c : Dev nD) (t : Fin cfg2.N) :
    (iblk2 (F := Ideal) V c 6 t : Vec Ideal S1x128 .f32) = (V c main_v98 : S1x128.Idx → EReal) := by
  obtain ⟨⟨e0a, e0b⟩, ⟨e1a, e1b⟩, ⟨e2a, e2b⟩, ⟨e10a, e10b⟩, ⟨e3a, e3b⟩, ⟨e4a, e4b⟩, ⟨e5a, e5b⟩, ⟨e6a, e6b⟩, ⟨e7a, e7b⟩, ⟨e8a, e8b⟩, ⟨e9a, e9b⟩⟩ := idx_facts2 t
  funext y
  unfold iblk2
  rw [View.read_apply]
  show V c main_v98 _ = V c main_v98 y
  refine congrArg (V c main_v98) ?_
  funext a
  apply Fin.ext
  match a with
  | ⟨0, _⟩ => show win2_6.index t (0 : Fin 2) * 1 + 1 * (y 0).val = (y 0).val; rw [e6a]; omega
  | ⟨1, _⟩ => show win2_6.index t (1 : Fin 2) * 128 + 1 * (y 1).val = (y 1).val; rw [e6b]; omega

/-- Window 7's one block is its whole array. -/
theorem whole2_7 (c : Dev nD) (t : Fin cfg2.N) :
    (iblk2 (F := Ideal) V c 7 t : Vec Ideal S1x128 .f32) = (V c main_v99 : S1x128.Idx → EReal) := by
  obtain ⟨⟨e0a, e0b⟩, ⟨e1a, e1b⟩, ⟨e2a, e2b⟩, ⟨e10a, e10b⟩, ⟨e3a, e3b⟩, ⟨e4a, e4b⟩, ⟨e5a, e5b⟩, ⟨e6a, e6b⟩, ⟨e7a, e7b⟩, ⟨e8a, e8b⟩, ⟨e9a, e9b⟩⟩ := idx_facts2 t
  funext y
  unfold iblk2
  rw [View.read_apply]
  show V c main_v99 _ = V c main_v99 y
  refine congrArg (V c main_v99) ?_
  funext a
  apply Fin.ext
  match a with
  | ⟨0, _⟩ => show win2_7.index t (0 : Fin 2) * 1 + 1 * (y 0).val = (y 0).val; rw [e7a]; omega
  | ⟨1, _⟩ => show win2_7.index t (1 : Fin 2) * 128 + 1 * (y 1).val = (y 1).val; rw [e7b]; omega

/-- Window 8's one block is its whole array. -/
theorem whole2_8 (c : Dev nD) (t : Fin cfg2.N) :
    (iblk2 (F := Ideal) V c 8 t : Vec Ideal S1x128 .f32) = (V c main_v100 : S1x128.Idx → EReal) := by
  obtain ⟨⟨e0a, e0b⟩, ⟨e1a, e1b⟩, ⟨e2a, e2b⟩, ⟨e10a, e10b⟩, ⟨e3a, e3b⟩, ⟨e4a, e4b⟩, ⟨e5a, e5b⟩, ⟨e6a, e6b⟩, ⟨e7a, e7b⟩, ⟨e8a, e8b⟩, ⟨e9a, e9b⟩⟩ := idx_facts2 t
  funext y
  unfold iblk2
  rw [View.read_apply]
  show V c main_v100 _ = V c main_v100 y
  refine congrArg (V c main_v100) ?_
  funext a
  apply Fin.ext
  match a with
  | ⟨0, _⟩ => show win2_8.index t (0 : Fin 2) * 1 + 1 * (y 0).val = (y 0).val; rw [e8a]; omega
  | ⟨1, _⟩ => show win2_8.index t (1 : Fin 2) * 128 + 1 * (y 1).val = (y 1).val; rw [e8b]; omega

/-- Window 9's one block is its whole array. -/
theorem whole2_9 (c : Dev nD) (t : Fin cfg2.N) :
    (iblk2 (F := Ideal) V c 9 t : Vec Ideal S1x128 .f32) = (V c main_v101 : S1x128.Idx → EReal) := by
  obtain ⟨⟨e0a, e0b⟩, ⟨e1a, e1b⟩, ⟨e2a, e2b⟩, ⟨e10a, e10b⟩, ⟨e3a, e3b⟩, ⟨e4a, e4b⟩, ⟨e5a, e5b⟩, ⟨e6a, e6b⟩, ⟨e7a, e7b⟩, ⟨e8a, e8b⟩, ⟨e9a, e9b⟩⟩ := idx_facts2 t
  funext y
  unfold iblk2
  rw [View.read_apply]
  show V c main_v101 _ = V c main_v101 y
  refine congrArg (V c main_v101) ?_
  funext a
  apply Fin.ext
  match a with
  | ⟨0, _⟩ => show win2_9.index t (0 : Fin 2) * 1 + 1 * (y 0).val = (y 0).val; rw [e9a]; omega
  | ⟨1, _⟩ => show win2_9.index t (1 : Fin 2) * 128 + 1 * (y 1).val = (y 1).val; rw [e9b]; omega

/-- Entry (r, q) of the output's tile t sits at (10000·t + r, q) of the output array. -/
theorem emb2_10 (c : Dev nD) (t : Fin cfg2.N) (r : Fin 10000) (q : Fin 128) (p : Fin 100000) (hp : p.val = t.val * 10000 + r.val) :
    (((cfg2.win 10).blk t).view.emb (ix2 r q) : S100000x128.Idx) = ix2 p q := by
  obtain ⟨⟨e0a, e0b⟩, ⟨e1a, e1b⟩, ⟨e2a, e2b⟩, ⟨e10a, e10b⟩, ⟨e3a, e3b⟩, ⟨e4a, e4b⟩, ⟨e5a, e5b⟩, ⟨e6a, e6b⟩, ⟨e7a, e7b⟩, ⟨e8a, e8b⟩, ⟨e9a, e9b⟩⟩ := idx_facts2 t
  funext a
  apply Fin.ext
  match a with
  | ⟨0, _⟩ => show win2_10.index t (0 : Fin 2) * 10000 + 1 * r.val = p.val; rw [e10a, hp]; omega
  | ⟨1, _⟩ => show win2_10.index t (1 : Fin 2) * 128 + 1 * q.val = q.val; rw [e10b]; omega

/-- What point t writes back is tile t of the layer function of the arrays as the region finds them. -/
theorem flushed2 (c : Dev nD) (t : Fin cfg2.N) :
    (dat2 (F := Ideal) V c).flushed 10 t = ((cfg2.win 10).blk t).view.read (Elt Ideal)
      (Cert.Sage.layerK false (V c main_v82) (V c main_v72) (V c main_v12) (V c main_v84) (V c main_v97) (V c main_v88) (V c main_v98) (V c main_v99) (V c main_v100) (V c main_v101)) := by
  show (cfg2.win 10).cut (grid2.coords t) ((dat2 V c).after 10 t) = _
  rw [after2_10]
  funext j
  obtain ⟨r, q, rfl⟩ : ∃ (r : Fin 10000) (q : Fin 128), j = ix2 r q := ⟨j 0, j 1, eq_ix2 j⟩
  have hN : cfg2.N = 10 := N_2
  have ht : t.val < 10 := hN ▸ t.isLt
  have hp : t.val * 10000 + r.val < 100000 := by have := r.isLt; omega
  refine (out2_10_apply (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) r q).trans ?_
  rw [View.read_apply]
  show _ = Cert.Sage.layerK false (V c main_v82) (V c main_v72) (V c main_v12) (V c main_v84) (V c main_v97) (V c main_v88) (V c main_v98) (V c main_v99) (V c main_v100) (V c main_v101) (((cfg2.win 10).blk t).view.emb (ix2 r q))
  rw [emb2_10 c t r q ⟨t.val * 10000 + r.val, hp⟩ rfl]
  exact tile_eq false (V c main_v82) (V c main_v72) (V c main_v12) (V c main_v84) (V c main_v97) (V c main_v88) (V c main_v98) (V c main_v99) (V c main_v100) (V c main_v101)
    (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t)
    ⟨t.val * 10000 + r.val, hp⟩ r q
    (fun k => blk2_0 V c t r k _ rfl) (fun k => blk2_1 V c t r k _ rfl) (blk2_2 V c t r _ rfl)
    (whole2_3 V c t) (whole2_4 V c t) (whole2_5 V c t) (whole2_6 V c t) (whole2_7 V c t) (whole2_8 V c t) (whole2_9 V c t)

/-- An index of the output array lies in tile t iff each coordinate lies in the tile's range on its axis. -/
theorem mem_blk2 (t : Fin cfg2.N) (i : S100000x128.Idx) :
    i ∈ ((cfg2.win 10).blk t).view.set ↔ ∀ a : Fin 2, win2_10.index t a * S10000x128.size a ≤ (i a).val
      ∧ (i a).val < win2_10.index t a * S10000x128.size a + S10000x128.size a := by
  show i ∈ ((View.whole main_v102).slice (win2_10.rect t)).set ↔ _
  rw [View.set_slice_whole, Rect.mem_set_unit]
  exact Iff.rfl

/-- Every row lies in a tile: row p in tile p / 10000. -/
theorem cover2 (i : S100000x128.Idx) : ∃ t : Fin cfg2.N, (cfg2.win 10).flush t = true ∧ i ∈ ((cfg2.win 10).blk t).view.set := by
  have hi0 : (i 0).val < 100000 := (i 0).isLt
  have hi1 : (i 1).val < 128 := (i 1).isLt
  have hN : cfg2.N = 10 := N_2
  have ht : (i 0).val / 10000 < cfg2.N := by rw [hN]; omega
  obtain ⟨⟨e0a, e0b⟩, ⟨e1a, e1b⟩, ⟨e2a, e2b⟩, ⟨e10a, e10b⟩, ⟨e3a, e3b⟩, ⟨e4a, e4b⟩, ⟨e5a, e5b⟩, ⟨e6a, e6b⟩, ⟨e7a, e7b⟩, ⟨e8a, e8b⟩, ⟨e9a, e9b⟩⟩ := idx_facts2 ⟨(i 0).val / 10000, ht⟩
  refine ⟨⟨(i 0).val / 10000, ht⟩, flush2_10 _, ?_⟩
  rw [mem_blk2]
  intro a
  match a with
  | ⟨0, _⟩ =>
    show win2_10.index ⟨(i 0).val / 10000, ht⟩ (0 : Fin 2) * 10000 ≤ (i 0).val
      ∧ (i 0).val < win2_10.index ⟨(i 0).val / 10000, ht⟩ (0 : Fin 2) * 10000 + 10000
    rw [e10a]; show (i 0).val / 10000 * 10000 ≤ (i 0).val ∧ (i 0).val < (i 0).val / 10000 * 10000 + 10000; omega
  | ⟨1, _⟩ =>
    show win2_10.index ⟨(i 0).val / 10000, ht⟩ (1 : Fin 2) * 128 ≤ (i 1).val
      ∧ (i 1).val < win2_10.index ⟨(i 0).val / 10000, ht⟩ (1 : Fin 2) * 128 + 128
    rw [e10b]; omega

/-- The output array after layer 2's region: the layer function of the arrays the region finds, at any entry contents. -/
theorem value2 (c : Dev nD) :
    ((dat2 (F := Ideal) V c).arrAt 10 cfg2.N : S100000x128.Idx → EReal)
      = Cert.Sage.layerK false (V c main_v82) (V c main_v72) (V c main_v12) (V c main_v84) (V c main_v97) (V c main_v88) (V c main_v98) (V c main_v99) (V c main_v100) (V c main_v101) :=
  (dat2 (F := Ideal) V c).arrAt_eq_of_cover 10
    (Cert.Sage.layerK false (V c main_v82) (V c main_v72) (V c main_v12) (V c main_v84) (V c main_v97) (V c main_v88) (V c main_v98) (V c main_v99) (V c main_v100) (V c main_v101))
    (fun t _ => flushed2 V c t) cover2

end Cert.KernelIdeal.RegionValue

end
-- ==== Proof.RefDefs.lean ====
/-
  The reference program's host operations, grouped into the functions they compose to: the two rows of the edge list as
  gather and scatter positions, the neighbour sum and the neighbour count they give, the per-layer slices of the stacked
  parameters, one layer's normalised row before the activation, and the activation.
-/
import proofs.«100346_j32134945309201_1_alg».proof.Proof.Gen.ReferenceIdeal
import proofs.«100346_j32134945309201_1_alg».proof.Proof.Spec

noncomputable section

namespace Cert.ReferenceIdeal.RefValue

open Cert.ReferenceIdeal Cert.ReferenceIdeal.Gen Idealize.ShloMosaic

/-- Row 0 of the edge list as one start word per edge, a negative word wrapped by adding the node count. -/
def srcOf (e : IVec S2x1600000 32) : IVec S1600000x1 32 :=
  broadcastInDim S1600000x1 ![0] bcast_S1600000_S1600000x1_0
    (select (cmpi .slt (shapeCast _ (extractStridedSlice S1x1600000 ![0, 0] e slices_S2x1600000_S1x1600000_0_0) shapeCasts_S1x1600000_S1600000) (broadcastInDim S1600000 ![] bcast_S_S1600000 (constantI S_ 32 0#32)))
      (addi (shapeCast _ (extractStridedSlice S1x1600000 ![0, 0] e slices_S2x1600000_S1x1600000_0_0) shapeCasts_S1x1600000_S1600000) (broadcastInDim S1600000 ![] bcast_S_S1600000 (constantI S_ 32 100000#32)))
      (shapeCast _ (extractStridedSlice S1x1600000 ![0, 0] e slices_S2x1600000_S1x1600000_0_0) shapeCasts_S1x1600000_S1600000))

/-- Row 1 of the edge list as one target word per edge. -/
def dstOf (e : IVec S2x1600000 32) : IVec S1600000x1 32 :=
  broadcastInDim S1600000x1 ![0] bcast_S1600000_S1600000x1_0
    (shapeCast _ (extractStridedSlice S1x1600000 ![1, 0] e slices_S2x1600000_S1x1600000_1_0) shapeCasts_S1x1600000_S1600000)

/-- The neighbour sum: every edge adds its source node's row of h into its target node's row, from zero. -/
def aggOf (e : IVec S2x1600000 32) (h : FVec Ideal S100000x128 .f32) : FVec Ideal S100000x128 .f32 :=
  Host.scatterAdd scatter_S100000x128_S1600000x1_S1600000x128_1_0_0_1
    (broadcastInDim S100000x128 ![] bcast_S_S100000x128 (constant S_ .f32 0x00000000#32)) (dstOf e)
    (Host.gather gather_S100000x128_S1600000x1_S1600000x128_1_0_n_n_0_1_1128 h (srcOf e))

/-- The neighbour count: every edge adds 1 at its target node, from zero. -/
def cntOf (e : IVec S2x1600000 32) : FVec Ideal S100000 .f32 :=
  Host.scatterAdd scatter_S100000_S1600000x1_S1600000_n_0_0_1
    (broadcastInDim S100000 ![] bcast_S_S100000 (constant S_ .f32 0x00000000#32)) (dstOf e)
    (broadcastInDim S1600000 ![] bcast_S_S1600000 (constant S_ .f32 0x3F800000#32))

/-- Layer l's matrix out of a stack of three. -/
def mat0 (W : FVec Ideal S3x128x128 .f32) : FVec Ideal S128x128 .f32 :=
  shapeCast _ (extractStridedSlice S1x128x128 ![0, 0, 0] W slices_S3x128x128_S1x128x128_0_0_0) shapeCasts_S1x128x128_S128x128
def mat1 (W : FVec Ideal S3x128x128 .f32) : FVec Ideal S128x128 .f32 :=
  shapeCast _ (extractStridedSlice S1x128x128 ![1, 0, 0] W slices_S3x128x128_S1x128x128_1_0_0) shapeCasts_S1x128x128_S128x128
def mat2 (W : FVec Ideal S3x128x128 .f32) : FVec Ideal S128x128 .f32 :=
  shapeCast _ (extractStridedSlice S1x128x128 ![2, 0, 0] W slices_S3x128x128_S1x128x128_2_0_0) shapeCasts_S1x128x128_S128x128

/-- Layer l's vector out of a stack of three. -/
def vec0 (b : FVec Ideal S3x128 .f32) : FVec Ideal S128 .f32 :=
  shapeCast _ (extractStridedSlice S1x128 ![0, 0] b slices_S3x128_S1x128_0_0) shapeCasts_S1x128_S128
def vec1 (b : FVec Ideal S3x128 .f32) : FVec Ideal S128 .f32 :=
  shapeCast _ (extractStridedSlice S1x128 ![1, 0] b slices_S3x128_S1x128_1_0) shapeCasts_S1x128_S128
def vec2 (b : FVec Ideal S3x128 .f32) : FVec Ideal S128 .f32 :=
  shapeCast _ (extractStridedSlice S1x128 ![2, 0] b slices_S3x128_S1x128_2_0) shapeCasts_S1x128_S128

/-- A per-channel vector laid along every node's row. -/
def alongRows (v : FVec Ideal S128 .f32) : FVec Ideal S100000x128 .f32 :=
  broadcastInDim S100000x128 ![0, 1] bcast_S1x128_S100000x128_0_1 (broadcastInDim S1x128 ![1] bcast_S128_S1x128_1 v)

/-- One layer before the activation: the neighbour sum divided by the clamped count, the two products, the bias, and the
    normalisation by the stored mean and variance. -/
def preOf (agg h : FVec Ideal S100000x128 .f32) (cnt : FVec Ideal S100000 .f32) (wl : FVec Ideal S128x128 .f32)
    (bl : FVec Ideal S128 .f32) (wr : FVec Ideal S128x128 .f32) (g be rm rv : FVec Ideal S128 .f32) :
    FVec Ideal S100000x128 .f32 :=
  addf (mulf (subf (addf (addf (Host.dotGeneral dot_S100000x128_S128x128_S100000x128_1_0_0_1_n_n none
      (Host.divf agg (broadcastInDim S100000x128 ![0, 1] bcast_S100000x1_S100000x128_0_1
        (broadcastInDim S100000x1 ![0] bcast_S100000_S100000x1_0
          (maximumf cnt (broadcastInDim S100000 ![] bcast_S_S100000 (constant S_ .f32 0x3F800000#32)))))) wl)
      (alongRows bl))
      (Host.dotGeneral dot_S100000x128_S128x128_S100000x128_1_0_0_1_n_n none h wr))
      (alongRows rm))
      (alongRows (Host.divf g (Host.sqrt (addf rv (broadcastInDim S128 ![] bcast_S_S128 (constant S_ .f32 0x3727C5AC#32)))))))
    (alongRows be)

/-- The activation y · tanh(softplus y), softplus as max y 0 + log(1 + e^(−|y − 0|)) behind a test that y − 0 differs
    from itself. -/
def mishOf (y : FVec Ideal S100000x128 .f32) : FVec Ideal S100000x128 .f32 :=
  mulf y (Host.tanh (select
    (cmpf .une (subf y (broadcastInDim S100000x128 ![] bcast_S_S100000x128 (constant S_ .f32 0x00000000#32)))
      (subf y (broadcastInDim S100000x128 ![] bcast_S_S100000x128 (constant S_ .f32 0x00000000#32))))
    (addf y (broadcastInDim S100000x128 ![] bcast_S_S100000x128 (constant S_ .f32 0x00000000#32)))
    (addf (maximumf y (broadcastInDim S100000x128 ![] bcast_S_S100000x128 (constant S_ .f32 0x00000000#32)))
      (Host.log1p (Host.exp (Host.negf (Host.absf
        (subf y (broadcastInDim S100000x128 ![] bcast_S_S100000x128 (constant S_ .f32 0x00000000#32))))))))))

/-- The three layers on the node features x. -/
def layer0 (e : IVec S2x1600000 32) (x : FVec Ideal S100000x128 .f32) (Wl : FVec Ideal S3x128x128 .f32) (bl : FVec Ideal S3x128 .f32)
    (Wr : FVec Ideal S3x128x128 .f32) (g be rm rv : FVec Ideal S3x128 .f32) : FVec Ideal S100000x128 .f32 :=
  mishOf (preOf (aggOf e x) x (cntOf e) (mat0 Wl) (vec0 bl) (mat0 Wr) (vec0 g) (vec0 be) (vec0 rm) (vec0 rv))
def layer1 (e : IVec S2x1600000 32) (x : FVec Ideal S100000x128 .f32) (Wl : FVec Ideal S3x128x128 .f32) (bl : FVec Ideal S3x128 .f32)
    (Wr : FVec Ideal S3x128x128 .f32) (g be rm rv : FVec Ideal S3x128 .f32) : FVec Ideal S100000x128 .f32 :=
  mishOf (preOf (aggOf e x) x (cntOf e) (mat1 Wl) (vec1 bl) (mat1 Wr) (vec1 g) (vec1 be) (vec1 rm) (vec1 rv))
def layer2 (e : IVec S2x1600000 32) (x : FVec Ideal S100000x128 .f32) (Wl : FVec Ideal S3x128x128 .f32) (bl : FVec Ideal S3x128 .f32)
    (Wr : FVec Ideal S3x128x128 .f32) (g be rm rv : FVec Ideal S3x128 .f32) : FVec Ideal S100000x128 .f32 :=
  preOf (aggOf e x) x (cntOf e) (mat2 Wl) (vec2 bl) (mat2 Wr) (vec2 g) (vec2 be) (vec2 rm) (vec2 rv)

/-- The whole reference as a function of its nine arguments. -/
def finalOf (x : FVec Ideal S100000x128 .f32) (e : IVec S2x1600000 32) (Wl : FVec Ideal S3x128x128 .f32) (bl : FVec Ideal S3x128 .f32)
    (Wr : FVec Ideal S3x128x128 .f32) (g be rm rv : FVec Ideal S3x128 .f32) : FVec Ideal S100000x128 .f32 :=
  layer2 e (layer1 e (layer0 e x Wl bl Wr g be rm rv) Wl bl Wr g be rm rv) Wl bl Wr g be rm rv

end Cert.ReferenceIdeal.RefValue

end
-- ==== Proof.LibAfter.lean ====
/- The contents after a line of host operations, cut into windows.
   `after (l₁ ++ l₂) V = after l₂ (after l₁ V)`: the contents after a line are the contents after its second part from
   the contents after its first. And the result of an operation over a family of eight operands (a concatenation of
   eight pieces) as a function of the eight operands' contents, each at its own reference. -/
import Idealize.ShloMosaic.Lib.StableHlo.Run

noncomputable section

namespace Idealize.ShloMosaic.StableHlo

variable {τ : Topo} {sig : RefSig} {Val : EltTy → Type}

/-- The contents after a line cut in two: the second part run from the contents after the first. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

section Eight

variable {x0 x1 x2 x3 x4 x5 x6 x7 y : Ref sig .tc}

/-- A function of a family of eight operands' contents, applied to the eight contents given one by one. -/
def apply8
    (f : ((k : Fin 8) → ((![x0, x1, x2, x3, x4, x5, x6, x7] : Fin 8 → Ref sig .tc) k).ty.Contents Val) → y.ty.Contents Val)
    (a0 : x0.ty.Contents Val) (a1 : x1.ty.Contents Val) (a2 : x2.ty.Contents Val) (a3 : x3.ty.Contents Val)
    (a4 : x4.ty.Contents Val) (a5 : x5.ty.Contents Val) (a6 : x6.ty.Contents Val) (a7 : x7.ty.Contents Val) : y.ty.Contents Val :=
  f (Fin.cons a0 (Fin.cons a1 (Fin.cons a2 (Fin.cons a3 (Fin.cons a4 (Fin.cons a5 (Fin.cons a6 (Fin.cons a7 (fun i => i.elim0)))))))))

/-- An operation over a family of eight operands writes, at its result, its function of the eight operands' contents,
    each read at its own reference. -/
theorem nary8_result
    (f : ((k : Fin 8) → ((![x0, x1, x2, x3, x4, x5, x6, x7] : Fin 8 → Ref sig .tc) k).ty.Contents Val) → y.ty.Contents Val) (hxs hy)
    (F : Valuation τ sig Val) :
    (nary (τ := τ) ![x0, x1, x2, x3, x4, x5, x6, x7] y f hxs hy).result F (Proc.devRef .tc y)
      = apply8 f (F (Proc.devRef .tc x0)) (F (Proc.devRef .tc x1)) (F (Proc.devRef .tc x2)) (F (Proc.devRef .tc x3))
          (F (Proc.devRef .tc x4)) (F (Proc.devRef .tc x5)) (F (Proc.devRef .tc x6)) (F (Proc.devRef .tc x7)) := by
  rw [nary_result]; unfold apply8; congr 1; funext k; fin_cases k <;> rfl

/-- `nary8_result`, the result reference matched up to unfolding. -/
theorem nary8_result'
    (f : ((k : Fin 8) → ((![x0, x1, x2, x3, x4, x5, x6, x7] : Fin 8 → Ref sig .tc) k).ty.Contents Val) → y.ty.Contents Val) (hxs hy)
    (F : Valuation τ sig Val) :
    (nary (τ := τ) ![x0, x1, x2, x3, x4, x5, x6, x7] y f hxs hy).result F (no_index (Proc.devRef .tc y))
      = apply8 f (F (Proc.devRef .tc x0)) (F (Proc.devRef .tc x1)) (F (Proc.devRef .tc x2)) (F (Proc.devRef .tc x3))
          (F (Proc.devRef .tc x4)) (F (Proc.devRef .tc x5)) (F (Proc.devRef .tc x6)) (F (Proc.devRef .tc x7)) :=
  nary8_result f hxs hy F

end Eight

/-- What a buffer holds after a window of operations: each operation's result at its own buffer is its function of
    its operands' contents, and any other buffer keeps its contents; an operation over eight operands reads each at
    its own reference. -/
macro "after_results_simp8" : tactic =>
  `(tactic| (simp (disch := decide) only [after_cons, after_nil,
      nullary_result', unary_result', binary_result', ternary_result', quaternary_result', reshape_result', nary8_result', nary4_result',
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo

end
-- ==== Proof.RefLayers.lean ====
/-
  The reference's 213 host operations cut into six windows, in order: the two rows of the edge list (4 operations),
  then per layer the 59 operations up to the normalised row and, for layers 0 and 1, the 16 operations of the
  activation. For each window, at ANY contents W of the buffers before it: what it leaves at the one buffer later
  windows read from it, as the functions of RefDefs applied to W's contents, and that it leaves the buffers every
  window reads and none writes — the two edge rows and the seven stacked parameters — as W had them.
-/
import proofs.«100346_j32134945309201_1_alg».proof.Proof.Gen.ReferenceIdeal
import proofs.«100346_j32134945309201_1_alg».proof.Proof.RefDefs
import proofs.«100346_j32134945309201_1_alg».proof.Proof.LibAfter

noncomputable section

namespace Cert.ReferenceIdeal.RefValue

open Cert.ReferenceIdeal Cert.ReferenceIdeal.Gen Idealize.ShloMosaic Idealize.ShloMosaic.TcCoe Idealize.SL.Sem Idealize.ShloMosaic.StableHlo

section Windows

variable {F : FTy → Type} [FloatOps F]

/-- The two rows of the edge list, each sliced out and flattened. -/
abbrev opsPre : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000 ]

/-- Layer 0 up to the normalised row `main_v55`. -/
abbrev opsL0a : List (HloOp τ sig (Elt F)) :=
  [ unary main_arg2 main_v4 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v4 main_v5 rfl shapeCasts_S1x128x128_S128x128,
    unary main_arg3 main_v6 ((extractStridedSlice S1x128 ![0, 0] · slices_S3x128_S1x128_0_0) : (⟨S3x128, .f32⟩ : BufTy).Contents (Elt F) → (⟨S1x128, .f32⟩ : BufTy).Contents (Elt F)),
    reshape main_v6 main_v7 rfl shapeCasts_S1x128_S128,
    unary main_arg4 main_v8 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v8 main_v9 rfl shapeCasts_S1x128x128_S128x128,
    nullary main_c (constantI S_ 32 0#32),
    unary main_c main_v10 (broadcastInDim S1600000 ![] bcast_S_S1600000 : (⟨S_, .i32⟩ : BufTy).Contents (Elt F) → (⟨S1600000, .i32⟩ : BufTy).Contents (Elt F)),
    binary main_v1 main_v10 main_v11 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v12 (broadcastInDim S1600000 ![] bcast_S_S1600000 : (⟨S_, .i32⟩ : BufTy).Contents (Elt F) → (⟨S1600000, .i32⟩ : BufTy).Contents (Elt F)),
    binary main_v1 main_v12 main_v13 (addi : (⟨S1600000, .i32⟩ : BufTy).Contents (Elt F) → (⟨S1600000, .i32⟩ : BufTy).Contents (Elt F) → (⟨S1600000, .i32⟩ : BufTy).Contents (Elt F)),
    ternary main_v11 main_v13 main_v1 main_v14 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v14 main_v15 (broadcastInDim S1600000x1 ![0] bcast_S1600000_S1600000x1_0 : (⟨S1600000, .i32⟩ : BufTy).Contents (Elt F) → (⟨S1600000x1, .i32⟩ : BufTy).Contents (Elt F)),
    binary main_arg0 main_v15 main_v16 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst (constant S_ .f32 0x00000000#32),
    unary main_cst main_v17 (broadcastInDim S100000x128 ![] bcast_S_S100000x128 : (⟨S_, .f32⟩ : BufTy).Contents (Elt F) → (⟨S100000x128, .f32⟩ : BufTy).Contents (Elt F)),
    unary main_v3 main_v18 (broadcastInDim S1600000x1 ![0] bcast_S1600000_S1600000x1_0 : (⟨S1600000, .i32⟩ : BufTy).Contents (Elt F) → (⟨S1600000x1, .i32⟩ : BufTy).Contents (Elt F)),
    ternary main_v17 main_v18 main_v16 main_v19 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_1 (constant S_ .f32 0x3F800000#32),
    unary main_cst_1 main_v20 (broadcastInDim S1600000 ![] bcast_S_S1600000 : (⟨S_, .f32⟩ : BufTy).Contents (Elt F) → (⟨S1600000, .f32⟩ : BufTy).Contents (Elt F)),
    nullary main_cst_2 (constant S_ .f32 0x00000000#32),
    unary main_cst_2 main_v21 (broadcastInDim S100000 ![] bcast_S_S100000 : (⟨S_, .f32⟩ : BufTy).Contents (Elt F) → (⟨S100000, .f32⟩ : BufTy).Contents (Elt F)),
    unary main_v3 main_v22 (broadcastInDim S1600000x1 ![0] bcast_S1600000_S1600000x1_0 : (⟨S1600000, .i32⟩ : BufTy).Contents (Elt F) → (⟨S1600000x1, .i32⟩ : BufTy).Contents (Elt F)),
    ternary main_v21 main_v22 main_v20 main_v23 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_3 (constant S_ .f32 0x3F800000#32),
    unary main_cst_3 main_v24 (broadcastInDim S100000 ![] bcast_S_S100000 : (⟨S_, .f32⟩ : BufTy).Contents (Elt F) → (⟨S100000, .f32⟩ : BufTy).Contents (Elt F)),
    binary main_v23 main_v24 main_v25 (maximumf : (⟨S100000, .f32⟩ : BufTy).Contents (Elt F) → (⟨S100000, .f32⟩ : BufTy).Contents (Elt F) → (⟨S100000, .f32⟩ : BufTy).Contents (Elt F)),
    unary main_v25 main_v26 (broadcastInDim S100000x1 ![0] bcast_S100000_S100000x1_0 : (⟨S100000, .f32⟩ : BufTy).Contents (Elt F) → (⟨S100000x1, .f32⟩ : BufTy).Contents (Elt F)),
    unary main_v26 main_v27 (broadcastInDim S100000x128 ![0, 1] bcast_S100000x1_S100000x128_0_1 : (⟨S100000x1, .f32⟩ : BufTy).Contents (Elt F) → (⟨S100000x128, .f32⟩ : BufTy).Contents (Elt F)),
    binary main_v19 main_v27 main_v28 (Host.divf : (⟨S100000x128, .f32⟩ : BufTy).Contents (Elt F) → (⟨S100000x128, .f32⟩ : BufTy).Contents (Elt F) → (⟨S100000x128, .f32⟩ : BufTy).Contents (Elt F)),
    binary main_v28 main_v5 main_v29 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v7 main_v30 (broadcastInDim S1x128 ![1] bcast_S128_S1x128_1 : (⟨S128, .f32⟩ : BufTy).Contents (Elt F) → (⟨S1x128, .f32⟩ : BufTy).Contents (Elt F)),
    unary main_v30 main_v31 (broadcastInDim S100000x128 ![0, 1] bcast_S1x128_S100000x128_0_1 : (⟨S1x128, .f32⟩ : BufTy).Contents (Elt F) → (⟨S100000x128, .f32⟩ : BufTy).Contents (Elt F)),
    binary main_v29 main_v31 main_v32 (addf : (⟨S100000x128, .f32⟩ : BufTy).Contents (Elt F) → (⟨S100000x128, .f32⟩ : BufTy).Contents (Elt F) → (⟨S100000x128, .f32⟩ : BufTy).Contents (Elt F)),
    binary main_arg0 main_v9 main_v33 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v32 main_v33 main_v34 (addf : (⟨S100000x128, .f32⟩ : BufTy).Contents (Elt F) → (⟨S100000x128, .f32⟩ : BufTy).Contents (Elt F) → (⟨S100000x128, .f32⟩ : BufTy).Contents (Elt F)),
    unary main_arg5 main_v35 ((extractStridedSlice S1x128 ![0, 0] · slices_S3x128_S1x128_0_0) : (⟨S3x128, .f32⟩ : BufTy).Contents (Elt F) → (⟨S1x128, .f32⟩ : BufTy).Contents (Elt F)),
    reshape main_v35 main_v36 rfl shapeCasts_S1x128_S128,
    unary main_arg6 main_v37 ((extractStridedSlice S1x128 ![0, 0] · slices_S3x128_S1x128_0_0) : (⟨S3x128, .f32⟩ : BufTy).Contents (Elt F) → (⟨S1x128, .f32⟩ : BufTy).Contents (Elt F)),
    reshape main_v37 main_v38 rfl shapeCasts_S1x128_S128,
    unary main_arg7 main_v39 ((extractStridedSlice S1x128 ![0, 0] · slices_S3x128_S1x128_0_0) : (⟨S3x128, .f32⟩ : BufTy).Contents (Elt F) → (⟨S1x128, .f32⟩ : BufTy).Contents (Elt F)),
    reshape main_v39 main_v40 rfl shapeCasts_S1x128_S128,
    unary main_arg8 main_v41 ((extractStridedSlice S1x128 ![0, 0] · slices_S3x128_S1x128_0_0) : (⟨S3x128, .f32⟩ : BufTy).Contents (Elt F) → (⟨S1x128, .f32⟩ : BufTy).Contents (Elt F)),
    reshape main_v41 main_v42 rfl shapeCasts_S1x128_S128,
    nullary main_cst_4 (constant S_ .f32 0x3727C5AC#32),
    unary main_cst_4 main_v43 (broadcastInDim S128 ![] bcast_S_S128 : (⟨S_, .f32⟩ : BufTy).Contents (Elt F) → (⟨S128, .f32⟩ : BufTy).Contents (Elt F)),
    binary main_v42 main_v43 main_v44 (addf : (⟨S128, .f32⟩ : BufTy).Contents (Elt F) → (⟨S128, .f32⟩ : BufTy).Contents (Elt F) → (⟨S128, .f32⟩ : BufTy).Contents (Elt F)),
    unary main_v44 main_v45 (Host.sqrt : (⟨S128, .f32⟩ : BufTy).Contents (Elt F) → (⟨S128, .f32⟩ : BufTy).Contents (Elt F)),
    binary main_v36 main_v45 main_v46 (Host.divf : (⟨S128, .f32⟩ : BufTy).Contents (Elt F) → (⟨S128, .f32⟩ : BufTy).Contents (Elt F) → (⟨S128, .f32⟩ : BufTy).Contents (Elt F)),
    unary main_v40 main_v47 (broadcastInDim S1x128 ![1] bcast_S128_S1x128_1 : (⟨S128, .f32⟩ : BufTy).Contents (Elt F) → (⟨S1x128, .f32⟩ : BufTy).Contents (Elt F)),
    unary main_v47 main_v48 (broadcastInDim S100000x128 ![0, 1] bcast_S1x128_S100000x128_0_1 : (⟨S1x128, .f32⟩ : BufTy).Contents (Elt F) → (⟨S100000x128, .f32⟩ : BufTy).Contents (Elt F)),
    binary main_v34 main_v48 main_v49 (subf : (⟨S100000x128, .f32⟩ : BufTy).Contents (Elt F) → (⟨S100000x128, .f32⟩ : BufTy).Contents (Elt F) → (⟨S100000x128, .f32⟩ : BufTy).Contents (Elt F)),
    unary main_v46 main_v50 (broadcastInDim S1x128 ![1] bcast_S128_S1x128_1 : (⟨S128, .f32⟩ : BufTy).Contents (Elt F) → (⟨S1x128, .f32⟩ : BufTy).Contents (Elt F)),
    unary main_v50 main_v51 (broadcastInDim S100000x128 ![0, 1] bcast_S1x128_S100000x128_0_1 : (⟨S1x128, .f32⟩ : BufTy).Contents (Elt F) → (⟨S100000x128, .f32⟩ : BufTy).Contents (Elt F)),
    binary main_v49 main_v51 main_v52 (mulf : (⟨S100000x128, .f32⟩ : BufTy).Contents (Elt F) → (⟨S100000x128, .f32⟩ : BufTy).Contents (Elt F) → (⟨S100000x128, .f32⟩ : BufTy).Contents (Elt F)),
    unary main_v38 main_v53 (broadcastInDim S1x128 ![1] bcast_S128_S1x128_1 : (⟨S128, .f32⟩ : BufTy).Contents (Elt F) → (⟨S1x128, .f32⟩ : BufTy).Contents (Elt F)),
    unary main_v53 main_v54 (broadcastInDim S100000x128 ![0, 1] bcast_S1x128_S100000x128_0_1 : (⟨S1x128, .f32⟩ : BufTy).Contents (Elt F) → (⟨S100000x128, .f32⟩ : BufTy).Contents (Elt F)),
    binary main_v52 main_v54 main_v55 (addf : (⟨S100000x128, .f32⟩ : BufTy).Contents (Elt F) → (⟨S100000x128, .f32⟩ : BufTy).Contents (Elt F) → (⟨S100000x128, .f32⟩ : BufTy).Contents (Elt F)) ]

/-- Layer 0's activation: `main_v58` from `main_v55`. -/
abbrev opsL0b : List (HloOp τ sig (Elt F)) :=
  [ TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v55) (TRef.of (T := ⟨S100000x128, .f32⟩) main_call0_v0) (TRef.of (T := ⟨S100000x128, .f32⟩) main_call0_v1) maximumf,
    TRef.unary (TRef.of (T := ⟨S_, .f32⟩) main_call0_cst) (TRef.of (T := ⟨S100000x128, .f32⟩) main_call0_v2) (broadcastInDim S100000x128 ![] bcast_S_S100000x128),
    TRef.binary (TRef.of (T := ⟨S100000x128, .f32⟩) main_v55) (TRef.of (T := ⟨S100000x128, .f32⟩) main_call0_v2) (TRef.of (T := ⟨S100000x128, .f32⟩) main_call0_v3) subf,
    TRef.binary (TRef.of (T := ⟨S100000x128, .f32⟩) main_call0_v3) (TRef.of (T := ⟨S100000x128, .f32⟩) main_call0_v3) (TRef.of (T := ⟨S100000x128, .i1⟩) main_call0_v4) (cmpf .une),
    TRef.unary (TRef.of (T := ⟨S_, .f32⟩) main_call0_cst) (TRef.of (T := ⟨S100000x128, .f32⟩) main_call0_v5) (broadcastInDim S100000x128 ![] bcast_S_S100000x128),
    TRef.binary (TRef.of (T := ⟨S100000x128, .f32⟩) main_v55) (TRef.of (T := ⟨S100000x128, .f32⟩) main_call0_v5) (TRef.of (T := ⟨S100000x128, .f32⟩) main_call0_v6) addf,
    TRef.unary (TRef.of (T := ⟨S100000x128, .f32⟩) main_call0_v3) (TRef.of (T := ⟨S100000x128, .f32⟩) main_call0_v7) Host.absf,
    TRef.unary (TRef.of (T := ⟨S100000x128, .f32⟩) main_call0_v7) (TRef.of (T := ⟨S100000x128, .f32⟩) main_call0_v8) Host.negf,
    TRef.unary (TRef.of (T := ⟨S100000x128, .f32⟩) main_call0_v8) (TRef.of (T := ⟨S100000x128, .f32⟩) main_call0_v9) Host.exp,
    TRef.unary (TRef.of (T := ⟨S100000x128, .f32⟩) main_call0_v9) (TRef.of (T := ⟨S100000x128, .f32⟩) main_call0_v10) Host.log1p,
    TRef.binary (TRef.of (T := ⟨S100000x128, .f32⟩) main_call0_v1) (TRef.of (T := ⟨S100000x128, .f32⟩) main_call0_v10) (TRef.of (T := ⟨S100000x128, .f32⟩) main_call0_v11) addf,
    TRef.ternary (TRef.of (T := ⟨S100000x128, .i1⟩) main_call0_v4) (TRef.of (T := ⟨S100000x128, .f32⟩) main_call0_v6) (TRef.of (T := ⟨S100000x128, .f32⟩) main_call0_v11) (TRef.of (T := ⟨S100000x128, .f32⟩) main_v56) select,
    unary main_v56 main_v57 (Host.tanh : (⟨S100000x128, .f32⟩ : BufTy).Contents (Elt F) → (⟨S100000x128, .f32⟩ : BufTy).Contents (Elt F)),
    binary main_v55 main_v57 main_v58 (mulf : (⟨S100000x128, .f32⟩ : BufTy).Contents (Elt F) → (⟨S100000x128, .f32⟩ : BufTy).Contents (Elt F) → (⟨S100000x128, .f32⟩ : BufTy).Contents (Elt F)) ]

/-- Layer 1 up to the normalised row `main_v110`, reading layer 0's output `main_v58`. -/
abbrev opsL1a : List (HloOp τ sig (Elt F)) :=
  [ unary main_arg2 main_v59 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v59 main_v60 rfl shapeCasts_S1x128x128_S128x128,
    unary main_arg3 main_v61 ((extractStridedSlice S1x128 ![1, 0] · slices_S3x128_S1x128_1_0) : (⟨S3x128, .f32⟩ : BufTy).Contents (Elt F) → (⟨S1x128, .f32⟩ : BufTy).Contents (Elt F)),
    reshape main_v61 main_v62 rfl shapeCasts_S1x128_S128,
    unary main_arg4 main_v63 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v63 main_v64 rfl shapeCasts_S1x128x128_S128x128,
    nullary main_c_5 (constantI S_ 32 0#32),
    unary main_c_5 main_v65 (broadcastInDim S1600000 ![] bcast_S_S1600000 : (⟨S_, .i32⟩ : BufTy).Contents (Elt F) → (⟨S1600000, .i32⟩ : BufTy).Contents (Elt F)),
    binary main_v1 main_v65 main_v66 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v67 (broadcastInDim S1600000 ![] bcast_S_S1600000 : (⟨S_, .i32⟩ : BufTy).Contents (Elt F) → (⟨S1600000, .i32⟩ : BufTy).Contents (Elt F)),
    binary main_v1 main_v67 main_v68 (addi : (⟨S1600000, .i32⟩ : BufTy).Contents (Elt F) → (⟨S1600000, .i32⟩ : BufTy).Contents (Elt F) → (⟨S1600000, .i32⟩ : BufTy).Contents (Elt F)),
    ternary main_v66 main_v68 main_v1 main_v69 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v69 main_v70 (broadcastInDim S1600000x1 ![0] bcast_S1600000_S1600000x1_0 : (⟨S1600000, .i32⟩ : BufTy).Contents (Elt F) → (⟨S1600000x1, .i32⟩ : BufTy).Contents (Elt F)),
    binary main_v58 main_v70 main_v71 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_7 (constant S_ .f32 0x00000000#32),
    unary main_cst_7 main_v72 (broadcastInDim S100000x128 ![] bcast_S_S100000x128 : (⟨S_, .f32⟩ : BufTy).Contents (Elt F) → (⟨S100000x128, .f32⟩ : BufTy).Contents (Elt F)),
    unary main_v3 main_v73 (broadcastInDim S1600000x1 ![0] bcast_S1600000_S1600000x1_0 : (⟨S1600000, .i32⟩ : BufTy).Contents (Elt F) → (⟨S1600000x1, .i32⟩ : BufTy).Contents (Elt F)),
    ternary main_v72 main_v73 main_v71 main_v74 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_8 (constant S_ .f32 0x3F800000#32),
    unary main_cst_8 main_v75 (broadcastInDim S1600000 ![] bcast_S_S1600000 : (⟨S_, .f32⟩ : BufTy).Contents (Elt F) → (⟨S1600000, .f32⟩ : BufTy).Contents (Elt F)),
    nullary main_cst_9 (constant S_ .f32 0x00000000#32),
    unary main_cst_9 main_v76 (broadcastInDim S100000 ![] bcast_S_S100000 : (⟨S_, .f32⟩ : BufTy).Contents (Elt F) → (⟨S100000, .f32⟩ : BufTy).Contents (Elt F)),
    unary main_v3 main_v77 (broadcastInDim S1600000x1 ![0] bcast_S1600000_S1600000x1_0 : (⟨S1600000, .i32⟩ : BufTy).Contents (Elt F) → (⟨S1600000x1, .i32⟩ : BufTy).Contents (Elt F)),
    ternary main_v76 main_v77 main_v75 main_v78 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_10 (constant S_ .f32 0x3F800000#32),
    unary main_cst_10 main_v79 (broadcastInDim S100000 ![] bcast_S_S100000 : (⟨S_, .f32⟩ : BufTy).Contents (Elt F) → (⟨S100000, .f32⟩ : BufTy).Contents (Elt F)),
    binary main_v78 main_v79 main_v80 (maximumf : (⟨S100000, .f32⟩ : BufTy).Contents (Elt F) → (⟨S100000, .f32⟩ : BufTy).Contents (Elt F) → (⟨S100000, .f32⟩ : BufTy).Contents (Elt F)),
    unary main_v80 main_v81 (broadcastInDim S100000x1 ![0] bcast_S100000_S100000x1_0 : (⟨S100000, .f32⟩ : BufTy).Contents (Elt F) → (⟨S100000x1, .f32⟩ : BufTy).Contents (Elt F)),
    unary main_v81 main_v82 (broadcastInDim S100000x128 ![0, 1] bcast_S100000x1_S100000x128_0_1 : (⟨S100000x1, .f32⟩ : BufTy).Contents (Elt F) → (⟨S100000x128, .f32⟩ : BufTy).Contents (Elt F)),
    binary main_v74 main_v82 main_v83 (Host.divf : (⟨S100000x128, .f32⟩ : BufTy).Contents (Elt F) → (⟨S100000x128, .f32⟩ : BufTy).Contents (Elt F) → (⟨S100000x128, .f32⟩ : BufTy).Contents (Elt F)),
    binary main_v83 main_v60 main_v84 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v62 main_v85 (broadcastInDim S1x128 ![1] bcast_S128_S1x128_1 : (⟨S128, .f32⟩ : BufTy).Contents (Elt F) → (⟨S1x128, .f32⟩ : BufTy).Contents (Elt F)),
    unary main_v85 main_v86 (broadcastInDim S100000x128 ![0, 1] bcast_S1x128_S100000x128_0_1 : (⟨S1x128, .f32⟩ : BufTy).Contents (Elt F) → (⟨S100000x128, .f32⟩ : BufTy).Contents (Elt F)),
    binary main_v84 main_v86 main_v87 (addf : (⟨S100000x128, .f32⟩ : BufTy).Contents (Elt F) → (⟨S100000x128, .f32⟩ : BufTy).Contents (Elt F) → (⟨S100000x128, .f32⟩ : BufTy).Contents (Elt F)),
    binary main_v58 main_v64 main_v88 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v87 main_v88 main_v89 (addf : (⟨S100000x128, .f32⟩ : BufTy).Contents (Elt F) → (⟨S100000x128, .f32⟩ : BufTy).Contents (Elt F) → (⟨S100000x128, .f32⟩ : BufTy).Contents (Elt F)),
    unary main_arg5 main_v90 ((extractStridedSlice S1x128 ![1, 0] · slices_S3x128_S1x128_1_0) : (⟨S3x128, .f32⟩ : BufTy).Contents (Elt F) → (⟨S1x128, .f32⟩ : BufTy).Contents (Elt F)),
    reshape main_v90 main_v91 rfl shapeCasts_S1x128_S128,
    unary main_arg6 main_v92 ((extractStridedSlice S1x128 ![1, 0] · slices_S3x128_S1x128_1_0) : (⟨S3x128, .f32⟩ : BufTy).Contents (Elt F) → (⟨S1x128, .f32⟩ : BufTy).Contents (Elt F)),
    reshape main_v92 main_v93 rfl shapeCasts_S1x128_S128,
    unary main_arg7 main_v94 ((extractStridedSlice S1x128 ![1, 0] · slices_S3x128_S1x128_1_0) : (⟨S3x128, .f32⟩ : BufTy).Contents (Elt F) → (⟨S1x128, .f32⟩ : BufTy).Contents (Elt F)),
    reshape main_v94 main_v95 rfl shapeCasts_S1x128_S128,
    unary main_arg8 main_v96 ((extractStridedSlice S1x128 ![1, 0] · slices_S3x128_S1x128_1_0) : (⟨S3x128, .f32⟩ : BufTy).Contents (Elt F) → (⟨S1x128, .f32⟩ : BufTy).Contents (Elt F)),
    reshape main_v96 main_v97 rfl shapeCasts_S1x128_S128,
    nullary main_cst_11 (constant S_ .f32 0x3727C5AC#32),
    unary main_cst_11 main_v98 (broadcastInDim S128 ![] bcast_S_S128 : (⟨S_, .f32⟩ : BufTy).Contents (Elt F) → (⟨S128, .f32⟩ : BufTy).Contents (Elt F)),
    binary main_v97 main_v98 main_v99 (addf : (⟨S128, .f32⟩ : BufTy).Contents (Elt F) → (⟨S128, .f32⟩ : BufTy).Contents (Elt F) → (⟨S128, .f32⟩ : BufTy).Contents (Elt F)),
    unary main_v99 main_v100 (Host.sqrt : (⟨S128, .f32⟩ : BufTy).Contents (Elt F) → (⟨S128, .f32⟩ : BufTy).Contents (Elt F)),
    binary main_v91 main_v100 main_v101 (Host.divf : (⟨S128, .f32⟩ : BufTy).Contents (Elt F) → (⟨S128, .f32⟩ : BufTy).Contents (Elt F) → (⟨S128, .f32⟩ : BufTy).Contents (Elt F)),
    unary main_v95 main_v102 (broadcastInDim S1x128 ![1] bcast_S128_S1x128_1 : (⟨S128, .f32⟩ : BufTy).Contents (Elt F) → (⟨S1x128, .f32⟩ : BufTy).Contents (Elt F)),
    unary main_v102 main_v103 (broadcastInDim S100000x128 ![0, 1] bcast_S1x128_S100000x128_0_1 : (⟨S1x128, .f32⟩ : BufTy).Contents (Elt F) → (⟨S100000x128, .f32⟩ : BufTy).Contents (Elt F)),
    binary main_v89 main_v103 main_v104 (subf : (⟨S100000x128, .f32⟩ : BufTy).Contents (Elt F) → (⟨S100000x128, .f32⟩ : BufTy).Contents (Elt F) → (⟨S100000x128, .f32⟩ : BufTy).Contents (Elt F)),
    unary main_v101 main_v105 (broadcastInDim S1x128 ![1] bcast_S128_S1x128_1 : (⟨S128, .f32⟩ : BufTy).Contents (Elt F) → (⟨S1x128, .f32⟩ : BufTy).Contents (Elt F)),
    unary main_v105 main_v106 (broadcastInDim S100000x128 ![0, 1] bcast_S1x128_S100000x128_0_1 : (⟨S1x128, .f32⟩ : BufTy).Contents (Elt F) → (⟨S100000x128, .f32⟩ : BufTy).Contents (Elt F)),
    binary main_v104 main_v106 main_v107 (mulf : (⟨S100000x128, .f32⟩ : BufTy).Contents (Elt F) → (⟨S100000x128, .f32⟩ : BufTy).Contents (Elt F) → (⟨S100000x128, .f32⟩ : BufTy).Contents (Elt F)),
    unary main_v93 main_v108 (broadcastInDim S1x128 ![1] bcast_S128_S1x128_1 : (⟨S128, .f32⟩ : BufTy).Contents (Elt F) → (⟨S1x128, .f32⟩ : BufTy).Contents (Elt F)),
    unary main_v108 main_v109 (broadcastInDim S100000x128 ![0, 1] bcast_S1x128_S100000x128_0_1 : (⟨S1x128, .f32⟩ : BufTy).Contents (Elt F) → (⟨S100000x128, .f32⟩ : BufTy).Contents (Elt F)),
    binary main_v107 main_v109 main_v110 (addf : (⟨S100000x128, .f32⟩ : BufTy).Contents (Elt F) → (⟨S100000x128, .f32⟩ : BufTy).Contents (Elt F) → (⟨S100000x128, .f32⟩ : BufTy).Contents (Elt F)) ]

/-- Layer 1's activation: `main_v113` from `main_v110`. -/
abbrev opsL1b : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v110) (TRef.of (T := ⟨S100000x128, .f32⟩) main_call1_v0) (TRef.of (T := ⟨S100000x128, .f32⟩) main_call1_v1) maximumf,
    TRef.unary (TRef.of (T := ⟨S_, .f32⟩) main_call1_cst) (TRef.of (T := ⟨S100000x128, .f32⟩) main_call1_v2) (broadcastInDim S100000x128 ![] bcast_S_S100000x128),
    TRef.binary (TRef.of (T := ⟨S100000x128, .f32⟩) main_v110) (TRef.of (T := ⟨S100000x128, .f32⟩) main_call1_v2) (TRef.of (T := ⟨S100000x128, .f32⟩) main_call1_v3) subf,
    TRef.binary (TRef.of (T := ⟨S100000x128, .f32⟩) main_call1_v3) (TRef.of (T := ⟨S100000x128, .f32⟩) main_call1_v3) (TRef.of (T := ⟨S100000x128, .i1⟩) main_call1_v4) (cmpf .une),
    TRef.unary (TRef.of (T := ⟨S_, .f32⟩) main_call1_cst) (TRef.of (T := ⟨S100000x128, .f32⟩) main_call1_v5) (broadcastInDim S100000x128 ![] bcast_S_S100000x128),
    TRef.binary (TRef.of (T := ⟨S100000x128, .f32⟩) main_v110) (TRef.of (T := ⟨S100000x128, .f32⟩) main_call1_v5) (TRef.of (T := ⟨S100000x128, .f32⟩) main_call1_v6) addf,
    TRef.unary (TRef.of (T := ⟨S100000x128, .f32⟩) main_call1_v3) (TRef.of (T := ⟨S100000x128, .f32⟩) main_call1_v7) Host.absf,
    TRef.unary (TRef.of (T := ⟨S100000x128, .f32⟩) main_call1_v7) (TRef.of (T := ⟨S100000x128, .f32⟩) main_call1_v8) Host.negf,
    TRef.unary (TRef.of (T := ⟨S100000x128, .f32⟩) main_call1_v8) (TRef.of (T := ⟨S100000x128, .f32⟩) main_call1_v9) Host.exp,
    TRef.unary (TRef.of (T := ⟨S100000x128, .f32⟩) main_call1_v9) (TRef.of (T := ⟨S100000x128, .f32⟩) main_call1_v10) Host.log1p,
    TRef.binary (TRef.of (T := ⟨S100000x128, .f32⟩) main_call1_v1) (TRef.of (T := ⟨S100000x128, .f32⟩) main_call1_v10) (TRef.of (T := ⟨S100000x128, .f32⟩) main_call1_v11) addf,
    TRef.ternary (TRef.of (T := ⟨S100000x128, .i1⟩) main_call1_v4) (TRef.of (T := ⟨S100000x128, .f32⟩) main_call1_v6) (TRef.of (T := ⟨S100000x128, .f32⟩) main_call1_v11) (TRef.of (T := ⟨S100000x128, .f32⟩) main_v111) select,
    unary main_v111 main_v112 (Host.tanh : (⟨S100000x128, .f32⟩ : BufTy).Contents (Elt F) → (⟨S100000x128, .f32⟩ : BufTy).Contents (Elt F)),
    binary main_v110 main_v112 main_v113 (mulf : (⟨S100000x128, .f32⟩ : BufTy).Contents (Elt F) → (⟨S100000x128, .f32⟩ : BufTy).Contents (Elt F) → (⟨S100000x128, .f32⟩ : BufTy).Contents (Elt F)) ]

/-- Layer 2, reading layer 1's output `main_v113`; its normalised row `main_v165` is the result. -/
abbrev opsL2 : List (HloOp τ sig (Elt F)) :=
  [ unary main_arg2 main_v114 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v114 main_v115 rfl shapeCasts_S1x128x128_S128x128,
    unary main_arg3 main_v116 ((extractStridedSlice S1x128 ![2, 0] · slices_S3x128_S1x128_2_0) : (⟨S3x128, .f32⟩ : BufTy).Contents (Elt F) → (⟨S1x128, .f32⟩ : BufTy).Contents (Elt F)),
    reshape main_v116 main_v117 rfl shapeCasts_S1x128_S128,
    unary main_arg4 main_v118 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v118 main_v119 rfl shapeCasts_S1x128x128_S128x128,
    nullary main_c_12 (constantI S_ 32 0#32),
    unary main_c_12 main_v120 (broadcastInDim S1600000 ![] bcast_S_S1600000 : (⟨S_, .i32⟩ : BufTy).Contents (Elt F) → (⟨S1600000, .i32⟩ : BufTy).Contents (Elt F)),
    binary main_v1 main_v120 main_v121 (cmpi .slt : (⟨S1600000, .i32⟩ : BufTy).Contents (Elt F) → (⟨S1600000, .i32⟩ : BufTy).Contents (Elt F) → (⟨S1600000, .i1⟩ : BufTy).Contents (Elt F)),
    nullary main_c_13 (constantI S_ 32 100000#32),
    unary main_c_13 main_v122 (broadcastInDim S1600000 ![] bcast_S_S1600000 : (⟨S_, .i32⟩ : BufTy).Contents (Elt F) → (⟨S1600000, .i32⟩ : BufTy).Contents (Elt F)),
    binary main_v1 main_v122 main_v123 (addi : (⟨S1600000, .i32⟩ : BufTy).Contents (Elt F) → (⟨S1600000, .i32⟩ : BufTy).Contents (Elt F) → (⟨S1600000, .i32⟩ : BufTy).Contents (Elt F)),
    ternary main_v121 main_v123 main_v1 main_v124 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v124 main_v125 (broadcastInDim S1600000x1 ![0] bcast_S1600000_S1600000x1_0 : (⟨S1600000, .i32⟩ : BufTy).Contents (Elt F) → (⟨S1600000x1, .i32⟩ : BufTy).Contents (Elt F)),
    binary main_v113 main_v125 main_v126 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_14 (constant S_ .f32 0x00000000#32),
    unary main_cst_14 main_v127 (broadcastInDim S100000x128 ![] bcast_S_S100000x128 : (⟨S_, .f32⟩ : BufTy).Contents (Elt F) → (⟨S100000x128, .f32⟩ : BufTy).Contents (Elt F)),
    unary main_v3 main_v128 (broadcastInDim S1600000x1 ![0] bcast_S1600000_S1600000x1_0 : (⟨S1600000, .i32⟩ : BufTy).Contents (Elt F) → (⟨S1600000x1, .i32⟩ : BufTy).Contents (Elt F)),
    ternary main_v127 main_v128 main_v126 main_v129 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    nullary main_cst_15 (constant S_ .f32 0x3F800000#32),
    unary main_cst_15 main_v130 (broadcastInDim S1600000 ![] bcast_S_S1600000 : (⟨S_, .f32⟩ : BufTy).Contents (Elt F) → (⟨S1600000, .f32⟩ : BufTy).Contents (Elt F)),
    nullary main_cst_16 (constant S_ .f32 0x00000000#32),
    unary main_cst_16 main_v131 (broadcastInDim S100000 ![] bcast_S_S100000 : (⟨S_, .f32⟩ : BufTy).Contents (Elt F) → (⟨S100000, .f32⟩ : BufTy).Contents (Elt F)),
    unary main_v3 main_v132 (broadcastInDim S1600000x1 ![0] bcast_S1600000_S1600000x1_0 : (⟨S1600000, .i32⟩ : BufTy).Contents (Elt F) → (⟨S1600000x1, .i32⟩ : BufTy).Contents (Elt F)),
    ternary main_v131 main_v132 main_v130 main_v133 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_17 (constant S_ .f32 0x3F800000#32),
    unary main_cst_17 main_v134 (broadcastInDim S100000 ![] bcast_S_S100000 : (⟨S_, .f32⟩ : BufTy).Contents (Elt F) → (⟨S100000, .f32⟩ : BufTy).Contents (Elt F)),
    binary main_v133 main_v134 main_v135 (maximumf : (⟨S100000, .f32⟩ : BufTy).Contents (Elt F) → (⟨S100000, .f32⟩ : BufTy).Contents (Elt F) → (⟨S100000, .f32⟩ : BufTy).Contents (Elt F)),
    unary main_v135 main_v136 (broadcastInDim S100000x1 ![0] bcast_S100000_S100000x1_0 : (⟨S100000, .f32⟩ : BufTy).Contents (Elt F) → (⟨S100000x1, .f32⟩ : BufTy).Contents (Elt F)),
    unary main_v136 main_v137 (broadcastInDim S100000x128 ![0, 1] bcast_S100000x1_S100000x128_0_1 : (⟨S100000x1, .f32⟩ : BufTy).Contents (Elt F) → (⟨S100000x128, .f32⟩ : BufTy).Contents (Elt F)),
    binary main_v129 main_v137 main_v138 (Host.divf : (⟨S100000x128, .f32⟩ : BufTy).Contents (Elt F) → (⟨S100000x128, .f32⟩ : BufTy).Contents (Elt F) → (⟨S100000x128, .f32⟩ : BufTy).Contents (Elt F)),
    binary main_v138 main_v115 main_v139 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_v117 main_v140 (broadcastInDim S1x128 ![1] bcast_S128_S1x128_1 : (⟨S128, .f32⟩ : BufTy).Contents (Elt F) → (⟨S1x128, .f32⟩ : BufTy).Contents (Elt F)),
    unary main_v140 main_v141 (broadcastInDim S100000x128 ![0, 1] bcast_S1x128_S100000x128_0_1 : (⟨S1x128, .f32⟩ : BufTy).Contents (Elt F) → (⟨S100000x128, .f32⟩ : BufTy).Contents (Elt F)),
    binary main_v139 main_v141 main_v142 (addf : (⟨S100000x128, .f32⟩ : BufTy).Contents (Elt F) → (⟨S100000x128, .f32⟩ : BufTy).Contents (Elt F) → (⟨S100000x128, .f32⟩ : BufTy).Contents (Elt F)),
    binary main_v113 main_v119 main_v143 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    binary main_v142 main_v143 main_v144 (addf : (⟨S100000x128, .f32⟩ : BufTy).Contents (Elt F) → (⟨S100000x128, .f32⟩ : BufTy).Contents (Elt F) → (⟨S100000x128, .f32⟩ : BufTy).Contents (Elt F)),
    unary main_arg5 main_v145 ((extractStridedSlice S1x128 ![2, 0] · slices_S3x128_S1x128_2_0) : (⟨S3x128, .f32⟩ : BufTy).Contents (Elt F) → (⟨S1x128, .f32⟩ : BufTy).Contents (Elt F)),
    reshape main_v145 main_v146 rfl shapeCasts_S1x128_S128,
    unary main_arg6 main_v147 ((extractStridedSlice S1x128 ![2, 0] · slices_S3x128_S1x128_2_0) : (⟨S3x128, .f32⟩ : BufTy).Contents (Elt F) → (⟨S1x128, .f32⟩ : BufTy).Contents (Elt F)),
    reshape main_v147 main_v148 rfl shapeCasts_S1x128_S128,
    unary main_arg7 main_v149 ((extractStridedSlice S1x128 ![2, 0] · slices_S3x128_S1x128_2_0) : (⟨S3x128, .f32⟩ : BufTy).Contents (Elt F) → (⟨S1x128, .f32⟩ : BufTy).Contents (Elt F)),
    reshape main_v149 main_v150 rfl shapeCasts_S1x128_S128,
    unary main_arg8 main_v151 ((extractStridedSlice S1x128 ![2, 0] · slices_S3x128_S1x128_2_0) : (⟨S3x128, .f32⟩ : BufTy).Contents (Elt F) → (⟨S1x128, .f32⟩ : BufTy).Contents (Elt F)),
    reshape main_v151 main_v152 rfl shapeCasts_S1x128_S128,
    nullary main_cst_18 (constant S_ .f32 0x3727C5AC#32),
    unary main_cst_18 main_v153 (broadcastInDim S128 ![] bcast_S_S128 : (⟨S_, .f32⟩ : BufTy).Contents (Elt F) → (⟨S128, .f32⟩ : BufTy).Contents (Elt F)),
    binary main_v152 main_v153 main_v154 (addf : (⟨S128, .f32⟩ : BufTy).Contents (Elt F) → (⟨S128, .f32⟩ : BufTy).Contents (Elt F) → (⟨S128, .f32⟩ : BufTy).Contents (Elt F)),
    unary main_v154 main_v155 (Host.sqrt : (⟨S128, .f32⟩ : BufTy).Contents (Elt F) → (⟨S128, .f32⟩ : BufTy).Contents (Elt F)),
    binary main_v146 main_v155 main_v156 (Host.divf : (⟨S128, .f32⟩ : BufTy).Contents (Elt F) → (⟨S128, .f32⟩ : BufTy).Contents (Elt F) → (⟨S128, .f32⟩ : BufTy).Contents (Elt F)),
    unary main_v150 main_v157 (broadcastInDim S1x128 ![1] bcast_S128_S1x128_1 : (⟨S128, .f32⟩ : BufTy).Contents (Elt F) → (⟨S1x128, .f32⟩ : BufTy).Contents (Elt F)),
    unary main_v157 main_v158 (broadcastInDim S100000x128 ![0, 1] bcast_S1x128_S100000x128_0_1 : (⟨S1x128, .f32⟩ : BufTy).Contents (Elt F) → (⟨S100000x128, .f32⟩ : BufTy).Contents (Elt F)),
    binary main_v144 main_v158 main_v159 (subf : (⟨S100000x128, .f32⟩ : BufTy).Contents (Elt F) → (⟨S100000x128, .f32⟩ : BufTy).Contents (Elt F) → (⟨S100000x128, .f32⟩ : BufTy).Contents (Elt F)),
    unary main_v156 main_v160 (broadcastInDim S1x128 ![1] bcast_S128_S1x128_1 : (⟨S128, .f32⟩ : BufTy).Contents (Elt F) → (⟨S1x128, .f32⟩ : BufTy).Contents (Elt F)),
    unary main_v160 main_v161 (broadcastInDim S100000x128 ![0, 1] bcast_S1x128_S100000x128_0_1 : (⟨S1x128, .f32⟩ : BufTy).Contents (Elt F) → (⟨S100000x128, .f32⟩ : BufTy).Contents (Elt F)),
    binary main_v159 main_v161 main_v162 (mulf : (⟨S100000x128, .f32⟩ : BufTy).Contents (Elt F) → (⟨S100000x128, .f32⟩ : BufTy).Contents (Elt F) → (⟨S100000x128, .f32⟩ : BufTy).Contents (Elt F)),
    unary main_v148 main_v163 (broadcastInDim S1x128 ![1] bcast_S128_S1x128_1 : (⟨S128, .f32⟩ : BufTy).Contents (Elt F) → (⟨S1x128, .f32⟩ : BufTy).Contents (Elt F)),
    unary main_v163 main_v164 (broadcastInDim S100000x128 ![0, 1] bcast_S1x128_S100000x128_0_1 : (⟨S1x128, .f32⟩ : BufTy).Contents (Elt F) → (⟨S100000x128, .f32⟩ : BufTy).Contents (Elt F)),
    binary main_v162 main_v164 main_v165 (addf : (⟨S100000x128, .f32⟩ : BufTy).Contents (Elt F) → (⟨S100000x128, .f32⟩ : BufTy).Contents (Elt F) → (⟨S100000x128, .f32⟩ : BufTy).Contents (Elt F)) ]

end Windows

/-- Row 0 and row 1 of the edge list, each as one word per edge. -/
def row0 (e : IVec S2x1600000 32) : IVec S1600000 32 :=
  shapeCast _ (extractStridedSlice S1x1600000 ![0, 0] e slices_S2x1600000_S1x1600000_0_0) shapeCasts_S1x1600000_S1600000
@[inherit_doc row0]
def row1 (e : IVec S2x1600000 32) : IVec S1600000 32 :=
  shapeCast _ (extractStridedSlice S1x1600000 ![1, 0] e slices_S2x1600000_S1x1600000_1_0) shapeCasts_S1x1600000_S1600000

/-- The buffers every later window reads and no window after the first writes: the two edge rows and the seven
    stacked parameters. -/
def keptRefs : List (Ref sig .tc) :=
  [main_v1, main_v3, main_arg2, main_arg3, main_arg4, main_arg5, main_arg6, main_arg7, main_arg8]

/-- The contents W hold the two rows of the edge list e and the seven stacked parameters at those buffers. -/
structure Keeps (W : Valuation τ sig (Elt Ideal)) (e : IVec S2x1600000 32) (Wl : FVec Ideal S3x128x128 .f32)
    (bl : FVec Ideal S3x128 .f32) (Wr : FVec Ideal S3x128x128 .f32) (g be rm rv : FVec Ideal S3x128 .f32) : Prop where
  v1 : W (Proc.devRef .tc main_v1) = row0 e
  v3 : W (Proc.devRef .tc main_v3) = row1 e
  a2 : W (Proc.devRef .tc main_arg2) = Wl
  a3 : W (Proc.devRef .tc main_arg3) = bl
  a4 : W (Proc.devRef .tc main_arg4) = Wr
  a5 : W (Proc.devRef .tc main_arg5) = g
  a6 : W (Proc.devRef .tc main_arg6) = be
  a7 : W (Proc.devRef .tc main_arg7) = rm
  a8 : W (Proc.devRef .tc main_arg8) = rv

/-- Contents that agree with W at the kept buffers hold what W holds there. -/
theorem Keeps.of_frame {W' : Valuation τ sig (Elt Ideal)} {W : Valuation τ sig (Elt Ideal)} {e : IVec S2x1600000 32} {Wl : FVec Ideal S3x128x128 .f32} {bl : FVec Ideal S3x128 .f32}
    {Wr : FVec Ideal S3x128x128 .f32} {g be rm rv : FVec Ideal S3x128 .f32}
    (k : Keeps W e Wl bl Wr g be rm rv) (hf : ∀ r ∈ keptRefs, W' (Proc.devRef .tc r) = W (Proc.devRef .tc r)) :
    Keeps W' e Wl bl Wr g be rm rv :=
  ⟨(hf main_v1 (by decide)).trans k.v1,
   (hf main_v3 (by decide)).trans k.v3,
   (hf main_arg2 (by decide)).trans k.a2,
   (hf main_arg3 (by decide)).trans k.a3,
   (hf main_arg4 (by decide)).trans k.a4,
   (hf main_arg5 (by decide)).trans k.a5,
   (hf main_arg6 (by decide)).trans k.a6,
   (hf main_arg7 (by decide)).trans k.a7,
   (hf main_arg8 (by decide)).trans k.a8⟩

/-! ## The first window: the edge rows -/

/-- After the first window the kept buffers hold the rows of the edge list at `main_arg1` and the parameters at
    `main_arg2` … `main_arg8`, each as W had it. -/
theorem keeps_pre (W : Valuation τ sig (Elt Ideal)) :
    Keeps (after (opsPre (F := Ideal)) W) (W (Proc.devRef .tc main_arg1)) (W (Proc.devRef .tc main_arg2)) (W (Proc.devRef .tc main_arg3))
      (W (Proc.devRef .tc main_arg4)) (W (Proc.devRef .tc main_arg5)) (W (Proc.devRef .tc main_arg6)) (W (Proc.devRef .tc main_arg7)) (W (Proc.devRef .tc main_arg8)) :=
  ⟨by after_results_simp <;> rfl, by after_results_simp <;> rfl, by after_results_simp <;> rfl, by after_results_simp <;> rfl,
   by after_results_simp <;> rfl, by after_results_simp <;> rfl, by after_results_simp <;> rfl, by after_results_simp <;> rfl,
   by after_results_simp <;> rfl⟩

/-- The first window leaves the node features as W had them. -/
theorem pre_arg0 (W : Valuation τ sig (Elt Ideal)) :
    after (opsPre (F := Ideal)) W (Proc.devRef .tc main_arg0) = W (Proc.devRef .tc main_arg0) := by
  after_results_simp <;> rfl

/-! ## The kept buffers through the five later windows -/

set_option maxHeartbeats 1600000 in
theorem frame_l0a (W : Valuation τ sig (Elt Ideal)) (r : Ref sig .tc) (hr : r ∈ keptRefs) :
    after (opsL0a (F := Ideal)) W (Proc.devRef .tc r) = W (Proc.devRef .tc r) := by
  simp only [keptRefs, List.mem_cons, List.not_mem_nil, or_false] at hr
  rcases hr with rfl | rfl | rfl | rfl | rfl | rfl | rfl | rfl | rfl <;> (after_results_simp <;> rfl)

theorem keeps_l0a {W : Valuation τ sig (Elt Ideal)} {e : IVec S2x1600000 32} {Wl : FVec Ideal S3x128x128 .f32} {bl : FVec Ideal S3x128 .f32}
    {Wr : FVec Ideal S3x128x128 .f32} {g be rm rv : FVec Ideal S3x128 .f32}
    (k : Keeps W e Wl bl Wr g be rm rv) : Keeps (after (opsL0a (F := Ideal)) W) e Wl bl Wr g be rm rv :=
  k.of_frame (frame_l0a W)

set_option maxHeartbeats 1600000 in
theorem frame_l0b (W : Valuation τ sig (Elt Ideal)) (r : Ref sig .tc) (hr : r ∈ keptRefs) :
    after (opsL0b (F := Ideal)) W (Proc.devRef .tc r) = W (Proc.devRef .tc r) := by
  simp only [keptRefs, List.mem_cons, List.not_mem_nil, or_false] at hr
  rcases hr with rfl | rfl | rfl | rfl | rfl | rfl | rfl | rfl | rfl <;> (after_results_simp <;> rfl)

theorem keeps_l0b {W : Valuation τ sig (Elt Ideal)} {e : IVec S2x1600000 32} {Wl : FVec Ideal S3x128x128 .f32} {bl : FVec Ideal S3x128 .f32}
    {Wr : FVec Ideal S3x128x128 .f32} {g be rm rv : FVec Ideal S3x128 .f32}
    (k : Keeps W e Wl bl Wr g be rm rv) : Keeps (after (opsL0b (F := Ideal)) W) e Wl bl Wr g be rm rv :=
  k.of_frame (frame_l0b W)

set_option maxHeartbeats 1600000 in
theorem frame_l1a (W : Valuation τ sig (Elt Ideal)) (r : Ref sig .tc) (hr : r ∈ keptRefs) :
    after (opsL1a (F := Ideal)) W (Proc.devRef .tc r) = W (Proc.devRef .tc r) := by
  simp only [keptRefs, List.mem_cons, List.not_mem_nil, or_false] at hr
  rcases hr with rfl | rfl | rfl | rfl | rfl | rfl | rfl | rfl | rfl <;> (after_results_simp <;> rfl)

theorem keeps_l1a {W : Valuation τ sig (Elt Ideal)} {e : IVec S2x1600000 32} {Wl : FVec Ideal S3x128x128 .f32} {bl : FVec Ideal S3x128 .f32}
    {Wr : FVec Ideal S3x128x128 .f32} {g be rm rv : FVec Ideal S3x128 .f32}
    (k : Keeps W e Wl bl Wr g be rm rv) : Keeps (after (opsL1a (F := Ideal)) W) e Wl bl Wr g be rm rv :=
  k.of_frame (frame_l1a W)

set_option maxHeartbeats 1600000 in
theorem frame_l1b (W : Valuation τ sig (Elt Ideal)) (r : Ref sig .tc) (hr : r ∈ keptRefs) :
    after (opsL1b (F := Ideal)) W (Proc.devRef .tc r) = W (Proc.devRef .tc r) := by
  simp only [keptRefs, List.mem_cons, List.not_mem_nil, or_false] at hr
  rcases hr with rfl | rfl | rfl | rfl | rfl | rfl | rfl | rfl | rfl <;> (after_results_simp <;> rfl)

theorem keeps_l1b {W : Valuation τ sig (Elt Ideal)} {e : IVec S2x1600000 32} {Wl : FVec Ideal S3x128x128 .f32} {bl : FVec Ideal S3x128 .f32}
    {Wr : FVec Ideal S3x128x128 .f32} {g be rm rv : FVec Ideal S3x128 .f32}
    (k : Keeps W e Wl bl Wr g be rm rv) : Keeps (after (opsL1b (F := Ideal)) W) e Wl bl Wr g be rm rv :=
  k.of_frame (frame_l1b W)

/-! ## What each window leaves at the buffer the next one reads -/

/-- Layer 0 before the activation, from the kept buffers and the layer's input at `main_arg0`. -/
theorem out_l0a {W : Valuation τ sig (Elt Ideal)} {e : IVec S2x1600000 32} {Wl : FVec Ideal S3x128x128 .f32} {bl : FVec Ideal S3x128 .f32}
    {Wr : FVec Ideal S3x128x128 .f32} {g be rm rv : FVec Ideal S3x128 .f32}
    (k : Keeps W e Wl bl Wr g be rm rv) :
    after (opsL0a (F := Ideal)) W (Proc.devRef .tc main_v55)
      = preOf (aggOf e (W (Proc.devRef .tc main_arg0))) (W (Proc.devRef .tc main_arg0)) (cntOf e) (mat0 Wl) (vec0 bl) (mat0 Wr)
          (vec0 g) (vec0 be) (vec0 rm) (vec0 rv) := by
  obtain ⟨h1, h3, rfl, rfl, rfl, rfl, rfl, rfl, rfl⟩ := k
  after_results_simp
  rw [h1, h3]
  generalize W (Proc.devRef .tc main_arg0) = x
  generalize W (Proc.devRef .tc main_arg2) = Wl
  generalize W (Proc.devRef .tc main_arg3) = bl
  generalize W (Proc.devRef .tc main_arg4) = Wr
  generalize W (Proc.devRef .tc main_arg5) = g
  generalize W (Proc.devRef .tc main_arg6) = be
  generalize W (Proc.devRef .tc main_arg7) = rm
  generalize W (Proc.devRef .tc main_arg8) = rv
  rfl

/-- The activation of the row at `main_v55`. -/
theorem out_l0b (W : Valuation τ sig (Elt Ideal)) :
    after (opsL0b (F := Ideal)) W (Proc.devRef .tc main_v58) = mishOf (W (Proc.devRef .tc main_v55)) := by
  after_results_simp
  generalize W (Proc.devRef .tc main_v55) = y
  rfl

/-- Layer 1 before the activation, from the kept buffers and the layer's input at `main_v58`. -/
theorem out_l1a {W : Valuation τ sig (Elt Ideal)} {e : IVec S2x1600000 32} {Wl : FVec Ideal S3x128x128 .f32} {bl : FVec Ideal S3x128 .f32}
    {Wr : FVec Ideal S3x128x128 .f32} {g be rm rv : FVec Ideal S3x128 .f32}
    (k : Keeps W e Wl bl Wr g be rm rv) :
    after (opsL1a (F := Ideal)) W (Proc.devRef .tc main_v110)
      = preOf (aggOf e (W (Proc.devRef .tc main_v58))) (W (Proc.devRef .tc main_v58)) (cntOf e) (mat1 Wl) (vec1 bl) (mat1 Wr)
          (vec1 g) (vec1 be) (vec1 rm) (vec1 rv) := by
  obtain ⟨h1, h3, rfl, rfl, rfl, rfl, rfl, rfl, rfl⟩ := k
  after_results_simp
  rw [h1, h3]
  generalize W (Proc.devRef .tc main_v58) = x
  generalize W (Proc.devRef .tc main_arg2) = Wl
  generalize W (Proc.devRef .tc main_arg3) = bl
  generalize W (Proc.devRef .tc main_arg4) = Wr
  generalize W (Proc.devRef .tc main_arg5) = g
  generalize W (Proc.devRef .tc main_arg6) = be
  generalize W (Proc.devRef .tc main_arg7) = rm
  generalize W (Proc.devRef .tc main_arg8) = rv
  rfl

/-- The activation of the row at `main_v110`. -/
theorem out_l1b (W : Valuation τ sig (Elt Ideal)) :
    after (opsL1b (F := Ideal)) W (Proc.devRef .tc main_v113) = mishOf (W (Proc.devRef .tc main_v110)) := by
  after_results_simp
  generalize W (Proc.devRef .tc main_v110) = y
  rfl

/-- Layer 2 before the activation, from the kept buffers and the layer's input at `main_v113`. -/
theorem out_l2 {W : Valuation τ sig (Elt Ideal)} {e : IVec S2x1600000 32} {Wl : FVec Ideal S3x128x128 .f32} {bl : FVec Ideal S3x128 .f32}
    {Wr : FVec Ideal S3x128x128 .f32} {g be rm rv : FVec Ideal S3x128 .f32}
    (k : Keeps W e Wl bl Wr g be rm rv) :
    after (opsL2 (F := Ideal)) W (Proc.devRef .tc main_v165)
      = preOf (aggOf e (W (Proc.devRef .tc main_v113))) (W (Proc.devRef .tc main_v113)) (cntOf e) (mat2 Wl) (vec2 bl) (mat2 Wr)
          (vec2 g) (vec2 be) (vec2 rm) (vec2 rv) := by
  obtain ⟨h1, h3, rfl, rfl, rfl, rfl, rfl, rfl, rfl⟩ := k
  after_results_simp
  rw [h1, h3]
  generalize W (Proc.devRef .tc main_v113) = x
  generalize W (Proc.devRef .tc main_arg2) = Wl
  generalize W (Proc.devRef .tc main_arg3) = bl
  generalize W (Proc.devRef .tc main_arg4) = Wr
  generalize W (Proc.devRef .tc main_arg5) = g
  generalize W (Proc.devRef .tc main_arg6) = be
  generalize W (Proc.devRef .tc main_arg7) = rm
  generalize W (Proc.devRef .tc main_arg8) = rv
  rfl

end Cert.ReferenceIdeal.RefValue

end
-- ==== Proof.RefChain.lean ====
/-
  The reference's result as the three layers of RefDefs applied to its nine arguments. The list of the 213 operations
  is the six windows of RefLayers in order; the contents after a list cut in two are the contents after its second
  part run from the contents after its first; so the result buffer holds layer 2's normalised row of layer 1's
  activated row of layer 0's activated row of the node features, each layer reading the same edge rows and stacked
  parameters, which no window after the first writes. With the run of the operations this gives the run's statement
  with the result buffer at that function of the launch contents.
-/
import proofs.«100346_j32134945309201_1_alg».proof.Proof.RefRun
import proofs.«100346_j32134945309201_1_alg».proof.Proof.RefLayers

noncomputable section

namespace Cert.ReferenceIdeal.RefValue

open Cert.ReferenceIdeal Cert.ReferenceIdeal.Gen Idealize.ShloMosaic Idealize.ShloMosaic.TcCoe Idealize.SL.Sem Idealize.ShloMosaic.StableHlo

set_option maxRecDepth 8192 in
/-- The operations' list is the six windows, in order. -/
theorem ops_cut {F : FTy → Type} [FloatOps F] :
    (Cert.ReferenceIdeal.RunP.ops (F := F))
      = opsPre ++ (opsL0a ++ (opsL0b ++ (opsL1a ++ (opsL1b ++ opsL2)))) := rfl

/-- The result buffer after the 213 operations, from the launch contents: the three layers on the arguments. -/
theorem result_eq (m : (ℓ : Loc nD τ sig) → Buf (Elt Ideal) ℓ) (c : Dev nD) :
    StableHlo.after (Cert.ReferenceIdeal.RunP.ops (F := Ideal)) (launchContents m c) (Proc.devRef .tc main_v165)
      = finalOf (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) := by
  have k0 := keeps_pre (launchContents m c)
  have k1 := keeps_l0a k0
  have k2 := keeps_l0b k1
  have k3 := keeps_l1a k2
  have k4 := keeps_l1b k3
  rw [ops_cut, after_append, after_append, after_append, after_append, after_append,
    out_l2 k4, out_l1b, out_l1a k2, out_l0b, out_l0a k0, pre_arg0]
  rfl

/-- On every device, from any memory with zero counters: every weakly fair execution of the reference terminates with
    the result buffer at the three layers on the arguments' launch contents, and the arguments unchanged. -/
theorem run_final (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v165)
        = finalOf (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c).1.trans (result_eq m c), (h c).2⟩)
    (Cert.ReferenceIdeal.RunP.run m ρ)

end Cert.ReferenceIdeal.RefValue

end
-- ==== Proof.RefLayer.lean ====
/-
  One layer of the reference read at an index: the host operations of one layer, as they compose, give at node p and
  channel q exactly the scalar form of the specification, operation for operation; and the per-layer slices of a
  stacked parameter read at an index.
-/
import proofs.«100346_j32134945309201_1_alg».proof.Proof.RefDefs
import proofs.«100346_j32134945309201_1_alg».proof.Proof.LibPlain
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.ValueIdx

/-- A per-channel vector laid along every node's row, at (p, q): the vector at q. -/
theorem alongRows_apply (v : FVec Ideal S128 .f32) (p : Fin 100000) (q : Fin 128) :
    alongRows v (ix2 p q) = v (ix1 q) := by
  unfold alongRows
  rw [broadcastInDim_apply _ bcast_S1x128_S100000x128_0_1 _ (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])]
  exact broadcastInDim_apply _ bcast_S128_S1x128_1 v (ix2 (0 : Fin 1) q) (ix1 q) (fun a => match a with
    | ⟨0, _⟩ => by show q.val = if (128 : Nat) = 1 then 0 else q.val; rw [if_neg (by decide)])

/-- A per-node vector laid along every node's row as a column, at (p, q): the vector at p. -/
theorem alongCols_apply (c : FVec Ideal S100000 .f32) (p : Fin 100000) (q : Fin 128) :
    broadcastInDim S100000x128 ![0, 1] bcast_S100000x1_S100000x128_0_1
      (broadcastInDim S100000x1 ![0] bcast_S100000_S100000x1_0 c) (ix2 p q) = c (ix1 p) := by
  rw [broadcastInDim_apply _ bcast_S100000x1_S100000x128_0_1 _ (ix2 p q) (ix2 p (0 : Fin 1)) (fun a => match a with
    | ⟨0, _⟩ => by show p.val = if (100000 : Nat) = 1 then 0 else p.val; rw [if_neg (by decide)]
    | ⟨1, _⟩ => by show 0 = if (1 : Nat) = 1 then 0 else q.val; rw [if_pos rfl])]
  exact broadcastInDim_apply _ bcast_S100000_S100000x1_0 c (ix2 p (0 : Fin 1)) (ix1 p) (fun a => match a with
    | ⟨0, _⟩ => by show p.val = if (100000 : Nat) = 1 then 0 else p.val; rw [if_neg (by decide)])

/-- A scalar laid over a whole array, at any index: the scalar. -/
theorem scalarOver_apply {t : Shape} (h : S_.BroadcastsInDim t (![] : Fin 0 → Fin t.rank)) (x : FVec Ideal S_ .f32) (i : t.Idx) :
    broadcastInDim t ![] h x i = x ix0 :=
  broadcastInDim_apply _ h x i ix0 (fun a => a.elim0)

/-- The host's product of an [100000,128] array with a [128,128] matrix, at (p, q): the sum over k of L(p,k) · R(k,q). -/
theorem dot_apply (L : FVec Ideal S100000x128 .f32) (R : FVec Ideal S128x128 .f32) (p : Fin 100000) (q : Fin 128) :
    Host.dotGeneral dot_S100000x128_S128x128_S100000x128_1_0_0_1_n_n none L R (ix2 p q)
      = ∑ k : Fin 128, L (ix2 p k) * R (ix2 k q) :=
  Ideal.dotGeneral_plain_apply (M := 100000) (K := 128) (N := 128) none _ L R p q

/-- The three float words of the reference laid over an array are the constant functions at 1, ε and 0. -/
theorem oneOver : broadcastInDim S100000 ![] bcast_S_S100000 (constant (F := Ideal) S_ .f32 0x3F800000#32)
    = fun _ => Cert.Sage.oneV :=
  funext fun i => scalarOver_apply bcast_S_S100000 _ i
theorem epsOver : broadcastInDim S128 ![] bcast_S_S128 (constant (F := Ideal) S_ .f32 0x3727C5AC#32)
    = fun _ => Cert.Sage.epsV :=
  funext fun i => scalarOver_apply bcast_S_S128 _ i
theorem zeroOver : broadcastInDim S100000x128 ![] bcast_S_S100000x128 (constant (F := Ideal) S_ .f32 0x00000000#32)
    = fun _ => Cert.Sage.zeroV :=
  funext fun i => scalarOver_apply bcast_S_S100000x128 _ i

/-- The neighbour sum divided by the clamped count laid along the rows, at (p, k). -/
theorem mean_apply (agg : FVec Ideal S100000x128 .f32) (cnt : FVec Ideal S100000 .f32) (p : Fin 100000) (k : Fin 128) :
    Host.divf (F := Ideal) agg (broadcastInDim S100000x128 ![0, 1] bcast_S100000x1_S100000x128_0_1
        (broadcastInDim S100000x1 ![0] bcast_S100000_S100000x1_0
          (maximumf cnt (broadcastInDim S100000 ![] bcast_S_S100000 (constant (F := Ideal) S_ .f32 0x3F800000#32))))) (ix2 p k)
      = Ideal.div (agg (ix2 p k)) (max (cnt (ix1 p)) Cert.Sage.oneV) := by
  show Ideal.div (agg (ix2 p k)) (broadcastInDim S100000x128 ![0, 1] bcast_S100000x1_S100000x128_0_1
        (broadcastInDim S100000x1 ![0] bcast_S100000_S100000x1_0
          (maximumf cnt (broadcastInDim S100000 ![] bcast_S_S100000 (constant (F := Ideal) S_ .f32 0x3F800000#32)))) (ix2 p k)) = _
  rw [alongCols_apply, oneOver]
  rfl

/-- The scale γ / √(σ² + ε), at q. -/
theorem scale_apply (g rv : FVec Ideal S128 .f32) (q : Fin 128) :
    Host.divf (F := Ideal) g (Host.sqrt (addf rv (broadcastInDim S128 ![] bcast_S_S128 (constant (F := Ideal) S_ .f32 0x3727C5AC#32)))) (ix1 q)
      = Ideal.div (g (ix1 q)) (Ideal.sqrt (rv (ix1 q) + Cert.Sage.epsV)) := by
  rw [epsOver]
  rfl

/-- One layer of the reference before the activation is the specification's layer without the activation. -/
theorem preOf_eq (agg h : FVec Ideal S100000x128 .f32) (cnt : FVec Ideal S100000 .f32) (wl : FVec Ideal S128x128 .f32)
    (bl : FVec Ideal S128 .f32) (wr : FVec Ideal S128x128 .f32) (g be rm rv : FVec Ideal S128 .f32) :
    preOf agg h cnt wl bl wr g be rm rv = Cert.Sage.layerR false agg h cnt wl bl wr g be rm rv := by
  funext i
  obtain ⟨p, q, rfl⟩ : ∃ (p : Fin 100000) (q : Fin 128), i = ix2 p q := ⟨i 0, i 1, eq_ix2 i⟩
  show _ = Cert.Sage.preR (fun k => agg (ix2 p k)) (fun k => h (ix2 p k)) (max (cnt (ix1 p)) Cert.Sage.oneV)
      (fun k q => wl (ix2 k q)) (fun k q => wr (ix2 k q)) (fun q => bl (ix1 q)) (fun q => g (ix1 q))
      (fun q => be (ix1 q)) (fun q => rm (ix1 q)) (fun q => rv (ix1 q)) q
  unfold preOf Cert.Sage.preR
  simp only [addf_apply, mulf_apply, subf_apply]
  rw [dot_apply, dot_apply, alongRows_apply, alongRows_apply, alongRows_apply, alongRows_apply, scale_apply]
  have hm := mean_apply agg cnt p
  simp only [hm]

/-- The activation of the reference at an index is the specification's activation of the entry. -/
theorem mishOf_apply (y : FVec Ideal S100000x128 .f32) (i : S100000x128.Idx) :
    mishOf y i = Cert.Sage.actR true (y i) := by
  unfold mishOf
  rw [zeroOver]
  rfl

/-- One layer of the reference with the activation is the specification's layer with the activation. -/
theorem mishOf_preOf_eq (agg h : FVec Ideal S100000x128 .f32) (cnt : FVec Ideal S100000 .f32) (wl : FVec Ideal S128x128 .f32)
    (bl : FVec Ideal S128 .f32) (wr : FVec Ideal S128x128 .f32) (g be rm rv : FVec Ideal S128 .f32) :
    mishOf (preOf agg h cnt wl bl wr g be rm rv) = Cert.Sage.layerR true agg h cnt wl bl wr g be rm rv := by
  funext i
  rw [mishOf_apply, preOf_eq]
  rfl

/-- Layer l's vector out of a stack of three, at q: the stack at (l, q). -/
theorem vec0_apply (b : FVec Ideal S3x128 .f32) (q : Fin 128) : vec0 b (ix1 q) = b (ix2 (0 : Fin 3) q) := by
  unfold vec0
  rw [shapeCast_apply _ shapeCasts_S1x128_S128 (ix1 q) (ix2 (0 : Fin 1) q)
    (by rw [Shape.rowMajor_val_two, Shape.rowMajor_val_one]; show (0 : Fin 1).val * 128 + q.val = q.val; simp)]
  exact extractStridedSlice_apply ![0, 0] b slices_S3x128_S1x128_0_0 (ix2 (0 : Fin 1) q) (ix2 (0 : Fin 3) q) (fun a => match a with
    | ⟨0, _⟩ => by show (0 : Fin 3).val = 0 + (0 : Fin 1).val; rfl
    | ⟨1, _⟩ => by show q.val = 0 + q.val; omega)
theorem vec1_apply (b : FVec Ideal S3x128 .f32) (q : Fin 128) : vec1 b (ix1 q) = b (ix2 (1 : Fin 3) q) := by
  unfold vec1
  rw [shapeCast_apply _ shapeCasts_S1x128_S128 (ix1 q) (ix2 (0 : Fin 1) q)
    (by rw [Shape.rowMajor_val_two, Shape.rowMajor_val_one]; show (0 : Fin 1).val * 128 + q.val = q.val; simp)]
  exact extractStridedSlice_apply ![1, 0] b slices_S3x128_S1x128_1_0 (ix2 (0 : Fin 1) q) (ix2 (1 : Fin 3) q) (fun a => match a with
    | ⟨0, _⟩ => by show (1 : Fin 3).val = 1 + (0 : Fin 1).val; rfl
    | ⟨1, _⟩ => by show q.val = 0 + q.val; omega)
theorem vec2_apply (b : FVec Ideal S3x128 .f32) (q : Fin 128) : vec2 b (ix1 q) = b (ix2 (2 : Fin 3) q) := by
  unfold vec2
  rw [shapeCast_apply _ shapeCasts_S1x128_S128 (ix1 q) (ix2 (0 : Fin 1) q)
    (by rw [Shape.rowMajor_val_two, Shape.rowMajor_val_one]; show (0 : Fin 1).val * 128 + q.val = q.val; simp)]
  exact extractStridedSlice_apply ![2, 0] b slices_S3x128_S1x128_2_0 (ix2 (0 : Fin 1) q) (ix2 (2 : Fin 3) q) (fun a => match a with
    | ⟨0, _⟩ => by show (2 : Fin 3).val = 2 + (0 : Fin 1).val; rfl
    | ⟨1, _⟩ => by show q.val = 0 + q.val; omega)

end Cert.ReferenceIdeal.RefValue

end
-- ==== Proof.LibPad.lean ====
/-
  General facts about two host layout operations, for any element type: a pad whose low and interior widths are zero,
  onto the operand's own shape, is the operand (so is then its high width); a vector of n entries recast as one row
  [1, n] holds entry q at (0, q). And the one- and two-axis offset vectors of zeros are the zero function.
-/
import Idealize.ShloMosaic.Lib.KernelVsHost
import Idealize.ShloMosaic.Lib.ValueIdx
import Idealize.ShloMosaic.Lib.Pipeline.Value

noncomputable section

namespace Idealize.ShloMosaic

/-- A pad with no low padding and no interior padding, onto the operand's own shape, is the operand. -/
theorem pad_none {s : Shape} {α : Type} {lo hi interior : Fin s.rank → Nat} (hlo : lo = fun _ => 0)
    (hint : interior = fun _ => 0) (x : s.Idx → α) {u : Shape} (v : u.Idx → α) (h : s.Pads lo hi interior s)
    (hu : 0 < u.numel) : pad s lo hi interior x v h hu = x := by
  subst hlo hint
  funext j
  refine pad_apply_of_inside _ hi _ x v h hu j j fun a => ?_
  show (j (a.cast h.1)).val = 0 + (j a).val * (0 + 1)
  simp

theorem zero_offsets1 : (![0] : Fin 1 → Nat) = fun _ => 0 := by
  funext a; fin_cases a; rfl

theorem zero_offsets2' : (![0, 0] : Fin 2 → Nat) = fun _ => 0 := by
  funext a; fin_cases a <;> rfl

/-- A vector of n entries recast as one row [1, n], at (0, q): entry q. -/
theorem shapeCast_row {α : Type} {n : Nat} (x : (⟨1, ![n]⟩ : Shape).Idx → α) (h : (⟨1, ![n]⟩ : Shape).ShapeCasts ⟨2, ![1, n]⟩)
    (q : Fin n) : shapeCast ⟨2, ![1, n]⟩ x h (ValueIdx.ix2 (0 : Fin 1) q) = x (ValueIdx.ix1 q) := by
  refine shapeCast_apply x h (ValueIdx.ix2 0 q) (ValueIdx.ix1 q) ?_
  rw [Shape.rowMajor_val_one, Shape.rowMajor_val_two]
  show q.val = (0 : Fin 1).val * n + q.val
  simp

end Idealize.ShloMosaic

end
-- ==== Proof.Bridge.lean ====
/-
  The reference program's function of the nine arguments is the kernel program's. The gather and scatter positions, the
  neighbour sum, the neighbour count and the per-layer slices are the same operations in both programs; per layer the
  reference's operations read at an index are one spelling of the layer and the kernel tile's the other, and the law
  between the two spellings applies because the kernel's column holds 1 / max(count, 1) at every node, each of its one-row
  arrays holds its vector's entries, and the stored variances are non-negative reals.
-/
import proofs.«100346_j32134945309201_1_alg».proof.Proof.KDefs
import proofs.«100346_j32134945309201_1_alg».proof.Proof.RefDefs
import proofs.«100346_j32134945309201_1_alg».proof.Proof.RefLayer
import proofs.«100346_j32134945309201_1_alg».proof.Proof.LibPlain
import proofs.«100346_j32134945309201_1_alg».proof.Proof.LibPad
import Idealize.ShloMosaic.Lib.IdealHost

noncomputable section

namespace Cert.Bridge

open Idealize.ShloMosaic Idealize.ShloMosaic.ValueIdx
open Cert.KernelIdeal.KValue

/-! ## The shared host operations are the same functions -/

theorem agg_eq (e : IVec Cert.KernelIdeal.S2x1600000 32) (h : FVec Ideal Cert.KernelIdeal.S100000x128 .f32) :
    Cert.ReferenceIdeal.RefValue.aggOf e h = aggW (row0 e) (row1 e) h := rfl
theorem cnt_eq (e : IVec Cert.KernelIdeal.S2x1600000 32) : Cert.ReferenceIdeal.RefValue.cntOf e = cntW (row1 e) := rfl
theorem mat0_eq (W : FVec Ideal Cert.KernelIdeal.S3x128x128 .f32) : Cert.ReferenceIdeal.RefValue.mat0 W = mat0 W := rfl
theorem mat1_eq (W : FVec Ideal Cert.KernelIdeal.S3x128x128 .f32) : Cert.ReferenceIdeal.RefValue.mat1 W = mat1 W := rfl
theorem mat2_eq (W : FVec Ideal Cert.KernelIdeal.S3x128x128 .f32) : Cert.ReferenceIdeal.RefValue.mat2 W = mat2 W := rfl
theorem vec0_eq (b : FVec Ideal Cert.KernelIdeal.S3x128 .f32) : Cert.ReferenceIdeal.RefValue.vec0 b = vec0 b := rfl
theorem vec1_eq (b : FVec Ideal Cert.KernelIdeal.S3x128 .f32) : Cert.ReferenceIdeal.RefValue.vec1 b = vec1 b := rfl
theorem vec2_eq (b : FVec Ideal Cert.KernelIdeal.S3x128 .f32) : Cert.ReferenceIdeal.RefValue.vec2 b = vec2 b := rfl

/-! ## The kernel's prepared arrays at an index -/

/-- The constant 1 laid over the nodes reads 1 at every node. -/
theorem one_over (h : Cert.KernelIdeal.S_.BroadcastsInDim Cert.KernelIdeal.S100000 (![] : Fin 0 → Fin Cert.KernelIdeal.S100000.rank)) (i : Cert.KernelIdeal.S100000.Idx) :
    broadcastInDim Cert.KernelIdeal.S100000 ![] h (constant (F := Ideal) Cert.KernelIdeal.S_ .f32 0x3F800000#32) i = Cert.Sage.oneV := by
  rw [broadcastInDim_scalar_apply, constant_apply]; rfl

/-- The column 1 / max(count, 1), for any array of counts, at node p. -/
theorem ic_core (cnt : FVec Ideal Cert.KernelIdeal.S100000 .f32)
    (hb : Cert.KernelIdeal.S_.BroadcastsInDim Cert.KernelIdeal.S100000 (![] : Fin 0 → Fin Cert.KernelIdeal.S100000.rank))
    (hc : Cert.KernelIdeal.S100000.ShapeCasts Cert.KernelIdeal.S100000x1) (p : Fin 100000) :
    shapeCast Cert.KernelIdeal.S100000x1 (Host.divf (broadcastInDim Cert.KernelIdeal.S100000 ![] hb (constant (F := Ideal) Cert.KernelIdeal.S_ .f32 0x3F800000#32))
      (maximumf cnt (broadcastInDim Cert.KernelIdeal.S100000 ![] hb (constant (F := Ideal) Cert.KernelIdeal.S_ .f32 0x3F800000#32)))) hc (ix2 p (0 : Fin 1))
      = Ideal.div Cert.Sage.oneV (max (cnt (ix1 p)) Cert.Sage.oneV) := by
  rw [shapeCast_col]
  show Ideal.div (broadcastInDim Cert.KernelIdeal.S100000 ![] hb (constant (F := Ideal) Cert.KernelIdeal.S_ .f32 0x3F800000#32) (ix1 p))
    (max (cnt (ix1 p)) (broadcastInDim Cert.KernelIdeal.S100000 ![] hb (constant (F := Ideal) Cert.KernelIdeal.S_ .f32 0x3F800000#32) (ix1 p))) = _
  rw [one_over]

theorem ic_apply (d : IVec Cert.KernelIdeal.S1600000 32) (p : Fin 100000) :
    icW d (ix2 p (0 : Fin 1)) = Ideal.div Cert.Sage.oneV (max (cntW d (ix1 p)) Cert.Sage.oneV) :=
  ic_core (cntW d) _ _ p

/-- A vector laid out as one row holds entry q at (0, q). -/
theorem row_apply (v : FVec Ideal Cert.KernelIdeal.S128 .f32) (q : Fin 128) : rowOf v (ix2 (0 : Fin 1) q) = v (ix1 q) := by
  unfold rowOf
  exact shapeCast_row v _ q

/-! ## Layer by layer -/

/-- Layer 0: the reference's operations and the kernel tile's are one function of the same arrays. -/
theorem layer0_eq (e : IVec Cert.KernelIdeal.S2x1600000 32) (h : FVec Ideal Cert.KernelIdeal.S100000x128 .f32) (Wl : FVec Ideal Cert.KernelIdeal.S3x128x128 .f32)
    (bl : FVec Ideal Cert.KernelIdeal.S3x128 .f32) (Wr : FVec Ideal Cert.KernelIdeal.S3x128x128 .f32) (g be rm rv : FVec Ideal Cert.KernelIdeal.S3x128 .f32)
    (hrv : ∀ q : Fin 128, ∃ r : ℝ, 0 ≤ r ∧ rv (ix2 (0 : Fin 3) q) = (r : EReal)) :
    Cert.ReferenceIdeal.RefValue.layer0 e h Wl bl Wr g be rm rv = kstep0 (row0 e) (row1 e) h Wl bl Wr g be rm rv := by
  unfold Cert.ReferenceIdeal.RefValue.layer0 kstep0
  rw [Cert.ReferenceIdeal.RefValue.mishOf_preOf_eq, agg_eq, cnt_eq, mat0_eq, mat0_eq, vec0_eq, vec0_eq, vec0_eq, vec0_eq, vec0_eq]
  exact Cert.Sage.layer_law true (aggW (row0 e) (row1 e) h) h (cntW (row1 e)) (icW (row1 e)) (mat0 Wl) (mat0 Wr)
    (vec0 bl) (vec0 g) (vec0 be) (vec0 rm) (vec0 rv) (rowOf (vec0 bl)) (rowOf (vec0 g)) (rowOf (vec0 be))
    (rowOf (vec0 rm)) (rowOf (vec0 rv)) (fun p => ic_apply (row1 e) p) (fun q => row_apply _ q) (fun q => row_apply _ q)
    (fun q => row_apply _ q) (fun q => row_apply _ q) (fun q => row_apply _ q)
    (fun q => by rw [← vec0_eq, Cert.ReferenceIdeal.RefValue.vec0_apply]; exact hrv q)

/-- Layer 1: the reference's operations and the kernel tile's are one function of the same arrays. -/
theorem layer1_eq (e : IVec Cert.KernelIdeal.S2x1600000 32) (h : FVec Ideal Cert.KernelIdeal.S100000x128 .f32) (Wl : FVec Ideal Cert.KernelIdeal.S3x128x128 .f32)
    (bl : FVec Ideal Cert.KernelIdeal.S3x128 .f32) (Wr : FVec Ideal Cert.KernelIdeal.S3x128x128 .f32) (g be rm rv : FVec Ideal Cert.KernelIdeal.S3x128 .f32)
    (hrv : ∀ q : Fin 128, ∃ r : ℝ, 0 ≤ r ∧ rv (ix2 (1 : Fin 3) q) = (r : EReal)) :
    Cert.ReferenceIdeal.RefValue.layer1 e h Wl bl Wr g be rm rv = kstep1 (row0 e) (row1 e) h Wl bl Wr g be rm rv := by
  unfold Cert.ReferenceIdeal.RefValue.layer1 kstep1
  rw [Cert.ReferenceIdeal.RefValue.mishOf_preOf_eq, agg_eq, cnt_eq, mat1_eq, mat1_eq, vec1_eq, vec1_eq, vec1_eq, vec1_eq, vec1_eq]
  exact Cert.Sage.layer_law true (aggW (row0 e) (row1 e) h) h (cntW (row1 e)) (icW (row1 e)) (mat1 Wl) (mat1 Wr)
    (vec1 bl) (vec1 g) (vec1 be) (vec1 rm) (vec1 rv) (rowOf (vec1 bl)) (rowOf (vec1 g)) (rowOf (vec1 be))
    (rowOf (vec1 rm)) (rowOf (vec1 rv)) (fun p => ic_apply (row1 e) p) (fun q => row_apply _ q) (fun q => row_apply _ q)
    (fun q => row_apply _ q) (fun q => row_apply _ q) (fun q => row_apply _ q)
    (fun q => by rw [← vec1_eq, Cert.ReferenceIdeal.RefValue.vec1_apply]; exact hrv q)

/-- Layer 2: the reference's operations and the kernel tile's are one function of the same arrays. -/
theorem layer2_eq (e : IVec Cert.KernelIdeal.S2x1600000 32) (h : FVec Ideal Cert.KernelIdeal.S100000x128 .f32) (Wl : FVec Ideal Cert.KernelIdeal.S3x128x128 .f32)
    (bl : FVec Ideal Cert.KernelIdeal.S3x128 .f32) (Wr : FVec Ideal Cert.KernelIdeal.S3x128x128 .f32) (g be rm rv : FVec Ideal Cert.KernelIdeal.S3x128 .f32)
    (hrv : ∀ q : Fin 128, ∃ r : ℝ, 0 ≤ r ∧ rv (ix2 (2 : Fin 3) q) = (r : EReal)) :
    Cert.ReferenceIdeal.RefValue.layer2 e h Wl bl Wr g be rm rv = kstep2 (row0 e) (row1 e) h Wl bl Wr g be rm rv := by
  unfold Cert.ReferenceIdeal.RefValue.layer2 kstep2
  rw [Cert.ReferenceIdeal.RefValue.preOf_eq, agg_eq, cnt_eq, mat2_eq, mat2_eq, vec2_eq, vec2_eq, vec2_eq, vec2_eq, vec2_eq]
  exact Cert.Sage.layer_law false (aggW (row0 e) (row1 e) h) h (cntW (row1 e)) (icW (row1 e)) (mat2 Wl) (mat2 Wr)
    (vec2 bl) (vec2 g) (vec2 be) (vec2 rm) (vec2 rv) (rowOf (vec2 bl)) (rowOf (vec2 g)) (rowOf (vec2 be))
    (rowOf (vec2 rm)) (rowOf (vec2 rv)) (fun p => ic_apply (row1 e) p) (fun q => row_apply _ q) (fun q => row_apply _ q)
    (fun q => row_apply _ q) (fun q => row_apply _ q) (fun q => row_apply _ q)
    (fun q => by rw [← vec2_eq, Cert.ReferenceIdeal.RefValue.vec2_apply]; exact hrv q)

/-- The two programs compute one function of the nine arguments, when the stored variances are non-negative reals. -/
theorem final_eq (x : FVec Ideal Cert.KernelIdeal.S100000x128 .f32) (e : IVec Cert.KernelIdeal.S2x1600000 32) (Wl : FVec Ideal Cert.KernelIdeal.S3x128x128 .f32)
    (bl : FVec Ideal Cert.KernelIdeal.S3x128 .f32) (Wr : FVec Ideal Cert.KernelIdeal.S3x128x128 .f32) (g be rm rv : FVec Ideal Cert.KernelIdeal.S3x128 .f32)
    (hrv : ∀ (l : Fin 3) (q : Fin 128), ∃ r : ℝ, 0 ≤ r ∧ rv (ix2 l q) = (r : EReal)) :
    Cert.ReferenceIdeal.RefValue.finalOf x e Wl bl Wr g be rm rv = kfinalOf x e Wl bl Wr g be rm rv := by
  unfold Cert.ReferenceIdeal.RefValue.finalOf kfinalOf
  rw [layer0_eq e x Wl bl Wr g be rm rv (hrv 0), layer1_eq e _ Wl bl Wr g be rm rv (hrv 1), layer2_eq e _ Wl bl Wr g be rm rv (hrv 2)]

end Cert.Bridge

end
-- ==== Proof.PreVar.lean ====
/-
  The precondition decoded at the running variance.  The certificate's precondition is one i1 scalar: the conjunction,
  over the eight float arguments, of "|x| < +∞ at every entry", and of "run_var ≥ 0 at every entry".  Read at one
  entry (l, q) of run_var, the two conjuncts that speak of it say: the entry is neither infinity nor junk, so it is a
  real number r, and 0 ≤ r.
-/
import proofs.«100346_j32134945309201_1_alg».proof.Defs
import proofs.«100346_j32134945309201_1_alg».proof.Proof.Gen.Pre_finite_inputs
import Idealize.ShloMosaic.Lib.ReduceAll
import Idealize.ShloMosaic.Lib.ValueIdx
import Idealize.ShloMosaic.PureOps.Ideal.Laws

noncomputable section

namespace Cert.PreVar

open Idealize.ShloMosaic Cert.Pre_finite_inputs

/-- The rank-0 shape has one index. -/
instance subsingleton_scalar_idx : Subsingleton S_.Idx := ⟨fun a b => funext fun d => d.elim0⟩

/-- The pattern 0x7F800000 denotes +∞. -/
theorem ofBits_inf_f32 : Ideal.ofBits .f32 0x7F800000#32 = (⊤ : EReal) := by simp [Ideal.ofBits, Ideal.ieee]

/-- An extended real whose absolute value max a (−a) lies below +∞ is a real number. -/
theorem real_of_abs_lt_inf (a : EReal)
    (h : Ideal.cmp .olt (max a (-a)) (Ideal.ofBits .f32 0x7F800000#32) = 1#1) : ∃ r : ℝ, a = (r : EReal) := by
  rw [ofBits_inf_f32] at h
  unfold Ideal.cmp at h
  induction a using EReal.rec with
  | bot => simp at h
  | top => simp at h
  | coe r => exact ⟨r, rfl⟩

/-- A real number that compares ≥ against the zero pattern is non-negative. -/
theorem nonneg_of_ge_zero (r : ℝ)
    (h : Ideal.cmp .oge ((r : ℝ) : EReal) (Ideal.ofBits .f32 0x00000000#32) = 1#1) : 0 ≤ r := by
  rw [Ideal.ofBits_zero_f32] at h
  unfold Ideal.cmp at h
  by_contra hn
  have : ¬ ((0 : EReal) ≤ (r : EReal)) := by
    rw [EReal.coe_nonneg]; exact hn
  simp [this] at h

/-- The last two conjuncts of the precondition, read at one entry of run_var: |rv i| < +∞ and rv i ≥ 0. -/
theorem part2_entry (rv : FVec Ideal S3x128 .f32) (v : IVec S_ 1)
    (h : fn_part2 (F := Ideal) rv v = fun _ => 1#1) (i : S3x128.Idx) :
    Ideal.cmp .olt (max (rv i) (-(rv i))) (Ideal.ofBits .f32 0x7F800000#32) = 1#1
      ∧ Ideal.cmp .oge (rv i) (Ideal.ofBits .f32 0x00000000#32) = 1#1 := by
  have e := congrFun h ValueIdx.ix0
  unfold fn_part2 at e
  dsimp only at e
  obtain ⟨e1, e2⟩ := IntOp.andi_eq_one.1 e
  obtain ⟨-, e3⟩ := IntOp.andi_eq_one.1 e1
  exact ⟨Host.reduce_andi_all _ _ _ _ _ e3 i, Host.reduce_andi_all _ _ _ _ _ e2 i⟩

/-- THE PRECONDITION DECODED at entry (l, q) of run_var: a non-negative real. -/
theorem var_nonneg (x : FVec Ideal S100000x128 .f32) (e : IVec S2x1600000 32) (Wl : FVec Ideal S3x128x128 .f32)
    (bl : FVec Ideal S3x128 .f32) (Wr : FVec Ideal S3x128x128 .f32) (g be rm rv : FVec Ideal S3x128 .f32)
    (h : Cert.Pre_finite_inputs.fn (F := Ideal) x e Wl bl Wr g be rm rv = fun _ => 1#1) (l : Fin 3) (q : Fin 128) :
    ∃ r : ℝ, 0 ≤ r ∧ rv (ValueIdx.ix2 l q) = (r : EReal) := by
  -- the printed chain ends in its second part, applied to run_var and the conjunction of everything before
  obtain ⟨v, hv⟩ : ∃ v : IVec S_ 1, fn_part2 (F := Ideal) rv v = fun _ => 1#1 := ⟨_, h⟩
  obtain ⟨hfin, hge⟩ := part2_entry rv v hv (ValueIdx.ix2 l q)
  obtain ⟨r, hr⟩ := real_of_abs_lt_inf _ hfin
  rw [hr] at hge
  exact ⟨r, nonneg_of_ge_zero r hge, hr⟩

/-- The same in the claims' own words: under the idealized kernel's precondition, on every device, entry (l, q) of
    the run_var argument is a non-negative real. -/
theorem var_nonneg_of_pre
    (m : (ℓ : Loc Cert.KernelIdeal.nD Cert.KernelIdeal.τ Cert.KernelIdeal.sig) → Buf (Elt Ideal) ℓ)
    (hpre : Cert.Pre_KernelIdeal m) (c : Dev Cert.KernelIdeal.nD) (l : Fin 3) (q : Fin 128) :
    ∃ r : ℝ, 0 ≤ r ∧ (m ((c.tc : Thread Cert.KernelIdeal.nD Cert.KernelIdeal.τ).loc Cert.KernelIdeal.main_arg8) :
        Cert.KernelIdeal.S3x128.Idx → EReal) (ValueIdx.ix2 l q) = (r : EReal) :=
  var_nonneg _ _ _ _ _ _ _ _ _ (hpre c) l q

end Cert.PreVar

end
-- ==== Proof.lean ====
/-
  Three layers of a mean-aggregating graph convolution with a stored-statistics batch normalisation, the first two
  followed by x · tanh(softplus x), over 100000 nodes, 128 channels and 1.6 million edges: a program of three pallas_calls
  (one per layer, each tiling the nodes by 10000) among host gathers and scatter-adds, against plain jnp.

  Both programs take the neighbour sums by the same gather and scatter-add and the neighbour counts by the same
  scatter-add of ones. Per layer the kernel tile multiplies the neighbour sum by a column 1 / max(count, 1) prepared once,
  adds the bias after both matrix products and scales by γ · (σ² + ε)^(−1/2); the reference divides by max(count, 1), adds
  the bias between the products and scales by γ / √(σ² + ε). At the exact values these are one function whenever σ² is a
  non-negative real — the count clamped at 1 is never zero, sums of extended reals commute and associate, and σ² + ε is
  then a positive real — and for σ² + ε ≤ 0 they are not (γ · ⊥ against γ · 0), which is why the precondition asks, beside
  finiteness, for non-negative stored variances.

  The kernel's run is the frame's run with the result buffer read off the last segment boundary; that buffer is walked
  back through the three calls (each leaves the layer function of its input arrays, tile by tile) and the host stretches
  between them. The reference's run is its list of host operations read layer by layer. The two results are then the
  same function of the nine arguments, layer by layer.
-/
import proofs.«100346_j32134945309201_1_alg».proof.Defs
import proofs.«100346_j32134945309201_1_alg».proof.Proof.Gen.Kernel
import proofs.«100346_j32134945309201_1_alg».proof.Proof.Gen.Kernel.Skeleton
import proofs.«100346_j32134945309201_1_alg».proof.Proof.Gen.Kernel.Launch
import proofs.«100346_j32134945309201_1_alg».proof.Proof.Gen.Kernel.Points
import proofs.«100346_j32134945309201_1_alg».proof.Proof.Gen.Kernel.Frame
import proofs.«100346_j32134945309201_1_alg».proof.Proof.Gen.KernelIdeal
import proofs.«100346_j32134945309201_1_alg».proof.Proof.Gen.KernelIdeal.Skeleton
import proofs.«100346_j32134945309201_1_alg».proof.Proof.Gen.KernelIdeal.Launch
import proofs.«100346_j32134945309201_1_alg».proof.Proof.Gen.KernelIdeal.Points
import proofs.«100346_j32134945309201_1_alg».proof.Proof.Gen.KernelIdeal.Frame
import proofs.«100346_j32134945309201_1_alg».proof.Proof.Gen.ReferenceIdeal
import proofs.«100346_j32134945309201_1_alg».proof.Proof.Gen.Pre_finite_inputs
import proofs.«100346_j32134945309201_1_alg».proof.Proof.KRun
import proofs.«100346_j32134945309201_1_alg».proof.Proof.KChain
import proofs.«100346_j32134945309201_1_alg».proof.Proof.KRegion0
import proofs.«100346_j32134945309201_1_alg».proof.Proof.KRegion1
import proofs.«100346_j32134945309201_1_alg».proof.Proof.KRegion2
import proofs.«100346_j32134945309201_1_alg».proof.Proof.RefChain
import proofs.«100346_j32134945309201_1_alg».proof.Proof.Bridge
import proofs.«100346_j32134945309201_1_alg».proof.Proof.PreVar
import Idealize.ShloMosaic.Adequacy
import Idealize.ShloMosaic.Init

noncomputable section

namespace Cert.Proof

open Idealize.ShloMosaic Idealize.SL.Sem Cert.Kernel

/-- The three programs run, and leave their arguments as launched. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefValue.run_final m ρ)

/-- The idealization rewrote nothing. -/
theorem preserves : Cert.preserves_Kernel_KernelIdeal := trivial

/-- At the exact values both programs end with the same result: the kernel's three layers of the arguments. -/
theorem algebraic : Cert.algebraic_KernelIdeal_ReferenceIdeal := by
  intro m ρ m' ρ' hpre hagree
  refine ⟨fun c => Cert.KernelIdeal.KValue.kfinalOf (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.KValue.w6_result m ρ c Cert.KernelIdeal.RegionValue.value0
        Cert.KernelIdeal.RegionValue.value1 Cert.KernelIdeal.RegionValue.value2), (h c).2⟩)
      (Cert.KernelIdeal.RunValue.run_result m ρ)
  · refine (θ_run Cert.ReferenceIdeal.defs _ _).mono (fun r h c => ⟨(h c).1.trans ?_, (h c).2⟩)
      (Cert.ReferenceIdeal.RefValue.run_final m' ρ')
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2]
    exact Cert.Bridge.final_eq _ _ _ _ _ _ _ _ _ (fun l q => Cert.PreVar.var_nonneg_of_pre m hpre c l q)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
